-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg12 : FVec F S16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x16 .f32) (main_arg11 : FVec F S128x16 .f32) (main_arg12 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x16 .f32 := Host.absf main_arg10
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S128x16 .f32 := Host.absf main_arg11
  let main_cst_18 : FVec F S_ .f32 := constant S_ .f32 0x7F800000#32
  let main_v50 : FVec F S128x16 .f32 := broadcastInDim S128x16 ![] bcast_S_S128x16 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x16 .f32) (main_arg11 : FVec F S128x16 .f32) (main_arg12 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) (main_arg10 : FVec F S128x16 .f32) (main_arg11 : FVec F S128x16 .f32) (main_arg12 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S1x16 : Shape := ⟨2, ![1, 16]⟩
abbrev S50000x16 : Shape := ⟨2, ![50000, 16]⟩
abbrev S2000x16 : Shape := ⟨2, ![2000, 16]⟩
abbrev S2000 : Shape := ⟨1, ![2000]⟩
abbrev S2000x1 : Shape := ⟨2, ![2000, 1]⟩

abbrev nBuf : Space → Nat
  | .hbm => 129
  | .vmem => 39
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x16, .f32⟩
  | 11 => ⟨S128x16, .f32⟩
  | 12 => ⟨S16, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S_, .f32⟩
  | 27 => ⟨S50000, .f32⟩
  | 28 => ⟨S50000, .f32⟩
  | 29 => ⟨S50000x1, .f32⟩
  | 30 => ⟨S_, .f32⟩
  | 31 => ⟨S50000, .f32⟩
  | 32 => ⟨S50000, .f32⟩
  | 33 => ⟨S50000, .f32⟩
  | 34 => ⟨S_, .f32⟩
  | 35 => ⟨S50000, .f32⟩
  | 36 => ⟨S50000, .f32⟩
  | 37 => ⟨S50000x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000, .f32⟩
  | 74 => ⟨S800000, .f32⟩
  | 75 => ⟨S800000x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x128, .f32⟩
  | 109 => ⟨S50000x128, .f32⟩
  | 110 => ⟨S1x128, .f32⟩
  | 111 => ⟨S50000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S50000x128, .f32⟩
  | 126 => ⟨S50000x128, .f32⟩
  | 127 => ⟨S1x16, .f32⟩
  | _ => ⟨S50000x128, .f32⟩

abbrev hbmTy0_1 (i : Nat) : BufTy := match i % 128 with
  | 0 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x16, .f32⟩
  | .local _ .vmem, ⟨35, _⟩ => ⟨S128x16, .f32⟩
  | .local _ .vmem, ⟨36, _⟩ => ⟨S1x16, .f32⟩
  | .local _ .vmem, ⟨37, _⟩ => ⟨S2000x16, .f32⟩
  | .local _ .vmem, ⟨38, _⟩ => ⟨S2000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_c_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_11 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x16 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S800000_S800000x1 : S800000.ShapeCasts S800000x1
  bcast_S800000x1_S800000x128_0_1 : S800000x1.BroadcastsInDim S800000x128 (![0, 1] : Fin 2 → Fin S800000x128.rank)
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  gather_S50000_S800000x1_S800000_n_0_n_n_0_1_1_wf : GatherDims.WF S50000 S800000x1 S800000 [] [0] [] [0] [] 1 ![1]
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x16.size a ≤ S128x16.size a
  hwx4_2 : ∀ i : grid4.Coords, EltTy.bits .f32 = 32 ∨ (Rect.block (s := S128x16) S128x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x16.size a ≤ S128x16.size a
  hwx4_3 : ∀ i : grid4.Coords, EltTy.bits .f32 = 32 ∨ (Rect.block (s := S128x16) S128x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x16.size a ≤ S50000x16.size a
  hwx4_5 : ∀ i : grid4.Coords, EltTy.bits .f32 = 32 ∨ (Rect.block (s := S50000x16) S2000x16.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v91) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v92) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v93) S2000x16.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x16 : Shape := ⟨2, ![50000, 16]⟩
abbrev S1x16 : Shape := ⟨2, ![1, 16]⟩

abbrev nBuf : Space → Nat
  | .hbm => 190
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x16, .f32⟩
  | 11 => ⟨S128x16, .f32⟩
  | 12 => ⟨S16, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .f32⟩
  | 52 => ⟨S800000, .f32⟩
  | 53 => ⟨S_, .f32⟩
  | 54 => ⟨S50000, .f32⟩
  | 55 => ⟨S800000x1, .i32⟩
  | 56 => ⟨S50000, .f32⟩
  | 57 => ⟨S_, .f32⟩
  | 58 => ⟨S50000, .f32⟩
  | 59 => ⟨S50000, .f32⟩
  | 60 => ⟨S50000, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S800000, .f32⟩
  | 90 => ⟨S800000x1, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .f32⟩
  | 98 => ⟨S50000, .f32⟩
  | 99 => ⟨S50000, .f32⟩
  | 100 => ⟨S50000x1, .f32⟩
  | 101 => ⟨S50000x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S_, .f32⟩
  | 124 => ⟨S800000, .f32⟩
  | 125 => ⟨S_, .f32⟩
  | 126 => ⟨S50000, .f32⟩
  | 127 => ⟨S800000x1, .i32⟩
  | _ => ⟨S50000x128, .f32⟩

abbrev hbmTy0_1 (i : Nat) : BufTy := match i % 128 with
  | 0 => ⟨S50000, .f32⟩
  | 1 => ⟨S_, .f32⟩
  | 2 => ⟨S50000, .f32⟩
  | 3 => ⟨S50000, .f32⟩
  | 4 => ⟨S50000x1, .f32⟩
  | 5 => ⟨S50000x128, .f32⟩
  | 6 => ⟨S50000x128, .f32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S50000x16, .f32⟩
  | 42 => ⟨S50000x16, .f32⟩
  | 43 => ⟨S50000x16, .f32⟩
  | 44 => ⟨S1x16, .f32⟩
  | 45 => ⟨S50000x16, .f32⟩
  | 46 => ⟨S50000x16, .f32⟩
  | 47 => ⟨S_, .f32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x16, .f32⟩
  | 54 => ⟨S50000x16, .f32⟩
  | 55 => ⟨S50000x16, .f32⟩
  | 56 => ⟨S_, .f32⟩
  | 57 => ⟨S50000, .f32⟩
  | 58 => ⟨S50000x1, .f32⟩
  | 59 => ⟨S50000x1, .f32⟩
  | 60 => ⟨S50000x16, .f32⟩
  | 61 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call1_cst : Ref sig .tc := ⟨.hbm, 107, rfl⟩
abbrev main_call1_v0 : Ref sig .tc := ⟨.hbm, 108, rfl⟩
abbrev main_v75 : Ref sig .tc := ⟨.hbm, 109, rfl⟩
abbrev main_c_15 : Ref sig .tc := ⟨.hbm, 110, rfl⟩
abbrev main_v76 : Ref sig .tc := ⟨.hbm, 111, rfl⟩
abbrev main_v77 : Ref sig .tc := ⟨.hbm, 112, rfl⟩
abbrev main_c_16 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_18 : Ref sig .tc := ⟨.hbm, 123, rfl⟩
abbrev main_v86 : Ref sig .tc := ⟨.hbm, 124, rfl⟩
abbrev main_cst_19 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_20 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call2_cst : Ref sig .tc := ⟨.hbm, 141, rfl⟩
abbrev main_call2_v0 : Ref sig .tc := ⟨.hbm, 142, rfl⟩
abbrev main_v101 : Ref sig .tc := ⟨.hbm, 143, rfl⟩
abbrev main_c_21 : Ref sig .tc := ⟨.hbm, 144, rfl⟩
abbrev main_v102 : Ref sig .tc := ⟨.hbm, 145, rfl⟩
abbrev main_v103 : Ref sig .tc := ⟨.hbm, 146, rfl⟩
abbrev main_c_22 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_23 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_24 : Ref sig .tc := ⟨.hbm, 157, rfl⟩
abbrev main_v112 : Ref sig .tc := ⟨.hbm, 158, rfl⟩
abbrev main_cst_25 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_26 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_call3_cst : Ref sig .tc := ⟨.hbm, 175, rfl⟩
abbrev main_call3_v0 : Ref sig .tc := ⟨.hbm, 176, rfl⟩
abbrev main_call3_cst_0 : Ref sig .tc := ⟨.hbm, 177, rfl⟩
abbrev main_call3_v1 : Ref sig .tc := ⟨.hbm, 178, rfl⟩
abbrev main_call3_v2 : Ref sig .tc := ⟨.hbm, 179, rfl⟩
abbrev main_call3_v3 : Ref sig .tc := ⟨.hbm, 180, rfl⟩
abbrev main_call3_v4 : Ref sig .tc := ⟨.hbm, 181, rfl⟩
abbrev main_call3_v5 : Ref sig .tc := ⟨.hbm, 182, rfl⟩
abbrev main_call3_v6 : Ref sig .tc := ⟨.hbm, 183, rfl⟩
abbrev main_call3_cst_1 : Ref sig .tc := ⟨.hbm, 184, rfl⟩
abbrev main_call3_v7 : Ref sig .tc := ⟨.hbm, 185, rfl⟩
abbrev main_call3_v8 : Ref sig .tc := ⟨.hbm, 186, rfl⟩
abbrev main_call3_v9 : Ref sig .tc := ⟨.hbm, 187, rfl⟩
abbrev main_call3_v10 : Ref sig .tc := ⟨.hbm, 188, rfl⟩
abbrev main_v127 : Ref sig .tc := ⟨.hbm, 189, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x128_0_1 : S800000x1.BroadcastsInDim S800000x128 (![0, 1] : Fin 2 → Fin S800000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000x1_S50000x16_0_1 : S50000x1.BroadcastsInDim S50000x16 (![0, 1] : Fin 2 → Fin S50000x16.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  dot_S50000x128_S128x16_S50000x16_1_0_0_1_n_n_wf : DotDims.WF S50000x128 S128x16 S50000x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KernelRun.lean ====
/-
  The kernel program's run with its result named: every weakly fair execution of @main terminates, nothing
  faulting, and in every final state the result buffer holds what the fold of the program's segments leaves there
  (the contents `W9` after the fifth region), the thirteen argument arrays being as launched. The run is the launch
  of the five regions among the stretches of host operations; the last thread state holds every unscoped buffer at
  the last contents, and the result buffer is one of them.
-/
import proofs.«126889_j85615878078998_1_alg».proof.Proof.Gen.KernelIdeal.Frame

set_option maxRecDepth 16384

noncomputable section

namespace Cert.KernelIdeal.RunOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_out : θ_run defs (onTc (τ := τ) (main (F := F))) ⟨m, fun _ => 0, ρ⟩ (fun r => ∀ c : Dev nD,
      r.2.mem ((c.tc : Thread nD τ).loc main_v93) = W9 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v93 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.RunOut

end
-- ==== Proof.LibRowSteps.lean ====
/-
  Reusable definitions and lemmas: three dense steps of a graph network on whole arrays, and their row locality.

  The three dense steps of a two-layer graph convolution, each as one function of whole arrays over the extended
  reals, entry by entry, and the fact the proof rests on: every step is ROW-LOCAL. Row p of the result reads row p
  of its first operand and nothing else of it (the second operand — a weight matrix, or a bias row — is read whole),
  so a block of consecutive rows of the result is the same step applied to that block of rows.

    dense x w      [p, q] = Σ_k x[p, k] · w[k, q]                              (a feature transform)
    biasClamp a b  [p, q] = max (a[p, q] + b[0, q]) 0                          (bias, then clamp at zero)
    logSoftmax a b [p, q] = v[p, q] − M_p − log Σ_j exp (v[p, j] − M_p),       v = a + b[0, ·],  M_p = max_j v[p, j]

  The row maximum is the fold of max from −∞ and the two float literals stay the words the programs print (zero and
  −∞ in f32): the same word stands on both sides of every comparison, so neither is ever evaluated. Generic in the
  extents.
-/
import Idealize.ShloMosaic.PureOps.Ideal
import Idealize.ShloMosaic.Lib.ValueIdx

noncomputable section

namespace Cert.Gcn

open Idealize.ShloMosaic Idealize.ShloMosaic.ValueIdx

/-- An [a, b] array over the extended reals. -/
abbrev Mat (a b : ℕ) : Type := (⟨2, ![a, b]⟩ : Shape).Idx → EReal

variable {n n' k c : ℕ}

/-- The f32 word of zero and of −∞ as extended reals (kept as words). -/
abbrev zeroW : EReal := Ideal.ofBits .f32 0x00000000#32
abbrev negInfW : EReal := Ideal.ofBits .f32 0xFF800000#32

/-- Row p of a matrix times a matrix, at column q. -/
def denseAt (x : Mat n k) (w : Mat k c) (p : Fin n) (q : Fin c) : EReal := ∑ j : Fin k, x (ix2 p j) * w (ix2 j q)

/-- The matrix product, entry by entry. -/
def dense (x : Mat n k) (w : Mat k c) : Mat n c := fun i => denseAt x w (i 0) (i 1)

theorem dense_apply (x : Mat n k) (w : Mat k c) (p : Fin n) (q : Fin c) :
    dense x w (ix2 p q) = ∑ j : Fin k, x (ix2 p j) * w (ix2 j q) := rfl

/-- Bias row added to every row, then the clamp at zero. -/
def biasClampAt (a : Mat n c) (b : Mat 1 c) (p : Fin n) (q : Fin c) : EReal := max (a (ix2 p q) + b (ix2 0 q)) zeroW

def biasClamp (a : Mat n c) (b : Mat 1 c) : Mat n c := fun i => biasClampAt a b (i 0) (i 1)

theorem biasClamp_apply (a : Mat n c) (b : Mat 1 c) (p : Fin n) (q : Fin c) :
    biasClamp a b (ix2 p q) = max (a (ix2 p q) + b (ix2 0 q)) zeroW := rfl

/-- Row p of a + b, as a function of the column. -/
def shifted (a : Mat n c) (b : Mat 1 c) (p : Fin n) : Fin c → EReal := fun j => a (ix2 p j) + b (ix2 0 j)

/-- The maximum of a row, folded from −∞. -/
def rowMax (v : Fin c → EReal) : EReal := (Finset.univ : Finset (Fin c)).fold max negInfW v

/-- The log-softmax of a row v at column q. -/
def logSoftmaxRow (v : Fin c → EReal) (q : Fin c) : EReal :=
  (v q - rowMax v) - Ideal.log (∑ j : Fin c, Ideal.exp (v j - rowMax v))

def logSoftmax (a : Mat n c) (b : Mat 1 c) : Mat n c := fun i => logSoftmaxRow (shifted a b (i 0)) (i 1)

theorem logSoftmax_apply (a : Mat n c) (b : Mat 1 c) (p : Fin n) (q : Fin c) :
    logSoftmax a b (ix2 p q) = logSoftmaxRow (shifted a b p) q := rfl

/-! ## Row locality: a row of the result only reads that row of the first operand -/

theorem dense_row_congr (x : Mat n k) (x' : Mat n' k) (w : Mat k c) (p : Fin n) (p' : Fin n')
    (h : ∀ j : Fin k, x (ix2 p j) = x' (ix2 p' j)) (q : Fin c) :
    dense x w (ix2 p q) = dense x' w (ix2 p' q) := by
  rw [dense_apply, dense_apply]
  exact Finset.sum_congr rfl fun j _ => by rw [h j]

theorem biasClamp_row_congr (a : Mat n c) (a' : Mat n' c) (b : Mat 1 c) (p : Fin n) (p' : Fin n')
    (h : ∀ j : Fin c, a (ix2 p j) = a' (ix2 p' j)) (q : Fin c) :
    biasClamp a b (ix2 p q) = biasClamp a' b (ix2 p' q) := by
  rw [biasClamp_apply, biasClamp_apply, h q]

theorem logSoftmax_row_congr (a : Mat n c) (a' : Mat n' c) (b : Mat 1 c) (p : Fin n) (p' : Fin n')
    (h : ∀ j : Fin c, a (ix2 p j) = a' (ix2 p' j)) (q : Fin c) :
    logSoftmax a b (ix2 p q) = logSoftmax a' b (ix2 p' q) := by
  rw [logSoftmax_apply, logSoftmax_apply]
  have e : shifted a b p = shifted a' b p' := funext fun j => by unfold shifted; rw [h j]
  rw [e]

/-! ## The same, between a block of rows and the whole array: the entry i' of the array and the entry j of the block
    agree as soon as the operands agree on what that entry reads -/

theorem dense_transfer (xb : Mat n' k) (wb : Mat k c) (x : Mat n k) (w : Mat k c)
    (j : (⟨2, ![n', c]⟩ : Shape).Idx) (i : (⟨2, ![n, c]⟩ : Shape).Idx)
    (hx : ∀ l : Fin k, xb (ix2 (j 0) l) = x (ix2 (i 0) l)) (hw : ∀ l : Fin k, wb (ix2 l (j 1)) = w (ix2 l (i 1))) :
    dense xb wb j = dense x w i := by
  unfold dense denseAt
  exact Finset.sum_congr rfl fun l _ => by rw [hx l, hw l]

theorem biasClamp_transfer (ab : Mat n' c) (bb : Mat 1 c) (a : Mat n c) (b : Mat 1 c)
    (j : (⟨2, ![n', c]⟩ : Shape).Idx) (i : (⟨2, ![n, c]⟩ : Shape).Idx)
    (ha : ab (ix2 (j 0) (j 1)) = a (ix2 (i 0) (i 1))) (hb : bb (ix2 0 (j 1)) = b (ix2 0 (i 1))) :
    biasClamp ab bb j = biasClamp a b i := by
  unfold biasClamp biasClampAt
  rw [ha, hb]

theorem logSoftmax_transfer (ab : Mat n' c) (bb : Mat 1 c) (a : Mat n c) (b : Mat 1 c)
    (j : (⟨2, ![n', c]⟩ : Shape).Idx) (i : (⟨2, ![n, c]⟩ : Shape).Idx)
    (ha : ∀ l : Fin c, ab (ix2 (j 0) l) = a (ix2 (i 0) l)) (hb : ∀ l : Fin c, bb (ix2 0 l) = b (ix2 0 l))
    (hq : (j 1 : Fin c) = i 1) :
    logSoftmax ab bb j = logSoftmax a b i := by
  unfold logSoftmax
  have e : shifted ab bb (j 0) = shifted a b (i 0) := funext fun l => by unfold shifted; rw [ha l, hb l]
  rw [e, hq]

end Cert.Gcn

end
-- ==== Proof.Layers.lean ====
/-
  The layers of the network as whole-array functions over the extended reals, generic in the number of rows.

  A mean-aggregation layer takes the aggregated neighbour features `mean` and the node features `x` (both n × k),
  two weight matrices (k × c) and a bias row (1 × c) and returns, at (p, q),
      max ((Σ_j mean[p,j]·wl[j,q] + Σ_j x[p,j]·wr[j,q]) + b[0,q], 0),
  the last layer ending instead in the log-softmax of each row. The layer with self-loops adds an aggregated
  array and a scaled self term, then the bias, and clamps at zero. Every one of them computes row p of its result
  from row p of its row operands alone, which is what lets a block of rows stand for the whole array.
-/
import proofs.«126889_j85615878078998_1_alg».proof.Proof.LibRowSteps

noncomputable section

namespace Cert.HybridNet

open Idealize.ShloMosaic Idealize.ShloMosaic.ValueIdx Cert.Gcn

variable {n n' k c : ℕ}

/-- The entrywise sum of two arrays. -/
def sumM (a b : Mat n c) : Mat n c := fun i => a i + b i

theorem sumM_apply (a b : Mat n c) (i : (⟨2, ![n, c]⟩ : Shape).Idx) : sumM a b i = a i + b i := rfl

/-- The two products of a mean-aggregation layer, added: Σ_j mean[p,j]·wl[j,q] + Σ_j x[p,j]·wr[j,q]. -/
def twoProducts (mean x : Mat n k) (wl wr : Mat k c) : Mat n c := sumM (dense mean wl) (dense x wr)

/-- A mean-aggregation layer clamped at zero. -/
def sageRelu (mean x : Mat n k) (wl wr : Mat k c) (b : Mat 1 c) : Mat n c := biasClamp (twoProducts mean x wl wr) b

/-- A mean-aggregation layer followed by the log-softmax of each row. -/
def sageLogSoftmax (mean x : Mat n k) (wl wr : Mat k c) (b : Mat 1 c) : Mat n c := logSoftmax (twoProducts mean x wl wr) b

/-- The closing step of the layer with self-loops: max ((agg + term) + b, 0). -/
def combine (agg term : Mat n c) (b : Mat 1 c) : Mat n c := biasClamp (sumM agg term) b

/-! ## A block of rows against the whole array

    `j` is an entry of a block of n' rows and `i` the entry of the n-row array it sits at; the hypotheses say that
    the block's row operands agree with the array's along that row, and its column operands along that column. -/

theorem twoProducts_transfer (meanb xb : Mat n' k) (wlb wrb : Mat k c) (mean x : Mat n k) (wl wr : Mat k c)
    (j : (⟨2, ![n', c]⟩ : Shape).Idx) (i : (⟨2, ![n, c]⟩ : Shape).Idx)
    (hm : ∀ l : Fin k, meanb (ix2 (j 0) l) = mean (ix2 (i 0) l)) (hx : ∀ l : Fin k, xb (ix2 (j 0) l) = x (ix2 (i 0) l))
    (hwl : ∀ l : Fin k, wlb (ix2 l (j 1)) = wl (ix2 l (i 1))) (hwr : ∀ l : Fin k, wrb (ix2 l (j 1)) = wr (ix2 l (i 1))) :
    twoProducts meanb xb wlb wrb j = twoProducts mean x wl wr i := by
  show dense meanb wlb j + dense xb wrb j = dense mean wl i + dense x wr i
  rw [dense_transfer meanb wlb mean wl j i hm hwl, dense_transfer xb wrb x wr j i hx hwr]

theorem sageRelu_transfer (meanb xb : Mat n' k) (wlb wrb : Mat k c) (bb : Mat 1 c) (mean x : Mat n k) (wl wr : Mat k c)
    (b : Mat 1 c) (j : (⟨2, ![n', c]⟩ : Shape).Idx) (i : (⟨2, ![n, c]⟩ : Shape).Idx) (hq : (j 1 : Fin c) = i 1)
    (hm : ∀ l : Fin k, meanb (ix2 (j 0) l) = mean (ix2 (i 0) l)) (hx : ∀ l : Fin k, xb (ix2 (j 0) l) = x (ix2 (i 0) l))
    (hwl : ∀ l : Fin k, ∀ q : Fin c, wlb (ix2 l q) = wl (ix2 l q)) (hwr : ∀ l : Fin k, ∀ q : Fin c, wrb (ix2 l q) = wr (ix2 l q))
    (hb : ∀ q : Fin c, bb (ix2 0 q) = b (ix2 0 q)) :
    sageRelu meanb xb wlb wrb bb j = sageRelu mean x wl wr b i := by
  unfold sageRelu
  refine biasClamp_transfer _ bb _ b j i ?_ (by rw [hq]; exact hb _)
  have e : twoProducts meanb xb wlb wrb j = twoProducts mean x wl wr i :=
    twoProducts_transfer meanb xb wlb wrb mean x wl wr j i hm hx (fun l => by rw [hq]; exact hwl l _) (fun l => by rw [hq]; exact hwr l _)
  exact (congrArg (twoProducts meanb xb wlb wrb) (eq_ix2 j).symm).trans (e.trans (congrArg (twoProducts mean x wl wr) (eq_ix2 i)))

theorem sageLogSoftmax_transfer (meanb xb : Mat n' k) (wlb wrb : Mat k c) (bb : Mat 1 c) (mean x : Mat n k) (wl wr : Mat k c)
    (b : Mat 1 c) (j : (⟨2, ![n', c]⟩ : Shape).Idx) (i : (⟨2, ![n, c]⟩ : Shape).Idx) (hq : (j 1 : Fin c) = i 1)
    (hm : ∀ l : Fin k, meanb (ix2 (j 0) l) = mean (ix2 (i 0) l)) (hx : ∀ l : Fin k, xb (ix2 (j 0) l) = x (ix2 (i 0) l))
    (hwl : ∀ l : Fin k, ∀ q : Fin c, wlb (ix2 l q) = wl (ix2 l q)) (hwr : ∀ l : Fin k, ∀ q : Fin c, wrb (ix2 l q) = wr (ix2 l q))
    (hb : ∀ q : Fin c, bb (ix2 0 q) = b (ix2 0 q)) :
    sageLogSoftmax meanb xb wlb wrb bb j = sageLogSoftmax mean x wl wr b i := by
  unfold sageLogSoftmax
  refine logSoftmax_transfer _ bb _ b j i (fun l => ?_) hb hq
  exact twoProducts_transfer meanb xb wlb wrb mean x wl wr (ix2 (j 0) l) (ix2 (i 0) l)
    (fun l' => hm l') (fun l' => hx l') (fun l' => hwl l' l) (fun l' => hwr l' l)

theorem combine_transfer (aggb termb : Mat n' c) (bb : Mat 1 c) (agg term : Mat n c) (b : Mat 1 c)
    (j : (⟨2, ![n', c]⟩ : Shape).Idx) (i : (⟨2, ![n, c]⟩ : Shape).Idx) (hq : (j 1 : Fin c) = i 1)
    (ha : aggb j = agg i) (ht : termb j = term i) (hb : ∀ q : Fin c, bb (ix2 0 q) = b (ix2 0 q)) :
    combine aggb termb bb j = combine agg term b i := by
  unfold combine
  refine biasClamp_transfer _ bb _ b j i ?_ (by rw [hq]; exact hb _)
  have e : sumM aggb termb j = sumM agg term i := by
    show aggb j + termb j = agg i + term i
    rw [ha, ht]
  exact (congrArg (sumM aggb termb) (eq_ix2 j).symm).trans (e.trans (congrArg (sumM agg term) (eq_ix2 i)))

theorem dense_block (xb : Mat n' k) (wb : Mat k c) (x : Mat n k) (w : Mat k c)
    (j : (⟨2, ![n', c]⟩ : Shape).Idx) (i : (⟨2, ![n, c]⟩ : Shape).Idx) (hq : (j 1 : Fin c) = i 1)
    (hx : ∀ l : Fin k, xb (ix2 (j 0) l) = x (ix2 (i 0) l)) (hw : ∀ l : Fin k, ∀ q : Fin c, wb (ix2 l q) = w (ix2 l q)) :
    dense xb wb j = dense x w i :=
  dense_transfer xb wb x w j i hx (fun l => by rw [hq]; exact hw l _)

end Cert.HybridNet

end
-- ==== Proof.Net.lean ====
/-
  The network as ONE function of its thirteen argument arrays, over the extended reals.

  The graph enters only through two index columns read off the edge array: the source column (negative indices
  wrapped by adding the node count, as a gather's start indices) and the destination column. Everything that
  moves data along edges is a gather of rows at the source column followed by a scatter-add at the destination
  column; those two operations are kept as they stand, since both programs apply them to the same operands.
  Between them sit the dense layers of Layers.lean and three entrywise steps: dividing the aggregated rows by
  the in-degree clamped below at one (the neighbour mean), scaling an edge's message by the product of the two
  endpoint normalisers, and scaling a node's own row by the reciprocal of its degree.
-/
import proofs.«126889_j85615878078998_1_alg».proof.KernelIdeal
import proofs.«126889_j85615878078998_1_alg».proof.Proof.Layers
import Idealize.ShloMosaic.PureOps.Ideal

noncomputable section

namespace Cert.HybridNet

open Idealize.ShloMosaic Idealize.ShloMosaic.ValueIdx Cert.Gcn Cert.KernelIdeal Cert.KernelIdeal.Facts₀

variable [Cert.KernelIdeal.Facts]

abbrev EdgeArr : Type := (⟨S2x800000, .i32⟩ : BufTy).Contents (Elt Ideal)
abbrev EdgeVec : Type := (⟨S800000, .i32⟩ : BufTy).Contents (Elt Ideal)
abbrev EdgeCol : Type := (⟨S800000x1, .i32⟩ : BufTy).Contents (Elt Ideal)

/-- Row 0 of the edge array: the sources. -/
def srcOf (ei : EdgeArr) : EdgeVec :=
  shapeCast S800000 (extractStridedSlice S1x800000 ![0, 0] ei slices_S2x800000_S1x800000_0_0) shapeCasts_S1x800000_S800000

/-- Row 1 of the edge array: the destinations. -/
def dstOf (ei : EdgeArr) : EdgeVec :=
  shapeCast S800000 (extractStridedSlice S1x800000 ![1, 0] ei slices_S2x800000_S1x800000_1_0) shapeCasts_S1x800000_S800000

/-- An index vector as a gather's column of start indices: a negative index has the node count added. -/
def wrapCol (v : EdgeVec) : EdgeCol :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- An index vector as a scatter's column of indices. -/
def plainCol (v : EdgeVec) : EdgeCol := broadcastInDim S800000x1 ![0] bcast_S800000_S800000x1_0 v

def onesE : FVec Ideal S800000 .f32 := broadcastInDim S800000 ![] bcast_S_S800000 (constant (F := Ideal) S_ .f32 0x3F800000#32)
def onesN : FVec Ideal S50000 .f32 := broadcastInDim S50000 ![] bcast_S_S50000 (constant (F := Ideal) S_ .f32 0x3F800000#32)
def zerosN : FVec Ideal S50000 .f32 := broadcastInDim S50000 ![] bcast_S_S50000 (constant (F := Ideal) S_ .f32 0x00000000#32)
def zerosNC : FVec Ideal S50000x128 .f32 :=
  broadcastInDim S50000x128 ![] bcast_S_S50000x128 (constant (F := Ideal) S_ .f32 0x00000000#32)

/-- The in-degree of every node: ones added up at the destinations. -/
def countOf (d : EdgeVec) : FVec Ideal S50000 .f32 :=
  Host.scatterAdd (F := Ideal) scatter_S50000_S800000x1_S800000_n_0_0_1 zerosN (plainCol d) onesE

/-- One hop: row v of the result is the sum of the rows X[src e] over the edges e into v. -/
def hop (s d : EdgeVec) (X : FVec Ideal S50000x128 .f32) : FVec Ideal S50000x128 .f32 :=
  Host.scatterAdd (F := Ideal) scatter_S50000x128_S800000x1_S800000x128_1_0_0_1 zerosNC (plainCol d)
    (Host.gather gather_S50000x128_S800000x1_S800000x128_1_0_n_n_0_1_1128 X (wrapCol s))

/-- The in-degree clamped below at one. -/
def clampedCount (d : EdgeVec) : FVec Ideal S50000 .f32 := maximumf (countOf d) onesN

/-- The degree with the self-loop counted. -/
def degOf (d : EdgeVec) : FVec Ideal S50000 .f32 := addf (countOf d) onesN

/-- The symmetric normaliser deg^(-1/2). -/
def dinvOf (d : EdgeVec) : FVec Ideal S50000 .f32 := Host.rsqrt (F := Ideal) (degOf d)

/-- The weight of each edge: the product of its two endpoints' normalisers. -/
def normOf (s d : EdgeVec) : FVec Ideal S800000 .f32 :=
  mulf (Host.gather gather_S50000_S800000x1_S800000_n_0_n_n_0_1_1 (dinvOf d) (wrapCol s))
    (Host.gather gather_S50000_S800000x1_S800000_n_0_n_n_0_1_1 (dinvOf d) (wrapCol d))

/-- A vector of T numbers repeated along every row of a T × C array. -/
def rowsOf {T C : ℕ} (v : (⟨1, ![T]⟩ : Shape).Idx → EReal) : Mat T C := fun i => v (ix1 (i 0))

theorem rowsOf_apply {T C : ℕ} (v : (⟨1, ![T]⟩ : Shape).Idx → EReal) (p : Fin T) (q : Fin C) :
    rowsOf (C := C) v (ix2 p q) = v (ix1 p) := rfl

/-- A vector of C numbers as a 1 × C row. -/
def rowOf {C : ℕ} (b : (⟨1, ![C]⟩ : Shape).Idx → EReal) : Mat 1 C := fun i => b (ix1 (i 1))

theorem rowOf_apply {C : ℕ} (b : (⟨1, ![C]⟩ : Shape).Idx → EReal) (u : Fin 1) (q : Fin C) :
    rowOf b (ix2 u q) = b (ix1 q) := rfl

/-- The neighbour mean: the hop divided by the clamped in-degree, row by row. -/
def meanOf (s d : EdgeVec) (X : FVec Ideal S50000x128 .f32) : FVec Ideal S50000x128 .f32 :=
  Host.divf (F := Ideal) (hop s d X) (rowsOf (clampedCount d) : FVec Ideal S50000x128 .f32)

/-- The aggregation with symmetric normalisation: a hop of the rows scaled edge by edge. -/
def aggOf (s d : EdgeVec) (hl : FVec Ideal S50000x128 .f32) : FVec Ideal S50000x128 .f32 :=
  Host.scatterAdd (F := Ideal) scatter_S50000x128_S800000x1_S800000x128_1_0_0_1 zerosNC (plainCol d)
    (mulf (Host.gather gather_S50000x128_S800000x1_S800000x128_1_0_n_n_0_1_1128 hl (wrapCol s))
      (rowsOf (normOf s d) : FVec Ideal S800000x128 .f32))

/-- The self-loop term: each row scaled by the reciprocal of its degree. -/
def selfOf (d : EdgeVec) (hl : FVec Ideal S50000x128 .f32) : FVec Ideal S50000x128 .f32 :=
  mulf hl (rowsOf (Host.divf (F := Ideal) onesN (degOf d)) : FVec Ideal S50000x128 .f32)

/-- The four layers. -/
def net (x : FVec Ideal S50000x128 .f32) (ei : EdgeArr)
    (wl0 wr0 : FVec Ideal S128x128 .f32) (b0 : FVec Ideal S128 .f32) (w1 : FVec Ideal S128x128 .f32) (b1 : FVec Ideal S128 .f32)
    (wl2 wr2 : FVec Ideal S128x128 .f32) (b2 : FVec Ideal S128 .f32) (wl3 wr3 : FVec Ideal S128x16 .f32) (b3 : FVec Ideal S16 .f32) :
    FVec Ideal S50000x16 .f32 :=
  let s := srcOf ei
  let d := dstOf ei
  let h0 : FVec Ideal S50000x128 .f32 := sageRelu (meanOf s d x) x wl0 wr0 (rowOf b0)
  let hl : FVec Ideal S50000x128 .f32 := dense h0 w1
  let h1 : FVec Ideal S50000x128 .f32 := combine (aggOf s d hl) (selfOf d hl) (rowOf b1)
  let h2 : FVec Ideal S50000x128 .f32 := sageRelu (meanOf s d h1) h1 wl2 wr2 (rowOf b2)
  sageLogSoftmax (meanOf s d h2) h2 wl3 wr3 (rowOf b3)

end Cert.HybridNet

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibRowOfVector.lean ====
/-
  Reusable lemmas: a vector viewed as a one-row matrix and back, read at an entry.

  A shape cast of a length-b vector to a [1, b] matrix keeps the row-major order, so entry (0, q) of the matrix is
  entry q of the vector; the cast of a [1, b] matrix to a length-b vector reads entry q from (0, q).  Generic in the
  extent b and in the element type.
-/
import Idealize.ShloMosaic.Lib.Pipeline.Value
import Idealize.ShloMosaic.Lib.ValueIdx

noncomputable section

namespace Cert.RowOfVector

open Idealize.ShloMosaic Idealize.ShloMosaic.ValueIdx

variable {α : Type} {b : ℕ}

/-- A vector viewed as one row reads, at (u, q), the vector's entry q. -/
theorem row_apply (v : (⟨1, ![b]⟩ : Shape).Idx → α) (h : (⟨1, ![b]⟩ : Shape).ShapeCasts ⟨2, ![1, b]⟩) (u : Fin 1)
    (q : Fin b) : shapeCast ⟨2, ![1, b]⟩ v h (ix2 u q) = v (ix1 q) := by
  refine shapeCast_apply v h (ix2 u q) (ix1 q) ?_
  rw [Shape.rowMajor_val_one, Shape.rowMajor_val_two]
  show q.val = u.val * b + q.val
  have hu : u.val = 0 := by have := u.isLt; omega
  rw [hu]; omega

/-- One row viewed as a vector reads, at q, the row's entry (0, q). -/
theorem vector_apply (v : (⟨2, ![1, b]⟩ : Shape).Idx → α) (h : (⟨2, ![1, b]⟩ : Shape).ShapeCasts ⟨1, ![b]⟩)
    (q : Fin b) : shapeCast ⟨1, ![b]⟩ v h (ix1 q) = v (ix2 (0 : Fin 1) q) := by
  refine shapeCast_apply v h (ix1 q) (ix2 (0 : Fin 1) q) ?_
  rw [Shape.rowMajor_val_one, Shape.rowMajor_val_two]
  show (0 : ℕ) * b + q.val = q.val
  omega

end Cert.RowOfVector

end
-- ==== Proof.KernelGlue.lean ====
/-
  The kernel program's spellings of the entrywise steps around the gathers and scatter-adds, as the functions of
  Net.lean.

  A vector kept as a one-column array by a reshape and then spread over the columns is the vector repeated along
  every row. The kernel's neighbour mean multiplies the aggregated rows by the reciprocal 1 / max(count, 1); the
  divisor max(count, 1) is never zero, and for a divisor that is not zero a·(1/y) = a/y holds for every extended
  real a, both being a·y⁻¹. A bias vector reshaped to a one-row array is that vector as a row.
-/
import proofs.«126889_j85615878078998_1_alg».proof.Proof.Net
import proofs.«126889_j85615878078998_1_alg».proof.Proof.LibHostBroadcasts
import proofs.«126889_j85615878078998_1_alg».proof.Proof.LibKeepdimsColumn
import proofs.«126889_j85615878078998_1_alg».proof.Proof.LibRowOfVector
import Idealize.ShloMosaic.Lib.IdealHost

noncomputable section

namespace Cert.HybridNet.Glue

open Idealize.ShloMosaic Idealize.ShloMosaic.ValueIdx Cert.Gcn Cert.HybridNet Cert.KernelIdeal Cert.KernelIdeal.Facts₀

variable [Cert.KernelIdeal.Facts]

/-- A length-50000 vector reshaped to a column and spread over 128 columns. -/
theorem column_spread_nodes (v : FVec Ideal S50000 .f32) :
    (broadcastInDim S50000x128 ![0, 1] bcast_S50000x1_S50000x128_0_1 (shapeCast S50000x1 v shapeCasts_S50000_S50000x1) : FVec Ideal S50000x128 .f32)
      = rowsOf v := by
  funext i
  obtain ⟨p, q, rfl⟩ : ∃ (p : Fin 50000) (q : Fin 128), i = ix2 p q := ⟨i 0, i 1, eq_ix2 i⟩
  rw [Cert.HostBroadcasts.col_rows_apply, Cert.KeepdimsColumn.shapeCast_a_a1_apply]
  rfl

/-- A length-800000 vector reshaped to a column and spread over 128 columns. -/
theorem column_spread_edges (v : FVec Ideal S800000 .f32) :
    (broadcastInDim S800000x128 ![0, 1] bcast_S800000x1_S800000x128_0_1 (shapeCast S800000x1 v shapeCasts_S800000_S800000x1) : FVec Ideal S800000x128 .f32)
      = rowsOf v := by
  funext i
  obtain ⟨p, q, rfl⟩ : ∃ (p : Fin 800000) (q : Fin 128), i = ix2 p q := ⟨i 0, i 1, eq_ix2 i⟩
  rw [Cert.HostBroadcasts.col_rows_apply, Cert.KeepdimsColumn.shapeCast_a_a1_apply]
  rfl

/-- The clamped count is never zero. -/
theorem clamped_ne_zero (x : EReal) : max x (Ideal.ofBits .f32 0x3F800000#32) ≠ 0 := by
  rw [Ideal.ofBits_one_f32]
  intro h
  have h1 : (1 : EReal) ≤ max x 1 := le_max_right x 1
  rw [h] at h1
  exact absurd h1 (by norm_num)

/-- The mean as a product with the reciprocal of the clamped count is the mean as a quotient by it. -/
theorem mean_product (A : FVec Ideal S50000x128 .f32) (cnt : FVec Ideal S50000 .f32) :
    mulf A (rowsOf (Host.divf (F := Ideal) onesN (maximumf cnt onesN)) : FVec Ideal S50000x128 .f32)
      = Host.divf (F := Ideal) A (rowsOf (maximumf cnt onesN) : FVec Ideal S50000x128 .f32) := by
  funext i
  obtain ⟨p, q, rfl⟩ : ∃ (p : Fin 50000) (q : Fin 128), i = ix2 p q := ⟨i 0, i 1, eq_ix2 i⟩
  rw [mulf_apply, hostDivf_apply, rowsOf_apply, rowsOf_apply, hostDivf_apply]
  show A (ix2 p q) * Ideal.div (Ideal.ofBits .f32 0x3F800000#32) (max (cnt (ix1 p)) (Ideal.ofBits .f32 0x3F800000#32))
    = Ideal.div (A (ix2 p q)) (max (cnt (ix1 p)) (Ideal.ofBits .f32 0x3F800000#32))
  have h := Ideal.mul_one_div (x := A (ix2 p q)) (clamped_ne_zero (cnt (ix1 p)))
  rw [← Ideal.ofBits_one_f32] at h
  exact h

/-- The kernel program's neighbour mean is the mean of Net.lean. -/
theorem mean_kernel (s d : EdgeVec) (X : FVec Ideal S50000x128 .f32) :
    mulf (hop s d X) (broadcastInDim S50000x128 ![0, 1] bcast_S50000x1_S50000x128_0_1
        (shapeCast S50000x1 (Host.divf (F := Ideal) onesN (clampedCount d)) shapeCasts_S50000_S50000x1) : FVec Ideal S50000x128 .f32)
      = meanOf s d X := by
  rw [column_spread_nodes]
  exact mean_product (hop s d X) (countOf d)

/-- A bias vector reshaped to a row. -/
theorem bias_row128 (b : FVec Ideal S128 .f32) : (shapeCast S1x128 b shapeCasts_S128_S1x128 : Mat 1 128) = rowOf b := by
  funext i
  obtain ⟨u, q, rfl⟩ : ∃ (u : Fin 1) (q : Fin 128), i = ix2 u q := ⟨i 0, i 1, eq_ix2 i⟩
  rw [Cert.RowOfVector.row_apply]
  rfl

theorem bias_row16 (b : FVec Ideal S16 .f32) : (shapeCast S1x16 b shapeCasts_S16_S1x16 : Mat 1 16) = rowOf b := by
  funext i
  obtain ⟨u, q, rfl⟩ : ∃ (u : Fin 1) (q : Fin 16), i = ix2 u q := ⟨i 0, i 1, eq_ix2 i⟩
  rw [Cert.RowOfVector.row_apply]
  rfl

end Cert.HybridNet.Glue

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibLogSoftmaxRows.lean ====
/-
  Reusable lemmas: a bias row spread down a block, and the log-softmax of the rows of a block in a kernel's spelling.

  A kernel takes the log-softmax of every row of an [a, c] block v by: the row maxima (a lane reduction from −∞) kept as
  a column [a, 1] and spread back to [a, c]; s = v − that; exp; the row sums (a lane reduction from zero) kept as a
  column; log; spread back; s − that. Read at (p, q) over the extended reals this is the log-softmax of row p at q
  (`Cert.Gcn.logSoftmaxRow`: the maximum as the fold of max from −∞). Generic in the extents a, c.
-/
import proofs.«126889_j85615878078998_1_alg».proof.Proof.LibRowSteps
import proofs.«126889_j85615878078998_1_alg».proof.Proof.LibKeepdimsColumn
import proofs.«126889_j85615878078998_1_alg».proof.Proof.LibSlabLayout
import Idealize.ShloMosaic.Lib.Pipeline.Value
import Idealize.ShloMosaic.Lib.ValueIdx
import Idealize.ShloMosaic.PureOps.Ideal.Laws

noncomputable section

namespace Cert.LogSoftmaxRows

open Idealize.ShloMosaic Idealize.ShloMosaic.ValueIdx Cert.Gcn

/-- One row spread down the rows of an [a, b] array reads, at (p, q), the row's entry q. -/
theorem row_spread {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The log-softmax of the rows of an [a, c] array v, in the kernel's spelling: the row maxima (from −∞) kept as a
    column and spread back, subtracted; exp; the row sums kept as a column; log; spread back; subtracted. -/
theorem logSoftmax_rows {a c : ℕ} (v : FVec Ideal ⟨2, ![a, c]⟩ .f32)
    (hr : (⟨2, ![a, c]⟩ : Shape).Reduces [(1 : Fin 2)] ⟨1, ![a]⟩) (hc : (⟨1, ![a]⟩ : Shape).ShapeCasts ⟨2, ![a, 1]⟩)
    (hb : (⟨2, ![a, 1]⟩ : Shape).Broadcasts ⟨2, ![a, c]⟩) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin a) (q : Fin c) :
    subf (subf v (broadcastTo ⟨2, ![a, c]⟩ (shapeCast ⟨2, ![a, 1]⟩ (multiReduction .maximumf [(1 : Fin 2)] ⟨1, ![a]⟩ v 0xFF800000#32 hr hφ hmax) hc) hb))
      (broadcastTo ⟨2, ![a, c]⟩ (log (shapeCast ⟨2, ![a, 1]⟩ (multiReduction .add [(1 : Fin 2)] ⟨1, ![a]⟩
        (exp (subf v (broadcastTo ⟨2, ![a, c]⟩ (shapeCast ⟨2, ![a, 1]⟩ (multiReduction .maximumf [(1 : Fin 2)] ⟨1, ![a]⟩ v 0xFF800000#32 hr hφ hmax) hc) hb)))
        0x00000000#32 hr hφ hadd) hc)) hb) (ix2 p q)
      = logSoftmaxRow (fun j => v (ix2 p j)) q := by
  have hm : ∀ j : Fin c, broadcastTo ⟨2, ![a, c]⟩ (shapeCast ⟨2, ![a, 1]⟩ (multiReduction .maximumf [(1 : Fin 2)] ⟨1, ![a]⟩ v 0xFF800000#32 hr hφ hmax) hc) hb (ix2 p j)
      = rowMax (fun j => v (ix2 p j)) := fun j => by
    rw [Cert.KeepdimsColumn.broadcastTo_a1_ab_apply, Cert.KeepdimsColumn.shapeCast_a_a1_apply, Cert.SlabLayout.rowMax_apply]
    rfl
  rw [subf_apply, subf_apply, hm q, Cert.KeepdimsColumn.broadcastTo_a1_ab_apply]
  show (v (ix2 p q) - rowMax fun j => v (ix2 p j)) - Ideal.log (shapeCast ⟨2, ![a, 1]⟩ (multiReduction .add [(1 : Fin 2)] ⟨1, ![a]⟩
      (exp (subf v (broadcastTo ⟨2, ![a, c]⟩ (shapeCast ⟨2, ![a, 1]⟩ (multiReduction .maximumf [(1 : Fin 2)] ⟨1, ![a]⟩ v 0xFF800000#32 hr hφ hmax) hc) hb)))
      0x00000000#32 hr hφ hadd) hc (ix2 p (0 : Fin 1))) = _
  rw [Cert.KeepdimsColumn.shapeCast_a_a1_apply, Cert.SlabLayout.rowSum_apply]
  unfold logSoftmaxRow
  congr 2
  refine Finset.sum_congr rfl fun j _ => ?_
  show Ideal.exp (subf v _ (ix2 p j)) = _
  rw [subf_apply, hm j]

end Cert.LogSoftmaxRows

end
-- ==== Proof.KernelBlocks.lean ====
/-
  What each kernel body computes on its blocks, as a layer of Layers.lean on 2000 rows.

  A body loads a block of 2000 rows of each row operand and the whole of each weight matrix and bias row. The
  matrix unit's product into a zero accumulator is, entry by entry, the inner product of a row of the left
  operand with a column of the right one (the change of format before it is the identity on the extended reals);
  the bias row is spread over the rows; the clamp is a maximum with zero; and the last body ends in the
  log-softmax of each row, the row maximum taken from minus infinity.
-/
import proofs.«126889_j85615878078998_1_alg».proof.Proof.Gen.KernelIdeal.Skeleton
import proofs.«126889_j85615878078998_1_alg».proof.Proof.Layers
import proofs.«126889_j85615878078998_1_alg».proof.Proof.LibMatmulNN
import proofs.«126889_j85615878078998_1_alg».proof.Proof.LibLogSoftmaxRows
import Idealize.ShloMosaic.Lib.Pipeline.Value
import Idealize.ShloMosaic.Lib.ValueIdx
import Idealize.ShloMosaic.PureOps.Ideal.Laws

noncomputable section

namespace Cert.HybridNet.Blocks

open Idealize.ShloMosaic Idealize.ShloMosaic.ValueIdx Cert.Gcn Cert.HybridNet
open Cert.KernelIdeal Cert.KernelIdeal.Gen

variable [Cert.KernelIdeal.Facts]

theorem dims128 : dot_S2000x128_S128x128_S2000x128_1_0_0_1_n_n = DotDims.plain 2000 128 128 := rfl
theorem dims16 : dot_S2000x128_S128x16_S2000x16_1_0_0_1_n_n = DotDims.plain 2000 128 16 := rfl

/-- The two products of a mean-aggregation body, added, at an entry. -/
theorem products128 (x0 x1 : Vec Ideal S2000x128 .f32) (x2 x3 : Vec Ideal S128x128 .f32) (p : Fin 2000) (q : Fin 128) :
    addf (matmul dot_S2000x128_S128x128_S2000x128_1_0_0_1_n_n none (truncf .bf16 x0 Gen.bitsLt_bf16_f32) (truncf .bf16 x2 Gen.bitsLt_bf16_f32)
        (constant (F := Ideal) S2000x128 .f32 0x00000000#32))
      (matmul dot_S2000x128_S128x128_S2000x128_1_0_0_1_n_n none (truncf .bf16 x1 Gen.bitsLt_bf16_f32) (truncf .bf16 x3 Gen.bitsLt_bf16_f32)
        (constant (F := Ideal) S2000x128 .f32 0x00000000#32)) (ix2 p q)
      = twoProducts (x0 : Mat 2000 128) x1 x2 x3 (ix2 p q) := by
  rw [addf_apply]
  refine congrArg₂ (· + ·) ?_ ?_
  · exact Cert.MatmulNN.matmul_zero_apply _ dims128 none _ _ p q
  · exact Cert.MatmulNN.matmul_zero_apply _ dims128 none _ _ p q

theorem products16 (x0 x1 : Vec Ideal S2000x128 .f32) (x2 x3 : Vec Ideal S128x16 .f32) (p : Fin 2000) (q : Fin 16) :
    addf (matmul dot_S2000x128_S128x16_S2000x16_1_0_0_1_n_n none (truncf .bf16 x0 Gen.bitsLt_bf16_f32) (truncf .bf16 x2 Gen.bitsLt_bf16_f32)
        (constant (F := Ideal) S2000x16 .f32 0x00000000#32))
      (matmul dot_S2000x128_S128x16_S2000x16_1_0_0_1_n_n none (truncf .bf16 x1 Gen.bitsLt_bf16_f32) (truncf .bf16 x3 Gen.bitsLt_bf16_f32)
        (constant (F := Ideal) S2000x16 .f32 0x00000000#32)) (ix2 p q)
      = twoProducts (x0 : Mat 2000 128) x1 x2 x3 (ix2 p q) := by
  rw [addf_apply]
  refine congrArg₂ (· + ·) ?_ ?_
  · exact Cert.MatmulNN.matmul_zero_apply _ dims16 none _ _ p q
  · exact Cert.MatmulNN.matmul_zero_apply _ dims16 none _ _ p q

/-- Region 0's body is the clamped mean-aggregation layer on its blocks. -/
theorem pay0 (x0 x1 : Vec Ideal S2000x128 .f32) (x2 x3 : Vec Ideal S128x128 .f32) (x4 : Vec Ideal S1x128 .f32) :
    k0_pay1 (F := Ideal) x0 x1 x2 x3 x4 = sageRelu (x0 : Mat 2000 128) x1 x2 x3 x4 := by
  funext j
  obtain ⟨p, q, rfl⟩ : ∃ (p : Fin 2000) (q : Fin 128), j = ix2 p q := ⟨j 0, j 1, eq_ix2 j⟩
  simp only [k0_pay1, shapeCast_self]
  rw [maximumf_apply, addf_apply, products128, Cert.LogSoftmaxRows.row_spread]
  rfl

/-- Region 3's body is the same layer. -/
theorem pay3 (x0 x1 : Vec Ideal S2000x128 .f32) (x2 x3 : Vec Ideal S128x128 .f32) (x4 : Vec Ideal S1x128 .f32) :
    k3_pay1 (F := Ideal) x0 x1 x2 x3 x4 = sageRelu (x0 : Mat 2000 128) x1 x2 x3 x4 := by
  funext j
  obtain ⟨p, q, rfl⟩ : ∃ (p : Fin 2000) (q : Fin 128), j = ix2 p q := ⟨j 0, j 1, eq_ix2 j⟩
  simp only [k3_pay1, shapeCast_self]
  rw [maximumf_apply, addf_apply, products128, Cert.LogSoftmaxRows.row_spread]
  rfl

/-- Region 1's body is the plain product. -/
theorem pay1 (x0 : Vec Ideal S2000x128 .f32) (x1 : Vec Ideal S128x128 .f32) :
    k1_pay1 (F := Ideal) x0 x1 = dense (x0 : Mat 2000 128) x1 := by
  funext j
  obtain ⟨p, q, rfl⟩ : ∃ (p : Fin 2000) (q : Fin 128), j = ix2 p q := ⟨j 0, j 1, eq_ix2 j⟩
  simp only [k1_pay1, shapeCast_self]
  exact Cert.MatmulNN.matmul_zero_apply _ dims128 none _ _ p q

/-- Region 2's body adds its two row operands and the bias row and clamps at zero. -/
theorem pay2 (x0 x1 : Vec Ideal S2000x128 .f32) (x2 : Vec Ideal S1x128 .f32) :
    k2_pay1 (F := Ideal) x0 x1 x2 = combine (x0 : Mat 2000 128) x1 x2 := by
  funext j
  obtain ⟨p, q, rfl⟩ : ∃ (p : Fin 2000) (q : Fin 128), j = ix2 p q := ⟨j 0, j 1, eq_ix2 j⟩
  simp only [k2_pay1, shapeCast_self]
  rw [maximumf_apply, addf_apply, addf_apply, Cert.LogSoftmaxRows.row_spread]
  rfl

/-- The log-softmax of the rows of a 2000 × 16 block in the body's spelling: row maxima from minus infinity kept as a
    column and spread back, subtracted; exponentials; row sums kept as a column; logarithm; spread back; subtracted. -/
def rowLogSoftmax (v : FVec Ideal S2000x16 .f32) : FVec Ideal S2000x16 .f32 :=
  subf (subf v (broadcastTo S2000x16 (shapeCast S2000x1 (multiReduction .maximumf [1] S2000 v 0xFF800000#32 Gen.reduces_S2000x16_S2000 (.inl rfl) rfl) Gen.shapeCasts_S2000_S2000x1) Gen.broadcasts_S2000x1_S2000x16))
    (broadcastTo S2000x16 (log (shapeCast S2000x1 (multiReduction .add [1] S2000
      (exp (subf v (broadcastTo S2000x16 (shapeCast S2000x1 (multiReduction .maximumf [1] S2000 v 0xFF800000#32 Gen.reduces_S2000x16_S2000 (.inl rfl) rfl) Gen.shapeCasts_S2000_S2000x1) Gen.broadcasts_S2000x1_S2000x16)))
      0x00000000#32 Gen.reduces_S2000x16_S2000 (.inl rfl) rfl) Gen.shapeCasts_S2000_S2000x1)) Gen.broadcasts_S2000x1_S2000x16)

theorem rowLogSoftmax_apply (v : FVec Ideal S2000x16 .f32) (p : Fin 2000) (q : Fin 16) :
    rowLogSoftmax v (ix2 p q) = logSoftmaxRow (fun j => v (ix2 p j)) q :=
  Cert.LogSoftmaxRows.logSoftmax_rows v Gen.reduces_S2000x16_S2000 Gen.shapeCasts_S2000_S2000x1 Gen.broadcasts_S2000x1_S2000x16 (.inl rfl) rfl rfl p q

/-- Region 4's body is the mean-aggregation layer followed by the log-softmax of each row. -/
theorem pay4 (x0 x1 : Vec Ideal S2000x128 .f32) (x2 x3 : Vec Ideal S128x16 .f32) (x4 : Vec Ideal S1x16 .f32) :
    k4_pay1 (F := Ideal) x0 x1 x2 x3 x4 = sageLogSoftmax (x0 : Mat 2000 128) x1 x2 x3 x4 := by
  have hfun : k4_pay1 (F := Ideal) x0 x1 x2 x3 x4 = rowLogSoftmax
      (addf (addf (matmul dot_S2000x128_S128x16_S2000x16_1_0_0_1_n_n none (truncf .bf16 x0 Gen.bitsLt_bf16_f32) (truncf .bf16 x2 Gen.bitsLt_bf16_f32)
          (constant (F := Ideal) S2000x16 .f32 0x00000000#32))
        (matmul dot_S2000x128_S128x16_S2000x16_1_0_0_1_n_n none (truncf .bf16 x1 Gen.bitsLt_bf16_f32) (truncf .bf16 x3 Gen.bitsLt_bf16_f32)
          (constant (F := Ideal) S2000x16 .f32 0x00000000#32)))
        (broadcastTo S2000x16 x4 Gen.broadcasts_S1x16_S2000x16)) := by
    unfold k4_pay1 rowLogSoftmax
    simp only [shapeCast_self]
  rw [hfun]
  funext j
  obtain ⟨p, q, rfl⟩ : ∃ (p : Fin 2000) (q : Fin 16), j = ix2 p q := ⟨j 0, j 1, eq_ix2 j⟩
  rw [rowLogSoftmax_apply]
  show logSoftmaxRow _ q = logSoftmaxRow (shifted (twoProducts (x0 : Mat 2000 128) x1 x2 x3) x4 p) q
  refine congrArg (fun v => logSoftmaxRow v q) (funext fun l => ?_)
  refine (addf_apply _ _ (ix2 p l)).trans ?_
  rw [products16, Cert.LogSoftmaxRows.row_spread]
  rfl

end Cert.HybridNet.Blocks

end
-- ==== Proof.Region0.lean ====
/-
  Region 0 (the first mean-aggregation layer, clamped at zero) as one whole-array function of the arrays it finds.

  Grid point t stages rows 2000·t … 2000·t+1999 of the two row operands, the whole of the two weight matrices and
  of the bias row, and writes back rows 2000·t … 2000·t+1999 of the result. Row p of the layer only reads row p of
  the row operands, so block t of the result is block t of the whole layer, and the 25 blocks fill the array.
-/
import proofs.«126889_j85615878078998_1_alg».proof.Proof.Gen.KernelIdeal.Frame
import proofs.«126889_j85615878078998_1_alg».proof.Proof.KernelBlocks
import Idealize.ShloMosaic.Lib.Pipeline.Value

set_option maxRecDepth 16384

noncomputable section

namespace Cert.HybridNet.Region0

open Idealize.ShloMosaic Idealize.ShloMosaic.TcCoe Idealize.ShloMosaic.ValueIdx Idealize.SL.Sem Cert.Gcn Cert.HybridNet
open Cert.KernelIdeal Cert.KernelIdeal.Facts₀ Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block row t, column block 0; the weight and
    bias windows at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the whole layer. -/
theorem flushed_eq (c : Dev nD) (t : Fin cfg0.N) :
    (dat0 V c).flushed 5 t = ((cfg0.win 5).blk t).view.read (Elt Ideal)
      (sageRelu (V c main_v30 : Mat 50000 128) (V c main_arg0 : Mat 50000 128) (V c main_arg2 : Mat 128 128) (V c main_arg3 : Mat 128 128) (V c main_v31 : Mat 1 128)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  rw [Blocks.pay0]
  obtain ⟨e0, e1, e2, e3, e4, e5, e6, e7, e8, e9, e10, e11⟩ := idx_facts t
  funext j
  show sageRelu (fun y => V c main_v30 (((cfg0.win 0).blk t).view.emb y)) (fun y => V c main_arg0 (((cfg0.win 1).blk t).view.emb y))
        (fun y => V c main_arg2 (((cfg0.win 2).blk t).view.emb y)) (fun y => V c main_arg3 (((cfg0.win 3).blk t).view.emb y))
        (fun y => V c main_v31 (((cfg0.win 4).blk t).view.emb y)) j
     = sageRelu (V c main_v30 : Mat 50000 128) (V c main_arg0 : Mat 50000 128) (V c main_arg2 : Mat 128 128) (V c main_arg3 : Mat 128 128) (V c main_v31 : Mat 1 128)
        (((cfg0.win 5).blk t).view.emb j)
  refine sageRelu_transfer _ _ _ _ _ _ _ _ _ _ j _ ?_ (fun l => ?_) (fun l => ?_) (fun l q => ?_) (fun l q => ?_) (fun q => ?_)
  · apply Fin.ext
    show (j 1).val = win0_5.index t (1 : Fin 2) * 128 + 1 * (j 1).val
    omega
  · show V c main_v30 (((cfg0.win 0).blk t).view.emb (ix2 (j 0) l)) = V c main_v30 (ix2 ((((cfg0.win 5).blk t).view.emb j) 0) l)
    refine congrArg (V c main_v30) (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * l.val = l.val; omega
  · show V c main_arg0 (((cfg0.win 1).blk t).view.emb (ix2 (j 0) l)) = V c main_arg0 (ix2 ((((cfg0.win 5).blk t).view.emb j) 0) l)
    refine congrArg (V c main_arg0) (funext fun a => Fin.ext ?_)
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * l.val = l.val; omega
  · show V c main_arg2 (((cfg0.win 2).blk t).view.emb (ix2 l q)) = V c main_arg2 (ix2 l q)
    refine congrArg (V c main_arg2) (funext fun a => Fin.ext ?_)
    match a with
    | ⟨0, _⟩ => show win0_2.index t (0 : Fin 2) * 128 + 1 * l.val = l.val; omega
    | ⟨1, _⟩ => show win0_2.index t (1 : Fin 2) * 128 + 1 * q.val = q.val; omega
  · show V c main_arg3 (((cfg0.win 3).blk t).view.emb (ix2 l q)) = V c main_arg3 (ix2 l q)
    refine congrArg (V c main_arg3) (funext fun a => Fin.ext ?_)
    match a with
    | ⟨0, _⟩ => show win0_3.index t (0 : Fin 2) * 128 + 1 * l.val = l.val; omega
    | ⟨1, _⟩ => show win0_3.index t (1 : Fin 2) * 128 + 1 * q.val = q.val; omega
  · show V c main_v31 (((cfg0.win 4).blk t).view.emb (ix2 (0 : Fin 1) q)) = V c main_v31 (ix2 (0 : Fin 1) q)
    refine congrArg (V c main_v31) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega

/-- An index of the array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v32).slice (win0_5.rect t)).set ↔ _
  rw [View.set_slice_whole, Rect.mem_set_unit]
  exact Iff.rfl

/-- Every row of the array lies in the block of the point numbered by the row's quotient by 2000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := Fin.cast N_0.symm ⟨(i 0).val / 2000, by omega⟩
  have ht : t.val = (i 0).val / 2000 := rfl
  obtain ⟨e0, e1, e2, e3, e4, e5, e6, e7, e8, e9, e10, e11⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The result array after the region: the whole layer of the arrays the region found. -/
theorem out_eq (c : Dev nD) :
    (dat0 V c).arrAt 5 cfg0.N
      = sageRelu (V c main_v30 : Mat 50000 128) (V c main_arg0 : Mat 50000 128) (V c main_arg2 : Mat 128 128) (V c main_arg3 : Mat 128 128) (V c main_v31 : Mat 1 128) :=
  (dat0 V c).arrAt_eq_of_cover 5 _ (fun t _ => flushed_eq V c t) cover

end Cert.HybridNet.Region0

end
-- ==== Proof.Region1.lean ====
/-
  Region 1 (the plain product h·W) as one whole-array function of the arrays it finds.

  Grid point t stages rows 2000·t … 2000·t+1999 of the row operand and the whole weight matrix, and writes back
  rows 2000·t … 2000·t+1999 of the result. A row of the product only reads that row of the left operand, so block t
  of the result is block t of the whole product, and the 25 blocks fill the array.
-/
import proofs.«126889_j85615878078998_1_alg».proof.Proof.Gen.KernelIdeal.Frame
import proofs.«126889_j85615878078998_1_alg».proof.Proof.KernelBlocks
import Idealize.ShloMosaic.Lib.Pipeline.Value

set_option maxRecDepth 16384

noncomputable section

namespace Cert.HybridNet.Region1

open Idealize.ShloMosaic Idealize.ShloMosaic.TcCoe Idealize.ShloMosaic.ValueIdx Idealize.SL.Sem Cert.Gcn Cert.HybridNet
open Cert.KernelIdeal Cert.KernelIdeal.Facts₀ Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block row t, column block 0; the weight window
    at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product. -/
theorem flushed_eq (c : Dev nD) (t : Fin cfg1.N) :
    (dat1 V c).flushed 2 t = ((cfg1.win 2).blk t).view.read (Elt Ideal)
      (dense (V c main_v32 : Mat 50000 128) (V c main_arg5 : Mat 128 128)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x128) hz]
  rw [Blocks.pay1]
  obtain ⟨e0, e1, e2, e3, e4, e5⟩ := idx_facts t
  funext j
  show dense (fun y => V c main_v32 (((cfg1.win 0).blk t).view.emb y)) (fun y => V c main_arg5 (((cfg1.win 1).blk t).view.emb y)) j
     = dense (V c main_v32 : Mat 50000 128) (V c main_arg5 : Mat 128 128) (((cfg1.win 2).blk t).view.emb j)
  refine dense_block _ _ _ _ j _ ?_ (fun l => ?_) (fun l q => ?_)
  · apply Fin.ext
    show (j 1).val = win1_2.index t (1 : Fin 2) * 128 + 1 * (j 1).val
    omega
  · show V c main_v32 (((cfg1.win 0).blk t).view.emb (ix2 (j 0) l)) = V c main_v32 (ix2 ((((cfg1.win 2).blk t).view.emb j) 0) l)
    refine congrArg (V c main_v32) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * l.val = l.val; omega
  · show V c main_arg5 (((cfg1.win 1).blk t).view.emb (ix2 l q)) = V c main_arg5 (ix2 l q)
    refine congrArg (V c main_arg5) (funext fun a => Fin.ext ?_)
    match a with
    | ⟨0, _⟩ => show win1_1.index t (0 : Fin 2) * 128 + 1 * l.val = l.val; omega
    | ⟨1, _⟩ => show win1_1.index t (1 : Fin 2) * 128 + 1 * q.val = q.val; omega

/-- An index of the array is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v33).slice (win1_2.rect t)).set ↔ _
  rw [View.set_slice_whole, Rect.mem_set_unit]
  exact Iff.rfl

/-- Every row of the array lies in the block of the point numbered by the row's quotient by 2000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := Fin.cast N_1.symm ⟨(i 0).val / 2000, by omega⟩
  have ht : t.val = (i 0).val / 2000 := rfl
  obtain ⟨e0, e1, e2, e3, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The result array after the region: the whole product of the arrays the region found. -/
theorem out_eq (c : Dev nD) :
    (dat1 V c).arrAt 2 cfg1.N = dense (V c main_v32 : Mat 50000 128) (V c main_arg5 : Mat 128 128) :=
  (dat1 V c).arrAt_eq_of_cover 2 _ (fun t _ => flushed_eq V c t) cover

end Cert.HybridNet.Region1

end
-- ==== Proof.Region2.lean ====
/-
  Region 2 (the closing step of the layer with self-loops) as one whole-array function of the arrays it finds.

  Grid point t stages rows 2000·t … 2000·t+1999 of the aggregated array and of the self term and the whole bias row,
  and writes back rows 2000·t … 2000·t+1999 of max((agg + term) + b, 0). The step is entrywise in its two row
  operands, so block t of the result is block t of the whole array, and the 25 blocks fill it.
-/
import proofs.«126889_j85615878078998_1_alg».proof.Proof.Gen.KernelIdeal.Frame
import proofs.«126889_j85615878078998_1_alg».proof.Proof.KernelBlocks
import Idealize.ShloMosaic.Lib.Pipeline.Value

set_option maxRecDepth 16384

noncomputable section

namespace Cert.HybridNet.Region2

open Idealize.ShloMosaic Idealize.ShloMosaic.TcCoe Idealize.ShloMosaic.ValueIdx Idealize.SL.Sem Cert.Gcn Cert.HybridNet
open Cert.KernelIdeal Cert.KernelIdeal.Facts₀ Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block row t, column block 0; the bias
    window at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the whole array. -/
theorem flushed_eq (c : Dev nD) (t : Fin cfg2.N) :
    (dat2 V c).flushed 3 t = ((cfg2.win 3).blk t).view.read (Elt Ideal)
      (combine (V c main_v61 : Mat 50000 128) (V c main_v63 : Mat 50000 128) (V c main_v64 : Mat 1 128)) := by
  show (cfg2.win 3).cut (grid2.coords t) ((dat2 V c).after 3 t) = _
  rw [after2_3]
  unfold out2_3
  rw [View.canon_unit_zero hz]
  simp only [View.ld_unit_zero (S := S2000x128) hz, View.ld_unit_zero (S := S1x128) hz]
  rw [Blocks.pay2]
  obtain ⟨e0, e1, e2, e3, e4, e5, e6, e7⟩ := idx_facts t
  funext j
  show combine (fun y => V c main_v61 (((cfg2.win 0).blk t).view.emb y)) (fun y => V c main_v63 (((cfg2.win 1).blk t).view.emb y))
        (fun y => V c main_v64 (((cfg2.win 2).blk t).view.emb y)) j
     = combine (V c main_v61 : Mat 50000 128) (V c main_v63 : Mat 50000 128) (V c main_v64 : Mat 1 128) (((cfg2.win 3).blk t).view.emb j)
  refine combine_transfer _ _ _ _ _ _ j _ ?_ ?_ ?_ (fun q => ?_)
  · apply Fin.ext
    show (j 1).val = win2_3.index t (1 : Fin 2) * 128 + 1 * (j 1).val
    omega
  · show V c main_v61 (((cfg2.win 0).blk t).view.emb j) = V c main_v61 (((cfg2.win 3).blk t).view.emb j)
    refine congrArg (V c main_v61) (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * (j 1).val = win2_3.index t (1 : Fin 2) * 128 + 1 * (j 1).val; omega
  · show V c main_v63 (((cfg2.win 1).blk t).view.emb j) = V c main_v63 (((cfg2.win 3).blk t).view.emb j)
    refine congrArg (V c main_v63) (funext fun a => Fin.ext ?_)
    match a with
    | ⟨0, _⟩ => show win2_1.index t (0 : Fin 2) * 2000 + 1 * (j 0).val = win2_3.index t (0 : Fin 2) * 2000 + 1 * (j 0).val; omega
    | ⟨1, _⟩ => show win2_1.index t (1 : Fin 2) * 128 + 1 * (j 1).val = win2_3.index t (1 : Fin 2) * 128 + 1 * (j 1).val; omega
  · show V c main_v64 (((cfg2.win 2).blk t).view.emb (ix2 (0 : Fin 1) q)) = V c main_v64 (ix2 (0 : Fin 1) q)
    refine congrArg (V c main_v64) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega

/-- An index of the array is in point t's block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v65).slice (win2_3.rect t)).set ↔ _
  rw [View.set_slice_whole, Rect.mem_set_unit]
  exact Iff.rfl

/-- Every row of the array lies in the block of the point numbered by the row's quotient by 2000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := Fin.cast N_2.symm ⟨(i 0).val / 2000, by omega⟩
  have ht : t.val = (i 0).val / 2000 := rfl
  obtain ⟨e0, e1, e2, e3, e4, e5, e6, e7⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The result array after the region. -/
theorem out_eq (c : Dev nD) :
    (dat2 V c).arrAt 3 cfg2.N = combine (V c main_v61 : Mat 50000 128) (V c main_v63 : Mat 50000 128) (V c main_v64 : Mat 1 128) :=
  (dat2 V c).arrAt_eq_of_cover 3 _ (fun t _ => flushed_eq V c t) cover

end Cert.HybridNet.Region2

end
-- ==== Proof.Region3.lean ====
/-
  Region 3 (the second mean-aggregation layer, clamped at zero) as one whole-array function of the arrays it finds.

  Grid point t stages rows 2000·t … 2000·t+1999 of the two row operands, the whole of the two weight matrices and
  of the bias row, and writes back rows 2000·t … 2000·t+1999 of the result. Row p of the layer only reads row p of
  the row operands, so block t of the result is block t of the whole layer, and the 25 blocks fill the array.
-/
import proofs.«126889_j85615878078998_1_alg».proof.Proof.Gen.KernelIdeal.Frame
import proofs.«126889_j85615878078998_1_alg».proof.Proof.KernelBlocks
import Idealize.ShloMosaic.Lib.Pipeline.Value

set_option maxRecDepth 16384

noncomputable section

namespace Cert.HybridNet.Region3

open Idealize.ShloMosaic Idealize.ShloMosaic.TcCoe Idealize.ShloMosaic.ValueIdx Idealize.SL.Sem Cert.Gcn Cert.HybridNet
open Cert.KernelIdeal Cert.KernelIdeal.Facts₀ Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block row t, column block 0; the weight and
    bias windows at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point t writes back is block t of the whole layer. -/
theorem flushed_eq (c : Dev nD) (t : Fin cfg3.N) :
    (dat3 V c).flushed 5 t = ((cfg3.win 5).blk t).view.read (Elt Ideal)
      (sageRelu (V c main_v77 : Mat 50000 128) (V c main_v65 : Mat 50000 128) (V c main_arg7 : Mat 128 128) (V c main_arg8 : Mat 128 128) (V c main_v78 : Mat 1 128)) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x128) hz, View.ld_unit_zero (S := S1x128) hz]
  rw [Blocks.pay3]
  obtain ⟨e0, e1, e2, e3, e4, e5, e6, e7, e8, e9, e10, e11⟩ := idx_facts t
  funext j
  show sageRelu (fun y => V c main_v77 (((cfg3.win 0).blk t).view.emb y)) (fun y => V c main_v65 (((cfg3.win 1).blk t).view.emb y))
        (fun y => V c main_arg7 (((cfg3.win 2).blk t).view.emb y)) (fun y => V c main_arg8 (((cfg3.win 3).blk t).view.emb y))
        (fun y => V c main_v78 (((cfg3.win 4).blk t).view.emb y)) j
     = sageRelu (V c main_v77 : Mat 50000 128) (V c main_v65 : Mat 50000 128) (V c main_arg7 : Mat 128 128) (V c main_arg8 : Mat 128 128) (V c main_v78 : Mat 1 128)
        (((cfg3.win 5).blk t).view.emb j)
  refine sageRelu_transfer _ _ _ _ _ _ _ _ _ _ j _ ?_ (fun l => ?_) (fun l => ?_) (fun l q => ?_) (fun l q => ?_) (fun q => ?_)
  · apply Fin.ext
    show (j 1).val = win3_5.index t (1 : Fin 2) * 128 + 1 * (j 1).val
    omega
  · show V c main_v77 (((cfg3.win 0).blk t).view.emb (ix2 (j 0) l)) = V c main_v77 (ix2 ((((cfg3.win 5).blk t).view.emb j) 0) l)
    refine congrArg (V c main_v77) (funext fun a => Fin.ext ?_)
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 128 + 1 * l.val = l.val; omega
  · show V c main_v65 (((cfg3.win 1).blk t).view.emb (ix2 (j 0) l)) = V c main_v65 (ix2 ((((cfg3.win 5).blk t).view.emb j) 0) l)
    refine congrArg (V c main_v65) (funext fun a => Fin.ext ?_)
    match a with
    | ⟨0, _⟩ => show win3_1.index t (0 : Fin 2) * 2000 + 1 * (j 0).val = win3_5.index t (0 : Fin 2) * 2000 + 1 * (j 0).val; omega
    | ⟨1, _⟩ => show win3_1.index t (1 : Fin 2) * 128 + 1 * l.val = l.val; omega
  · show V c main_arg7 (((cfg3.win 2).blk t).view.emb (ix2 l q)) = V c main_arg7 (ix2 l q)
    refine congrArg (V c main_arg7) (funext fun a => Fin.ext ?_)
    match a with
    | ⟨0, _⟩ => show win3_2.index t (0 : Fin 2) * 128 + 1 * l.val = l.val; omega
    | ⟨1, _⟩ => show win3_2.index t (1 : Fin 2) * 128 + 1 * q.val = q.val; omega
  · show V c main_arg8 (((cfg3.win 3).blk t).view.emb (ix2 l q)) = V c main_arg8 (ix2 l q)
    refine congrArg (V c main_arg8) (funext fun a => Fin.ext ?_)
    match a with
    | ⟨0, _⟩ => show win3_3.index t (0 : Fin 2) * 128 + 1 * l.val = l.val; omega
    | ⟨1, _⟩ => show win3_3.index t (1 : Fin 2) * 128 + 1 * q.val = q.val; omega
  · show V c main_v78 (((cfg3.win 4).blk t).view.emb (ix2 (0 : Fin 1) q)) = V c main_v78 (ix2 (0 : Fin 1) q)
    refine congrArg (V c main_v78) (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega

/-- An index of the array is in point t's block iff each coordinate is in the block's range on its axis. -/
theorem mem_blk (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v79).slice (win3_5.rect t)).set ↔ _
  rw [View.set_slice_whole, Rect.mem_set_unit]
  exact Iff.rfl

/-- Every row of the array lies in the block of the point numbered by the row's quotient by 2000. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  let t : Fin cfg3.N := Fin.cast N_3.symm ⟨(i 0).val / 2000, by omega⟩
  have ht : t.val = (i 0).val / 2000 := rfl
  obtain ⟨e0, e1, e2, e3, e4, e5, e6, e7, e8, e9, e10, e11⟩ := idx_facts t
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The result array after the region: the whole layer of the arrays the region found. -/
theorem out_eq (c : Dev nD) :
    (dat3 V c).arrAt 5 cfg3.N
      = sageRelu (V c main_v77 : Mat 50000 128) (V c main_v65 : Mat 50000 128) (V c main_arg7 : Mat 128 128) (V c main_arg8 : Mat 128 128) (V c main_v78 : Mat 1 128) :=
  (dat3 V c).arrAt_eq_of_cover 5 _ (fun t _ => flushed_eq V c t) cover

end Cert.HybridNet.Region3

end
-- ==== Proof.Region4.lean ====
/-
  Region 4 (the last mean-aggregation layer with the row log-softmax) as one whole-array function of the arrays it finds.

  Grid point t stages rows 2000·t … 2000·t+1999 of the two row operands, the whole of the two weight matrices and
  of the bias row, and writes back rows 2000·t … 2000·t+1999 of the result. Row p of the layer only reads row p of
  the row operands, so block t of the result is block t of the whole layer, and the 25 blocks fill the array.
-/
import proofs.«126889_j85615878078998_1_alg».proof.Proof.Gen.KernelIdeal.Frame
import proofs.«126889_j85615878078998_1_alg».proof.Proof.KernelBlocks
import Idealize.ShloMosaic.Lib.Pipeline.Value

set_option maxRecDepth 16384

noncomputable section

namespace Cert.HybridNet.Region4

open Idealize.ShloMosaic Idealize.ShloMosaic.TcCoe Idealize.ShloMosaic.ValueIdx Idealize.SL.Sem Cert.Gcn Cert.HybridNet
open Cert.KernelIdeal Cert.KernelIdeal.Facts₀ Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block row t, column block 0; the weight and
    bias windows at block (0, 0). -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point t writes back is block t of the whole layer. -/
theorem flushed_eq (c : Dev nD) (t : Fin cfg4.N) :
    (dat4 V c).flushed 5 t = ((cfg4.win 5).blk t).view.read (Elt Ideal)
      (sageLogSoftmax (V c main_v91 : Mat 50000 128) (V c main_v79 : Mat 50000 128) (V c main_arg10 : Mat 128 16) (V c main_arg11 : Mat 128 16) (V c main_v92 : Mat 1 16)) := by
  show (cfg4.win 5).cut (grid4.coords t) ((dat4 V c).after 5 t) = _
  rw [after4_5]
  unfold out4_5
  rw [View.canon_unit_zero hz]
  simp only [View.ld_unit_zero (S := S2000x128) hz, View.ld_unit_zero (S := S128x16) hz, View.ld_unit_zero (S := S1x16) hz]
  rw [Blocks.pay4]
  obtain ⟨e0, e1, e2, e3, e4, e5, e6, e7, e8, e9, e10, e11⟩ := idx_facts t
  funext j
  show sageLogSoftmax (fun y => V c main_v91 (((cfg4.win 0).blk t).view.emb y)) (fun y => V c main_v79 (((cfg4.win 1).blk t).view.emb y))
        (fun y => V c main_arg10 (((cfg4.win 2).blk t).view.emb y)) (fun y => V c main_arg11 (((cfg4.win 3).blk t).view.emb y))
        (fun y => V c main_v92 (((cfg4.win 4).blk t).view.emb y)) j
     = sageLogSoftmax (V c main_v91 : Mat 50000 128) (V c main_v79 : Mat 50000 128) (V c main_arg10 : Mat 128 16) (V c main_arg11 : Mat 128 16) (V c main_v92 : Mat 1 16)
        (((cfg4.win 5).blk t).view.emb j)
  refine sageLogSoftmax_transfer _ _ _ _ _ _ _ _ _ _ j _ ?_ (fun l => ?_) (fun l => ?_) (fun l q => ?_) (fun l q => ?_) (fun q => ?_)
  · apply Fin.ext
    show (j 1).val = win4_5.index t (1 : Fin 2) * 16 + 1 * (j 1).val
    omega
  · show V c main_v91 (((cfg4.win 0).blk t).view.emb (ix2 (j 0) l)) = V c main_v91 (ix2 ((((cfg4.win 5).blk t).view.emb j) 0) l)
    refine congrArg (V c main_v91) (funext fun a => Fin.ext ?_)
    match a with
    | ⟨0, _⟩ => show win4_0.index t (0 : Fin 2) * 2000 + 1 * (j 0).val = win4_5.index t (0 : Fin 2) * 2000 + 1 * (j 0).val; omega
    | ⟨1, _⟩ => show win4_0.index t (1 : Fin 2) * 128 + 1 * l.val = l.val; omega
  · show V c main_v79 (((cfg4.win 1).blk t).view.emb (ix2 (j 0) l)) = V c main_v79 (ix2 ((((cfg4.win 5).blk t).view.emb j) 0) l)
    refine congrArg (V c main_v79) (funext fun a => Fin.ext ?_)
    match a with
    | ⟨0, _⟩ => show win4_1.index t (0 : Fin 2) * 2000 + 1 * (j 0).val = win4_5.index t (0 : Fin 2) * 2000 + 1 * (j 0).val; omega
    | ⟨1, _⟩ => show win4_1.index t (1 : Fin 2) * 128 + 1 * l.val = l.val; omega
  · show V c main_arg10 (((cfg4.win 2).blk t).view.emb (ix2 l q)) = V c main_arg10 (ix2 l q)
    refine congrArg (V c main_arg10) (funext fun a => Fin.ext ?_)
    match a with
    | ⟨0, _⟩ => show win4_2.index t (0 : Fin 2) * 128 + 1 * l.val = l.val; omega
    | ⟨1, _⟩ => show win4_2.index t (1 : Fin 2) * 16 + 1 * q.val = q.val; omega
  · show V c main_arg11 (((cfg4.win 3).blk t).view.emb (ix2 l q)) = V c main_arg11 (ix2 l q)
    refine congrArg (V c main_arg11) (funext fun a => Fin.ext ?_)
    match a with
    | ⟨0, _⟩ => show win4_3.index t (0 : Fin 2) * 128 + 1 * l.val = l.val; omega
    | ⟨1, _⟩ => show win4_3.index t (1 : Fin 2) * 16 + 1 * q.val = q.val; omega
  · show V c main_v92 (((cfg4.win 4).blk t).view.emb (ix2 (0 : Fin 1) q)) = V c main_v92 (ix2 (0 : Fin 1) q)
    refine congrArg (V c main_v92) (funext fun a => Fin.ext ?_)
    match a with
    | ⟨0, _⟩ => show win4_4.index t (0 : Fin 2) * 1 + 1 * 0 = 0; omega
    | ⟨1, _⟩ => show win4_4.index t (1 : Fin 2) * 16 + 1 * q.val = q.val; omega

/-- An index of the array is in point t's block iff each coordinate is in the block's range on its axis. -/
theorem mem_blk (t : Fin cfg4.N) (i : S50000x16.Idx) :
    i ∈ ((cfg4.win 5).blk t).view.set ↔ ∀ a : Fin 2, win4_5.index t a * S2000x16.size a ≤ (i a).val ∧ (i a).val < win4_5.index t a * S2000x16.size a + S2000x16.size a := by
  show i ∈ ((View.whole main_v93).slice (win4_5.rect t)).set ↔ _
  rw [View.set_slice_whole, Rect.mem_set_unit]
  exact Iff.rfl

/-- Every row of the array lies in the block of the point numbered by the row's quotient by 2000. -/
theorem cover (i : S50000x16.Idx) : ∃ t : Fin cfg4.N, (cfg4.win 5).flush t = true ∧ i ∈ ((cfg4.win 5).blk t).view.set := by
  have hi0 : (i 0).val < 50000 := (i 0).isLt
  have hi1 : (i 1).val < 16 := (i 1).isLt
  let t : Fin cfg4.N := Fin.cast N_4.symm ⟨(i 0).val / 2000, by omega⟩
  have ht : t.val = (i 0).val / 2000 := rfl
  obtain ⟨e0, e1, e2, e3, e4, e5, e6, e7, e8, e9, e10, e11⟩ := idx_facts t
  refine ⟨t, flush4_5 t, ?_⟩
  rw [mem_blk]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 16 ≤ (i 1).val ∧ (i 1).val < win4_5.index t (1 : Fin 2) * 16 + 16; omega

/-- The result array after the region: the whole layer of the arrays the region found. -/
theorem out_eq (c : Dev nD) :
    (dat4 V c).arrAt 5 cfg4.N
      = sageLogSoftmax (V c main_v91 : Mat 50000 128) (V c main_v79 : Mat 50000 128) (V c main_arg10 : Mat 128 16) (V c main_arg11 : Mat 128 16) (V c main_v92 : Mat 1 16) :=
  (dat4 V c).arrAt_eq_of_cover 5 _ (fun t _ => flushed_eq V c t) cover

end Cert.HybridNet.Region4

end
-- ==== Proof.Stretch0.lean ====
/-
  The first stretch of host operations of the kernel program, read at the buffers later segments use, for any
  contents W of the buffers at its entry: the two index vectors off the edge array, the reciprocal of the clamped
  in-degree and the reciprocal of the degree kept as columns, the normaliser, the neighbour mean of the node
  features in the program's spelling (the hop times the reciprocal column spread over the feature axis), the first
  bias as a row; the arguments it does not write keep their contents.
-/
import proofs.«126889_j85615878078998_1_alg».proof.Proof.Gen.KernelIdeal.Frame
import proofs.«126889_j85615878078998_1_alg».proof.Proof.Net
import Idealize.ShloMosaic.Lib.StableHlo.Run

set_option maxRecDepth 16384

noncomputable section

namespace Cert.HybridNet.Stretch0

open Idealize.ShloMosaic Idealize.ShloMosaic.TcCoe Idealize.ShloMosaic.ValueIdx Idealize.SL.Sem Idealize.ShloMosaic.StableHlo Cert.Gcn Cert.HybridNet
open Cert.KernelIdeal Cert.KernelIdeal.Gen

variable (W : Valuation τ sig (Elt Ideal))

theorem src_eq : StableHlo.after (hostOps0 (F := Ideal)) W (Proc.devRef .tc main_v1) = srcOf (W (Proc.devRef .tc main_arg1)) := by
  after_results_simp
  rfl

theorem dst_eq : StableHlo.after (hostOps0 (F := Ideal)) W (Proc.devRef .tc main_v3) = dstOf (W (Proc.devRef .tc main_arg1)) := by
  after_results_simp
  rfl

theorem recipCount_eq : StableHlo.after (hostOps0 (F := Ideal)) W (Proc.devRef .tc main_v12)
    = shapeCast S50000x1 (Host.divf (F := Ideal) onesN (clampedCount (dstOf (W (Proc.devRef .tc main_arg1))))) Gen.shapeCasts_S50000_S50000x1 := by
  after_results_simp
  rfl

theorem dinv_eq : StableHlo.after (hostOps0 (F := Ideal)) W (Proc.devRef .tc main_v15) = dinvOf (dstOf (W (Proc.devRef .tc main_arg1))) := by
  after_results_simp
  rfl

theorem recipDeg_eq : StableHlo.after (hostOps0 (F := Ideal)) W (Proc.devRef .tc main_v18)
    = shapeCast S50000x1 (Host.divf (F := Ideal) onesN (degOf (dstOf (W (Proc.devRef .tc main_arg1))))) Gen.shapeCasts_S50000_S50000x1 := by
  after_results_simp
  rfl

theorem mean_eq : StableHlo.after (hostOps0 (F := Ideal)) W (Proc.devRef .tc main_v30)
    = mulf (hop (srcOf (W (Proc.devRef .tc main_arg1))) (dstOf (W (Proc.devRef .tc main_arg1))) (W (Proc.devRef .tc main_arg0)))
        (broadcastInDim S50000x128 ![0, 1] Gen.bcast_S50000x1_S50000x128_0_1
          (shapeCast S50000x1 (Host.divf (F := Ideal) onesN (clampedCount (dstOf (W (Proc.devRef .tc main_arg1))))) Gen.shapeCasts_S50000_S50000x1)) := by
  after_results_simp
  rfl

theorem bias_eq : StableHlo.after (hostOps0 (F := Ideal)) W (Proc.devRef .tc main_v31)
    = shapeCast S1x128 (W (Proc.devRef .tc main_arg4)) Gen.shapeCasts_S128_S1x128 := by
  after_results_simp
  rfl

theorem keeps_main_arg0 : StableHlo.after (hostOps0 (F := Ideal)) W (Proc.devRef .tc main_arg0) = W (Proc.devRef .tc main_arg0) := by
  after_results_simp

theorem keeps_main_arg2 : StableHlo.after (hostOps0 (F := Ideal)) W (Proc.devRef .tc main_arg2) = W (Proc.devRef .tc main_arg2) := by
  after_results_simp

theorem keeps_main_arg3 : StableHlo.after (hostOps0 (F := Ideal)) W (Proc.devRef .tc main_arg3) = W (Proc.devRef .tc main_arg3) := by
  after_results_simp

theorem keeps_main_arg5 : StableHlo.after (hostOps0 (F := Ideal)) W (Proc.devRef .tc main_arg5) = W (Proc.devRef .tc main_arg5) := by
  after_results_simp

theorem keeps_main_arg6 : StableHlo.after (hostOps0 (F := Ideal)) W (Proc.devRef .tc main_arg6) = W (Proc.devRef .tc main_arg6) := by
  after_results_simp

theorem keeps_main_arg7 : StableHlo.after (hostOps0 (F := Ideal)) W (Proc.devRef .tc main_arg7) = W (Proc.devRef .tc main_arg7) := by
  after_results_simp

theorem keeps_main_arg8 : StableHlo.after (hostOps0 (F := Ideal)) W (Proc.devRef .tc main_arg8) = W (Proc.devRef .tc main_arg8) := by
  after_results_simp

theorem keeps_main_arg9 : StableHlo.after (hostOps0 (F := Ideal)) W (Proc.devRef .tc main_arg9) = W (Proc.devRef .tc main_arg9) := by
  after_results_simp

theorem keeps_main_arg10 : StableHlo.after (hostOps0 (F := Ideal)) W (Proc.devRef .tc main_arg10) = W (Proc.devRef .tc main_arg10) := by
  after_results_simp

theorem keeps_main_arg11 : StableHlo.after (hostOps0 (F := Ideal)) W (Proc.devRef .tc main_arg11) = W (Proc.devRef .tc main_arg11) := by
  after_results_simp

theorem keeps_main_arg12 : StableHlo.after (hostOps0 (F := Ideal)) W (Proc.devRef .tc main_arg12) = W (Proc.devRef .tc main_arg12) := by
  after_results_simp

end Cert.HybridNet.Stretch0

end
-- ==== Proof.Stretch2.lean ====
/-
  The stretch of host operations between the second and third regions, for any contents W of the buffers at its
  entry: the aggregation with symmetric normalisation (a hop of the transformed rows, each edge's row scaled by the
  product of its endpoints' normalisers, that product kept as a column and spread over the feature axis), the
  self-loop term (the transformed rows times the reciprocal-degree column spread over the feature axis), the bias
  as a row; the buffers later segments read that it does not write keep their contents.
-/
import proofs.«126889_j85615878078998_1_alg».proof.Proof.Gen.KernelIdeal.Frame
import proofs.«126889_j85615878078998_1_alg».proof.Proof.Net
import Idealize.ShloMosaic.Lib.StableHlo.Run

set_option maxRecDepth 16384

noncomputable section

namespace Cert.HybridNet.Stretch2

open Idealize.ShloMosaic Idealize.ShloMosaic.TcCoe Idealize.ShloMosaic.ValueIdx Idealize.SL.Sem Idealize.ShloMosaic.StableHlo Cert.Gcn Cert.HybridNet
open Cert.KernelIdeal Cert.KernelIdeal.Gen

variable (W : Valuation τ sig (Elt Ideal))

theorem agg_eq : StableHlo.after (hostOps2 (F := Ideal)) W (Proc.devRef .tc main_v61)
    = Host.scatterAdd (F := Ideal) scatter_S50000x128_S800000x1_S800000x128_1_0_0_1 zerosNC (plainCol (W (Proc.devRef .tc main_v3)))
        (mulf (Host.gather gather_S50000x128_S800000x1_S800000x128_1_0_n_n_0_1_1128 (W (Proc.devRef .tc main_v33)) (wrapCol (W (Proc.devRef .tc main_v1))))
          (broadcastInDim S800000x128 ![0, 1] Gen.bcast_S800000x1_S800000x128_0_1
            (shapeCast S800000x1
              (mulf (Host.gather gather_S50000_S800000x1_S800000_n_0_n_n_0_1_1 (W (Proc.devRef .tc main_v15)) (wrapCol (W (Proc.devRef .tc main_v1))))
                (Host.gather gather_S50000_S800000x1_S800000_n_0_n_n_0_1_1 (W (Proc.devRef .tc main_v15)) (wrapCol (W (Proc.devRef .tc main_v3)))))
              Gen.shapeCasts_S800000_S800000x1))) := by
  after_results_simp
  rfl

theorem self_eq : StableHlo.after (hostOps2 (F := Ideal)) W (Proc.devRef .tc main_v63)
    = mulf (F := Ideal) (s := S50000x128) (φ := .f32) (W (Proc.devRef .tc main_v33))
        (broadcastInDim S50000x128 ![0, 1] Gen.bcast_S50000x1_S50000x128_0_1 (W (Proc.devRef .tc main_v18))) := by
  after_results_simp

theorem bias_eq : StableHlo.after (hostOps2 (F := Ideal)) W (Proc.devRef .tc main_v64)
    = shapeCast S1x128 (W (Proc.devRef .tc main_arg6)) Gen.shapeCasts_S128_S1x128 := by
  after_results_simp
  rfl

theorem keeps_main_v1 : StableHlo.after (hostOps2 (F := Ideal)) W (Proc.devRef .tc main_v1) = W (Proc.devRef .tc main_v1) := by
  after_results_simp

theorem keeps_main_v3 : StableHlo.after (hostOps2 (F := Ideal)) W (Proc.devRef .tc main_v3) = W (Proc.devRef .tc main_v3) := by
  after_results_simp

theorem keeps_main_v12 : StableHlo.after (hostOps2 (F := Ideal)) W (Proc.devRef .tc main_v12) = W (Proc.devRef .tc main_v12) := by
  after_results_simp

theorem keeps_main_arg7 : StableHlo.after (hostOps2 (F := Ideal)) W (Proc.devRef .tc main_arg7) = W (Proc.devRef .tc main_arg7) := by
  after_results_simp

theorem keeps_main_arg8 : StableHlo.after (hostOps2 (F := Ideal)) W (Proc.devRef .tc main_arg8) = W (Proc.devRef .tc main_arg8) := by
  after_results_simp

theorem keeps_main_arg9 : StableHlo.after (hostOps2 (F := Ideal)) W (Proc.devRef .tc main_arg9) = W (Proc.devRef .tc main_arg9) := by
  after_results_simp

theorem keeps_main_arg10 : StableHlo.after (hostOps2 (F := Ideal)) W (Proc.devRef .tc main_arg10) = W (Proc.devRef .tc main_arg10) := by
  after_results_simp

theorem keeps_main_arg11 : StableHlo.after (hostOps2 (F := Ideal)) W (Proc.devRef .tc main_arg11) = W (Proc.devRef .tc main_arg11) := by
  after_results_simp

theorem keeps_main_arg12 : StableHlo.after (hostOps2 (F := Ideal)) W (Proc.devRef .tc main_arg12) = W (Proc.devRef .tc main_arg12) := by
  after_results_simp

end Cert.HybridNet.Stretch2

end
-- ==== Proof.Stretch3.lean ====
/-
  The stretch of host operations between the third and fourth regions, for any contents W of the buffers at its
  entry: the neighbour mean of the third region's output in the program's spelling (the hop times the reciprocal
  column spread over the feature axis) and the bias as a row; the buffers later segments read that it does not
  write keep their contents.
-/
import proofs.«126889_j85615878078998_1_alg».proof.Proof.Gen.KernelIdeal.Frame
import proofs.«126889_j85615878078998_1_alg».proof.Proof.Net
import Idealize.ShloMosaic.Lib.StableHlo.Run

set_option maxRecDepth 16384

noncomputable section

namespace Cert.HybridNet.Stretch3

open Idealize.ShloMosaic Idealize.ShloMosaic.TcCoe Idealize.ShloMosaic.ValueIdx Idealize.SL.Sem Idealize.ShloMosaic.StableHlo Cert.Gcn Cert.HybridNet
open Cert.KernelIdeal Cert.KernelIdeal.Gen

variable (W : Valuation τ sig (Elt Ideal))

theorem mean_eq : StableHlo.after (hostOps3 (F := Ideal)) W (Proc.devRef .tc main_v77)
    = mulf (hop (W (Proc.devRef .tc main_v1)) (W (Proc.devRef .tc main_v3)) (W (Proc.devRef .tc main_v65)))
        (broadcastInDim S50000x128 ![0, 1] Gen.bcast_S50000x1_S50000x128_0_1 (W (Proc.devRef .tc main_v12))) := by
  after_results_simp
  rfl

theorem bias_eq : StableHlo.after (hostOps3 (F := Ideal)) W (Proc.devRef .tc main_v78)
    = shapeCast S1x128 (W (Proc.devRef .tc main_arg9)) Gen.shapeCasts_S128_S1x128 := by
  after_results_simp
  rfl

theorem keeps_main_v65 : StableHlo.after (hostOps3 (F := Ideal)) W (Proc.devRef .tc main_v65) = W (Proc.devRef .tc main_v65) := by
  after_results_simp

theorem keeps_main_arg7 : StableHlo.after (hostOps3 (F := Ideal)) W (Proc.devRef .tc main_arg7) = W (Proc.devRef .tc main_arg7) := by
  after_results_simp

theorem keeps_main_arg8 : StableHlo.after (hostOps3 (F := Ideal)) W (Proc.devRef .tc main_arg8) = W (Proc.devRef .tc main_arg8) := by
  after_results_simp

theorem keeps_main_v1 : StableHlo.after (hostOps3 (F := Ideal)) W (Proc.devRef .tc main_v1) = W (Proc.devRef .tc main_v1) := by
  after_results_simp

theorem keeps_main_v3 : StableHlo.after (hostOps3 (F := Ideal)) W (Proc.devRef .tc main_v3) = W (Proc.devRef .tc main_v3) := by
  after_results_simp

theorem keeps_main_v12 : StableHlo.after (hostOps3 (F := Ideal)) W (Proc.devRef .tc main_v12) = W (Proc.devRef .tc main_v12) := by
  after_results_simp

theorem keeps_main_arg10 : StableHlo.after (hostOps3 (F := Ideal)) W (Proc.devRef .tc main_arg10) = W (Proc.devRef .tc main_arg10) := by
  after_results_simp

theorem keeps_main_arg11 : StableHlo.after (hostOps3 (F := Ideal)) W (Proc.devRef .tc main_arg11) = W (Proc.devRef .tc main_arg11) := by
  after_results_simp

theorem keeps_main_arg12 : StableHlo.after (hostOps3 (F := Ideal)) W (Proc.devRef .tc main_arg12) = W (Proc.devRef .tc main_arg12) := by
  after_results_simp

end Cert.HybridNet.Stretch3

end
-- ==== Proof.Stretch4.lean ====
/-
  The stretch of host operations before the last region, for any contents W of the buffers at its entry: the
  neighbour mean of the fourth region's output in the program's spelling and the last bias as a row; the buffers the
  last region reads that it does not write keep their contents.
-/
import proofs.«126889_j85615878078998_1_alg».proof.Proof.Gen.KernelIdeal.Frame
import proofs.«126889_j85615878078998_1_alg».proof.Proof.Net
import Idealize.ShloMosaic.Lib.StableHlo.Run

set_option maxRecDepth 16384

noncomputable section

namespace Cert.HybridNet.Stretch4

open Idealize.ShloMosaic Idealize.ShloMosaic.TcCoe Idealize.ShloMosaic.ValueIdx Idealize.SL.Sem Idealize.ShloMosaic.StableHlo Cert.Gcn Cert.HybridNet
open Cert.KernelIdeal Cert.KernelIdeal.Gen

variable (W : Valuation τ sig (Elt Ideal))

theorem mean_eq : StableHlo.after (hostOps4 (F := Ideal)) W (Proc.devRef .tc main_v91)
    = mulf (hop (W (Proc.devRef .tc main_v1)) (W (Proc.devRef .tc main_v3)) (W (Proc.devRef .tc main_v79)))
        (broadcastInDim S50000x128 ![0, 1] Gen.bcast_S50000x1_S50000x128_0_1 (W (Proc.devRef .tc main_v12))) := by
  after_results_simp
  rfl

theorem bias_eq : StableHlo.after (hostOps4 (F := Ideal)) W (Proc.devRef .tc main_v92)
    = shapeCast S1x16 (W (Proc.devRef .tc main_arg12)) Gen.shapeCasts_S16_S1x16 := by
  after_results_simp
  rfl

theorem keeps_main_v79 : StableHlo.after (hostOps4 (F := Ideal)) W (Proc.devRef .tc main_v79) = W (Proc.devRef .tc main_v79) := by
  after_results_simp

theorem keeps_main_arg10 : StableHlo.after (hostOps4 (F := Ideal)) W (Proc.devRef .tc main_arg10) = W (Proc.devRef .tc main_arg10) := by
  after_results_simp

theorem keeps_main_arg11 : StableHlo.after (hostOps4 (F := Ideal)) W (Proc.devRef .tc main_arg11) = W (Proc.devRef .tc main_arg11) := by
  after_results_simp

end Cert.HybridNet.Stretch4

end
-- ==== Proof.KernelValue.lean ====
/-
  The kernel program's result buffer after its run is the network of Net.lean of the launch contents of its
  thirteen arguments.

  The run alternates stretches of host operations and regions. A stretch is read by its own lemma (Stretch0 … 4); a
  region leaves in its output array the whole-array layer of the arrays it found (Region0 … 4) and every other
  buffer as it was. The index vectors, the two reciprocal columns and the normaliser are computed once, by the first
  stretch, and read by later stretches: no later stretch and no region writes them, so they are carried unchanged
  to where they are read; the same for each argument up to the segment that reads it. The kernel program's spellings
  of the neighbour mean, of the edge weights and of the self term are the network's by KernelGlue.lean.
-/
import proofs.«126889_j85615878078998_1_alg».proof.Proof.Gen.KernelIdeal.Frame
import proofs.«126889_j85615878078998_1_alg».proof.Proof.Net
import proofs.«126889_j85615878078998_1_alg».proof.Proof.KernelGlue
import proofs.«126889_j85615878078998_1_alg».proof.Proof.Region0
import proofs.«126889_j85615878078998_1_alg».proof.Proof.Region1
import proofs.«126889_j85615878078998_1_alg».proof.Proof.Region2
import proofs.«126889_j85615878078998_1_alg».proof.Proof.Region3
import proofs.«126889_j85615878078998_1_alg».proof.Proof.Region4
import proofs.«126889_j85615878078998_1_alg».proof.Proof.Stretch0
import proofs.«126889_j85615878078998_1_alg».proof.Proof.Stretch2
import proofs.«126889_j85615878078998_1_alg».proof.Proof.Stretch3
import proofs.«126889_j85615878078998_1_alg».proof.Proof.Stretch4

set_option maxRecDepth 16384

noncomputable section

namespace Cert.HybridNet.KernelValue

open Idealize.ShloMosaic Idealize.ShloMosaic.TcCoe Idealize.ShloMosaic.ValueIdx Idealize.SL.Sem Idealize.ShloMosaic.StableHlo Cert.Gcn Cert.HybridNet
open Cert.KernelIdeal Cert.KernelIdeal.Gen

variable (m : (ℓ : Loc nD τ sig) → Buf (Elt Ideal) ℓ) (ρ : Dev nD → PrngReg) (c : Dev nD)

/-! ## The arguments and the layers' outputs, named -/

abbrev a0 : FVec Ideal S50000x128 .f32 := m ((c : Thread nD τ).loc main_arg0)
abbrev a1 : EdgeArr := m ((c : Thread nD τ).loc main_arg1)
abbrev a2 : FVec Ideal S128x128 .f32 := m ((c : Thread nD τ).loc main_arg2)
abbrev a3 : FVec Ideal S128x128 .f32 := m ((c : Thread nD τ).loc main_arg3)
abbrev a4 : FVec Ideal S128 .f32 := m ((c : Thread nD τ).loc main_arg4)
abbrev a5 : FVec Ideal S128x128 .f32 := m ((c : Thread nD τ).loc main_arg5)
abbrev a6 : FVec Ideal S128 .f32 := m ((c : Thread nD τ).loc main_arg6)
abbrev a7 : FVec Ideal S128x128 .f32 := m ((c : Thread nD τ).loc main_arg7)
abbrev a8 : FVec Ideal S128x128 .f32 := m ((c : Thread nD τ).loc main_arg8)
abbrev a9 : FVec Ideal S128 .f32 := m ((c : Thread nD τ).loc main_arg9)
abbrev a10 : FVec Ideal S128x16 .f32 := m ((c : Thread nD τ).loc main_arg10)
abbrev a11 : FVec Ideal S128x16 .f32 := m ((c : Thread nD τ).loc main_arg11)
abbrev a12 : FVec Ideal S16 .f32 := m ((c : Thread nD τ).loc main_arg12)

/-- The sources and the destinations of the edges. -/
def src : EdgeVec := srcOf (a1 m c)
def dst : EdgeVec := dstOf (a1 m c)

/-- The first layer's output. -/
def H0 : FVec Ideal S50000x128 .f32 :=
  sageRelu (meanOf (src m c) (dst m c) (a0 m c)) (a0 m c) (a2 m c) (a3 m c) (rowOf (a4 m c))
/-- The second layer's transformed rows. -/
def HL : FVec Ideal S50000x128 .f32 := dense (H0 m c) (a5 m c)
/-- The second layer's output. -/
def H1 : FVec Ideal S50000x128 .f32 :=
  combine (aggOf (src m c) (dst m c) (HL m c)) (selfOf (dst m c) (HL m c)) (rowOf (a6 m c))
/-- The third layer's output. -/
def H2 : FVec Ideal S50000x128 .f32 :=
  sageRelu (meanOf (src m c) (dst m c) (H1 m c)) (H1 m c) (a7 m c) (a8 m c) (rowOf (a9 m c))

theorem net_eq : net (a0 m c) (a1 m c) (a2 m c) (a3 m c) (a4 m c) (a5 m c) (a6 m c) (a7 m c) (a8 m c) (a9 m c) (a10 m c) (a11 m c) (a12 m c)
    = sageLogSoftmax (meanOf (src m c) (dst m c) (H2 m c)) (H2 m c) (a10 m c) (a11 m c) (rowOf (a12 m c)) := rfl

/-! ## After the first stretch -/

theorem w1_src : W1 m ρ c (Proc.devRef .tc main_v1) = src m c := Stretch0.src_eq (W0 m ρ c)
theorem w1_dst : W1 m ρ c (Proc.devRef .tc main_v3) = dst m c := Stretch0.dst_eq (W0 m ρ c)
theorem w1_recipCount : W1 m ρ c (Proc.devRef .tc main_v12)
    = shapeCast S50000x1 (Host.divf (F := Ideal) onesN (clampedCount (dst m c))) Gen.shapeCasts_S50000_S50000x1 := Stretch0.recipCount_eq (W0 m ρ c)
theorem w1_dinv : W1 m ρ c (Proc.devRef .tc main_v15) = dinvOf (dst m c) := Stretch0.dinv_eq (W0 m ρ c)
theorem w1_recipDeg : W1 m ρ c (Proc.devRef .tc main_v18)
    = shapeCast S50000x1 (Host.divf (F := Ideal) onesN (degOf (dst m c))) Gen.shapeCasts_S50000_S50000x1 := Stretch0.recipDeg_eq (W0 m ρ c)
theorem w1_mean : W1 m ρ c (Proc.devRef .tc main_v30) = meanOf (src m c) (dst m c) (a0 m c) :=
  (Stretch0.mean_eq (W0 m ρ c)).trans (Glue.mean_kernel (src m c) (dst m c) (a0 m c))
theorem w1_bias : (W1 m ρ c (Proc.devRef .tc main_v31) : Mat 1 128) = rowOf (a4 m c) :=
  (Stretch0.bias_eq (W0 m ρ c)).trans (Glue.bias_row128 (a4 m c))
theorem w1_a0 : W1 m ρ c (Proc.devRef .tc main_arg0) = a0 m c := Stretch0.keeps_main_arg0 (W0 m ρ c)
theorem w1_a2 : W1 m ρ c (Proc.devRef .tc main_arg2) = a2 m c := Stretch0.keeps_main_arg2 (W0 m ρ c)
theorem w1_a3 : W1 m ρ c (Proc.devRef .tc main_arg3) = a3 m c := Stretch0.keeps_main_arg3 (W0 m ρ c)
theorem w1_a5 : W1 m ρ c (Proc.devRef .tc main_arg5) = a5 m c := Stretch0.keeps_main_arg5 (W0 m ρ c)
theorem w1_a6 : W1 m ρ c (Proc.devRef .tc main_arg6) = a6 m c := Stretch0.keeps_main_arg6 (W0 m ρ c)
theorem w1_a7 : W1 m ρ c (Proc.devRef .tc main_arg7) = a7 m c := Stretch0.keeps_main_arg7 (W0 m ρ c)
theorem w1_a8 : W1 m ρ c (Proc.devRef .tc main_arg8) = a8 m c := Stretch0.keeps_main_arg8 (W0 m ρ c)
theorem w1_a9 : W1 m ρ c (Proc.devRef .tc main_arg9) = a9 m c := Stretch0.keeps_main_arg9 (W0 m ρ c)
theorem w1_a10 : W1 m ρ c (Proc.devRef .tc main_arg10) = a10 m c := Stretch0.keeps_main_arg10 (W0 m ρ c)
theorem w1_a11 : W1 m ρ c (Proc.devRef .tc main_arg11) = a11 m c := Stretch0.keeps_main_arg11 (W0 m ρ c)
theorem w1_a12 : W1 m ρ c (Proc.devRef .tc main_arg12) = a12 m c := Stretch0.keeps_main_arg12 (W0 m ρ c)

/-! ## Carried unchanged -/

/-- A buffer that is an array of neither of the first two regions holds after them what it held before. -/
theorem to3 (b : Ref sig .tc) (h0 : ∀ w, Pipeline.arrRef spec0 w ≠ b) (h1 : ∀ w, Pipeline.arrRef spec1 w ≠ b) :
    W3 m ρ c (Proc.devRef .tc b) = W1 m ρ c (Proc.devRef .tc b) :=
  (W3_of_ne m ρ c b h1).trans (W2_of_ne m ρ c b h0)

/-- A buffer the third stretch does not write and that is no array of the third region. -/
theorem to5 (b : Ref sig .tc) (h2 : ∀ w, Pipeline.arrRef spec2 w ≠ b)
    (hk : StableHlo.after (hostOps2 (F := Ideal)) (W3 m ρ c) (Proc.devRef .tc b) = W3 m ρ c (Proc.devRef .tc b)) :
    W5 m ρ c (Proc.devRef .tc b) = W3 m ρ c (Proc.devRef .tc b) :=
  (W5_of_ne m ρ c b h2).trans hk

/-- A buffer the fourth stretch does not write and that is no array of the fourth region. -/
theorem to7 (b : Ref sig .tc) (h3 : ∀ w, Pipeline.arrRef spec3 w ≠ b)
    (hk : StableHlo.after (hostOps3 (F := Ideal)) (W5 m ρ c) (Proc.devRef .tc b) = W5 m ρ c (Proc.devRef .tc b)) :
    W7 m ρ c (Proc.devRef .tc b) = W5 m ρ c (Proc.devRef .tc b) :=
  (W7_of_ne m ρ c b h3).trans hk

theorem w3_src : W3 m ρ c (Proc.devRef .tc main_v1) = src m c := (to3 m ρ c main_v1 (by decide) (by decide)).trans (w1_src m ρ c)
theorem w3_dst : W3 m ρ c (Proc.devRef .tc main_v3) = dst m c := (to3 m ρ c main_v3 (by decide) (by decide)).trans (w1_dst m ρ c)
theorem w3_recipCount : W3 m ρ c (Proc.devRef .tc main_v12)
    = shapeCast S50000x1 (Host.divf (F := Ideal) onesN (clampedCount (dst m c))) Gen.shapeCasts_S50000_S50000x1 :=
  (to3 m ρ c main_v12 (by decide) (by decide)).trans (w1_recipCount m ρ c)
theorem w3_dinv : W3 m ρ c (Proc.devRef .tc main_v15) = dinvOf (dst m c) := (to3 m ρ c main_v15 (by decide) (by decide)).trans (w1_dinv m ρ c)
theorem w3_recipDeg : W3 m ρ c (Proc.devRef .tc main_v18)
    = shapeCast S50000x1 (Host.divf (F := Ideal) onesN (degOf (dst m c))) Gen.shapeCasts_S50000_S50000x1 :=
  (to3 m ρ c main_v18 (by decide) (by decide)).trans (w1_recipDeg m ρ c)
theorem w3_a6 : W3 m ρ c (Proc.devRef .tc main_arg6) = a6 m c := (to3 m ρ c main_arg6 (by decide) (by decide)).trans (w1_a6 m ρ c)
theorem w3_a7 : W3 m ρ c (Proc.devRef .tc main_arg7) = a7 m c := (to3 m ρ c main_arg7 (by decide) (by decide)).trans (w1_a7 m ρ c)
theorem w3_a8 : W3 m ρ c (Proc.devRef .tc main_arg8) = a8 m c := (to3 m ρ c main_arg8 (by decide) (by decide)).trans (w1_a8 m ρ c)
theorem w3_a9 : W3 m ρ c (Proc.devRef .tc main_arg9) = a9 m c := (to3 m ρ c main_arg9 (by decide) (by decide)).trans (w1_a9 m ρ c)
theorem w3_a10 : W3 m ρ c (Proc.devRef .tc main_arg10) = a10 m c := (to3 m ρ c main_arg10 (by decide) (by decide)).trans (w1_a10 m ρ c)
theorem w3_a11 : W3 m ρ c (Proc.devRef .tc main_arg11) = a11 m c := (to3 m ρ c main_arg11 (by decide) (by decide)).trans (w1_a11 m ρ c)
theorem w3_a12 : W3 m ρ c (Proc.devRef .tc main_arg12) = a12 m c := (to3 m ρ c main_arg12 (by decide) (by decide)).trans (w1_a12 m ρ c)

theorem w5_src : W5 m ρ c (Proc.devRef .tc main_v1) = src m c := (to5 m ρ c main_v1 (by decide) (Stretch2.keeps_main_v1 _)).trans (w3_src m ρ c)
theorem w5_dst : W5 m ρ c (Proc.devRef .tc main_v3) = dst m c := (to5 m ρ c main_v3 (by decide) (Stretch2.keeps_main_v3 _)).trans (w3_dst m ρ c)
theorem w5_recipCount : W5 m ρ c (Proc.devRef .tc main_v12)
    = shapeCast S50000x1 (Host.divf (F := Ideal) onesN (clampedCount (dst m c))) Gen.shapeCasts_S50000_S50000x1 :=
  (to5 m ρ c main_v12 (by decide) (Stretch2.keeps_main_v12 _)).trans (w3_recipCount m ρ c)
theorem w5_a7 : W5 m ρ c (Proc.devRef .tc main_arg7) = a7 m c := (to5 m ρ c main_arg7 (by decide) (Stretch2.keeps_main_arg7 _)).trans (w3_a7 m ρ c)
theorem w5_a8 : W5 m ρ c (Proc.devRef .tc main_arg8) = a8 m c := (to5 m ρ c main_arg8 (by decide) (Stretch2.keeps_main_arg8 _)).trans (w3_a8 m ρ c)
theorem w5_a9 : W5 m ρ c (Proc.devRef .tc main_arg9) = a9 m c := (to5 m ρ c main_arg9 (by decide) (Stretch2.keeps_main_arg9 _)).trans (w3_a9 m ρ c)
theorem w5_a10 : W5 m ρ c (Proc.devRef .tc main_arg10) = a10 m c := (to5 m ρ c main_arg10 (by decide) (Stretch2.keeps_main_arg10 _)).trans (w3_a10 m ρ c)
theorem w5_a11 : W5 m ρ c (Proc.devRef .tc main_arg11) = a11 m c := (to5 m ρ c main_arg11 (by decide) (Stretch2.keeps_main_arg11 _)).trans (w3_a11 m ρ c)
theorem w5_a12 : W5 m ρ c (Proc.devRef .tc main_arg12) = a12 m c := (to5 m ρ c main_arg12 (by decide) (Stretch2.keeps_main_arg12 _)).trans (w3_a12 m ρ c)

theorem w7_src : W7 m ρ c (Proc.devRef .tc main_v1) = src m c := (to7 m ρ c main_v1 (by decide) (Stretch3.keeps_main_v1 _)).trans (w5_src m ρ c)
theorem w7_dst : W7 m ρ c (Proc.devRef .tc main_v3) = dst m c := (to7 m ρ c main_v3 (by decide) (Stretch3.keeps_main_v3 _)).trans (w5_dst m ρ c)
theorem w7_recipCount : W7 m ρ c (Proc.devRef .tc main_v12)
    = shapeCast S50000x1 (Host.divf (F := Ideal) onesN (clampedCount (dst m c))) Gen.shapeCasts_S50000_S50000x1 :=
  (to7 m ρ c main_v12 (by decide) (Stretch3.keeps_main_v12 _)).trans (w5_recipCount m ρ c)
theorem w7_a10 : W7 m ρ c (Proc.devRef .tc main_arg10) = a10 m c := (to7 m ρ c main_arg10 (by decide) (Stretch3.keeps_main_arg10 _)).trans (w5_a10 m ρ c)
theorem w7_a11 : W7 m ρ c (Proc.devRef .tc main_arg11) = a11 m c := (to7 m ρ c main_arg11 (by decide) (Stretch3.keeps_main_arg11 _)).trans (w5_a11 m ρ c)
theorem w7_a12 : W7 m ρ c (Proc.devRef .tc main_arg12) = a12 m c := (to7 m ρ c main_arg12 (by decide) (Stretch3.keeps_main_arg12 _)).trans (w5_a12 m ρ c)

/-! ## The five regions' outputs -/

/-- After the first region its output array holds the first layer. -/
theorem out0 : W2 m ρ c (Proc.devRef .tc main_v32) = H0 m c := by
  refine ((W2_arr m ρ c 5).trans (Region0.out_eq (V1 m ρ) c)).trans ?_
  show sageRelu (W1 m ρ c (Proc.devRef .tc main_v30) : Mat 50000 128) (W1 m ρ c (Proc.devRef .tc main_arg0)) (W1 m ρ c (Proc.devRef .tc main_arg2))
      (W1 m ρ c (Proc.devRef .tc main_arg3)) (W1 m ρ c (Proc.devRef .tc main_v31)) = _
  rw [w1_mean, w1_a0, w1_a2, w1_a3, w1_bias]
  rfl

/-- After the second region its output array holds the transformed rows. -/
theorem out1 : W3 m ρ c (Proc.devRef .tc main_v33) = HL m c := by
  refine ((W3_arr m ρ c 2).trans (Region1.out_eq (V2 m ρ) c)).trans ?_
  show dense (W2 m ρ c (Proc.devRef .tc main_v32) : Mat 50000 128) (W2 m ρ c (Proc.devRef .tc main_arg5)) = _
  rw [out0, W2_of_ne m ρ c main_arg5 (by decide), w1_a5]
  rfl

/-- The aggregation the third stretch leaves. -/
theorem w4_agg : W4 m ρ c (Proc.devRef .tc main_v61) = aggOf (src m c) (dst m c) (HL m c) := by
  refine (Stretch2.agg_eq (W3 m ρ c)).trans ?_
  rw [w3_src, w3_dst, w3_dinv, out1, Glue.column_spread_edges]
  rfl

/-- The self term the third stretch leaves. -/
theorem w4_self : W4 m ρ c (Proc.devRef .tc main_v63) = selfOf (dst m c) (HL m c) := by
  refine (Stretch2.self_eq (W3 m ρ c)).trans ?_
  rw [out1, w3_recipDeg, Glue.column_spread_nodes]
  rfl

theorem w4_bias : (W4 m ρ c (Proc.devRef .tc main_v64) : Mat 1 128) = rowOf (a6 m c) := by
  refine (Stretch2.bias_eq (W3 m ρ c)).trans ?_
  rw [w3_a6]
  exact Glue.bias_row128 (a6 m c)

/-- After the third region its output array holds the second layer. -/
theorem out2 : W5 m ρ c (Proc.devRef .tc main_v65) = H1 m c := by
  refine ((W5_arr m ρ c 3).trans (Region2.out_eq (V4 m ρ) c)).trans ?_
  show combine (W4 m ρ c (Proc.devRef .tc main_v61) : Mat 50000 128) (W4 m ρ c (Proc.devRef .tc main_v63)) (W4 m ρ c (Proc.devRef .tc main_v64)) = _
  rw [w4_agg, w4_self, w4_bias]
  rfl

/-- The neighbour mean the fourth stretch leaves. -/
theorem w6_mean : W6 m ρ c (Proc.devRef .tc main_v77) = meanOf (src m c) (dst m c) (H1 m c) := by
  refine (Stretch3.mean_eq (W5 m ρ c)).trans ?_
  rw [w5_src, w5_dst, out2, w5_recipCount]
  exact Glue.mean_kernel (src m c) (dst m c) (H1 m c)

theorem w6_bias : (W6 m ρ c (Proc.devRef .tc main_v78) : Mat 1 128) = rowOf (a9 m c) := by
  refine (Stretch3.bias_eq (W5 m ρ c)).trans ?_
  rw [w5_a9]
  exact Glue.bias_row128 (a9 m c)

theorem w6_h1 : W6 m ρ c (Proc.devRef .tc main_v65) = H1 m c := (Stretch3.keeps_main_v65 (W5 m ρ c)).trans (out2 m ρ c)
theorem w6_a7 : W6 m ρ c (Proc.devRef .tc main_arg7) = a7 m c := (Stretch3.keeps_main_arg7 (W5 m ρ c)).trans (w5_a7 m ρ c)
theorem w6_a8 : W6 m ρ c (Proc.devRef .tc main_arg8) = a8 m c := (Stretch3.keeps_main_arg8 (W5 m ρ c)).trans (w5_a8 m ρ c)

/-- After the fourth region its output array holds the third layer. -/
theorem out3 : W7 m ρ c (Proc.devRef .tc main_v79) = H2 m c := by
  refine ((W7_arr m ρ c 5).trans (Region3.out_eq (V6 m ρ) c)).trans ?_
  show sageRelu (W6 m ρ c (Proc.devRef .tc main_v77) : Mat 50000 128) (W6 m ρ c (Proc.devRef .tc main_v65)) (W6 m ρ c (Proc.devRef .tc main_arg7))
      (W6 m ρ c (Proc.devRef .tc main_arg8)) (W6 m ρ c (Proc.devRef .tc main_v78)) = _
  rw [w6_mean, w6_h1, w6_a7, w6_a8, w6_bias]
  rfl

/-- The neighbour mean the last stretch leaves. -/
theorem w8_mean : W8 m ρ c (Proc.devRef .tc main_v91) = meanOf (src m c) (dst m c) (H2 m c) := by
  refine (Stretch4.mean_eq (W7 m ρ c)).trans ?_
  rw [w7_src, w7_dst, out3, w7_recipCount]
  exact Glue.mean_kernel (src m c) (dst m c) (H2 m c)

theorem w8_bias : (W8 m ρ c (Proc.devRef .tc main_v92) : Mat 1 16) = rowOf (a12 m c) := by
  refine (Stretch4.bias_eq (W7 m ρ c)).trans ?_
  rw [w7_a12]
  exact Glue.bias_row16 (a12 m c)

theorem w8_h2 : W8 m ρ c (Proc.devRef .tc main_v79) = H2 m c := (Stretch4.keeps_main_v79 (W7 m ρ c)).trans (out3 m ρ c)
theorem w8_a10 : W8 m ρ c (Proc.devRef .tc main_arg10) = a10 m c := (Stretch4.keeps_main_arg10 (W7 m ρ c)).trans (w7_a10 m ρ c)
theorem w8_a11 : W8 m ρ c (Proc.devRef .tc main_arg11) = a11 m c := (Stretch4.keeps_main_arg11 (W7 m ρ c)).trans (w7_a11 m ρ c)

/-- After the last region the result buffer holds the network of the arguments. -/
theorem result_eq : W9 m ρ c (Proc.devRef .tc main_v93)
    = net (a0 m c) (a1 m c) (a2 m c) (a3 m c) (a4 m c) (a5 m c) (a6 m c) (a7 m c) (a8 m c) (a9 m c) (a10 m c) (a11 m c) (a12 m c) := by
  refine ((W9_arr m ρ c 5).trans (Region4.out_eq (V8 m ρ) c)).trans ?_
  show sageLogSoftmax (W8 m ρ c (Proc.devRef .tc main_v91) : Mat 50000 128) (W8 m ρ c (Proc.devRef .tc main_v79)) (W8 m ρ c (Proc.devRef .tc main_arg10))
      (W8 m ρ c (Proc.devRef .tc main_arg11)) (W8 m ρ c (Proc.devRef .tc main_v92)) = _
  rw [w8_mean, w8_h2, w8_a10, w8_a11, w8_bias]
  exact (net_eq m c).symm

end Cert.HybridNet.KernelValue

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«126889_j85615878078998_1_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.RefLayers.lean ====
/-
  The layers of the network in the reference program's spelling, as whole arrays over the extended reals.

  The reference writes a mean-aggregation layer as two matrix products added, a bias vector viewed as one row and
  repeated down the rows, added, and the maximum with an array of zeros; the layer with self-loops ends in the
  same bias-and-clamp step over a sum of two arrays; the last layer ends in the log-softmax of each row, spelled
  as a row maximum folded from −∞ (and once more compared with −∞, which changes nothing), the shifted rows, their
  exponentials summed along each row from zero, the logarithm of that sum, and a last subtraction. A per-row
  vector reaches the rows of an array in two steps, [T] → [T, 1] → [T, C]. Each lemma below reads one of these
  spellings entry by entry and finds the layer function of Layers.lean; all are generic in the extents.
-/
import proofs.«126889_j85615878078998_1_alg».proof.Proof.Net
import proofs.«126889_j85615878078998_1_alg».proof.Proof.LibDotNN
import proofs.«126889_j85615878078998_1_alg».proof.Proof.LibBroadcastRows
import proofs.«126889_j85615878078998_1_alg».proof.Proof.LibHostBroadcasts
import proofs.«126889_j85615878078998_1_alg».proof.Proof.LibSlabLayout
import Idealize.ShloMosaic.Lib.IdealHost

noncomputable section

namespace Cert.RefNet

open Idealize.ShloMosaic Idealize.ShloMosaic.ValueIdx Cert.Gcn Cert.HybridNet

variable {M K C T : ℕ}

/-- A host matrix product of an [M, K] array by a [K, C] array is the matrix product. -/
theorem dense_ref (D : DotDims ⟨2, ![M, K]⟩ ⟨2, ![K, C]⟩ ⟨2, ![M, C]⟩) (hD : D = DotDims.plain M K C)
    (h : FVec Ideal ⟨2, ![M, K]⟩ .f32) (w : FVec Ideal ⟨2, ![K, C]⟩ .f32) :
    Host.dotGeneral (F := Ideal) D none h w = dense h w := by
  funext i
  obtain ⟨p, q, rfl⟩ : ∃ p q, i = ix2 p q := ⟨i 0, i 1, eq_ix2 i⟩
  rw [Cert.DotNN.dotGeneral_apply D hD none h w p q, dense_apply]

/-- A vector of T numbers viewed as a column and the column repeated along the rows' entries: the vector repeated
    along every row. -/
theorem rows_ref (v : (⟨1, ![T]⟩ : Shape).Idx → EReal)
    (h1 : (⟨1, ![T]⟩ : Shape).BroadcastsInDim ⟨2, ![T, 1]⟩ ![0])
    (h2 : (⟨2, ![T, 1]⟩ : Shape).BroadcastsInDim ⟨2, ![T, C]⟩ ![0, 1]) :
    broadcastInDim ⟨2, ![T, C]⟩ ![0, 1] h2 (broadcastInDim ⟨2, ![T, 1]⟩ ![0] h1 v) = rowsOf v := by
  funext i
  obtain ⟨p, q, rfl⟩ : ∃ p q, i = ix2 p q := ⟨i 0, i 1, eq_ix2 i⟩
  rw [Cert.HostBroadcasts.col_rows_apply, Cert.HostBroadcasts.col_apply]
  rfl

/-- A bias vector viewed as one row and repeated down the rows reads, at (p, q), the bias row's entry q. -/
theorem biasRows_apply (b : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![M, C]⟩ ![0, 1]) (p : Fin M) (q : Fin C) :
    broadcastInDim ⟨2, ![M, C]⟩ ![0, 1] h2 (broadcastInDim ⟨2, ![1, C]⟩ ![1] h1 b) (ix2 p q) = rowOf b (ix2 0 q) := by
  rw [Cert.BroadcastRows.row_apply, Cert.BroadcastRows.unit_apply]
  rfl

/-- The zero word spread over any shape reads the zero word. -/
theorem zeros_apply {t : Shape} (h : (⟨0, ![]⟩ : Shape).BroadcastsInDim t ![]) (j : t.Idx) :
    broadcastInDim t ![] h (constant (F := Ideal) ⟨0, ![]⟩ .f32 0x00000000#32) j = zeroW := by
  rw [Cert.HostBroadcasts.scalar_apply]; rfl

/-- Bias added along the rows, then the maximum with zeros: the bias-and-clamp step. -/
theorem biasClamp_ref (a : FVec Ideal ⟨2, ![M, C]⟩ .f32) (b : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![M, C]⟩ ![0, 1])
    (h3 : (⟨0, ![]⟩ : Shape).BroadcastsInDim ⟨2, ![M, C]⟩ ![]) :
    maximumf (F := Ideal) (addf (F := Ideal) a (broadcastInDim ⟨2, ![M, C]⟩ ![0, 1] h2 (broadcastInDim ⟨2, ![1, C]⟩ ![1] h1 b)))
        (broadcastInDim ⟨2, ![M, C]⟩ ![] h3 (constant (F := Ideal) ⟨0, ![]⟩ .f32 0x00000000#32))
      = biasClamp a (rowOf b) := by
  funext i
  obtain ⟨p, q, rfl⟩ : ∃ p q, i = ix2 p q := ⟨i 0, i 1, eq_ix2 i⟩
  rw [maximumf_apply, addf_apply, biasRows_apply, zeros_apply, biasClamp_apply]

/-- A mean-aggregation layer clamped at zero, in the reference's spelling. -/
theorem sageRelu_ref (D : DotDims ⟨2, ![M, K]⟩ ⟨2, ![K, C]⟩ ⟨2, ![M, C]⟩) (hD : D = DotDims.plain M K C)
    (mean x : FVec Ideal ⟨2, ![M, K]⟩ .f32) (wl wr : FVec Ideal ⟨2, ![K, C]⟩ .f32) (b : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![M, C]⟩ ![0, 1])
    (h3 : (⟨0, ![]⟩ : Shape).BroadcastsInDim ⟨2, ![M, C]⟩ ![]) :
    maximumf (F := Ideal) (addf (F := Ideal) (addf (F := Ideal) (Host.dotGeneral (F := Ideal) D none mean wl) (Host.dotGeneral (F := Ideal) D none x wr))
          (broadcastInDim ⟨2, ![M, C]⟩ ![0, 1] h2 (broadcastInDim ⟨2, ![1, C]⟩ ![1] h1 b)))
        (broadcastInDim ⟨2, ![M, C]⟩ ![] h3 (constant (F := Ideal) ⟨0, ![]⟩ .f32 0x00000000#32))
      = sageRelu mean x wl wr (rowOf b) := by
  rw [biasClamp_ref, dense_ref D hD, dense_ref D hD]
  rfl

/-- The closing step of the layer with self-loops, in the reference's spelling. -/
theorem combine_ref (agg term : FVec Ideal ⟨2, ![M, C]⟩ .f32) (b : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![M, C]⟩ ![0, 1])
    (h3 : (⟨0, ![]⟩ : Shape).BroadcastsInDim ⟨2, ![M, C]⟩ ![]) :
    maximumf (F := Ideal) (addf (F := Ideal) (addf (F := Ideal) agg term)
          (broadcastInDim ⟨2, ![M, C]⟩ ![0, 1] h2 (broadcastInDim ⟨2, ![1, C]⟩ ![1] h1 b)))
        (broadcastInDim ⟨2, ![M, C]⟩ ![] h3 (constant (F := Ideal) ⟨0, ![]⟩ .f32 0x00000000#32))
      = combine agg term (rowOf b) := by
  rw [biasClamp_ref]
  rfl

/-! ## The log-softmax of each row -/

/-- The row maximum in the reference's spelling — the reduction from −∞, compared once more with −∞ — kept as a
    column and repeated along the row: every entry of row p reads the fold of max from −∞ over the row. -/
theorem rowMax_ref (v : FVec Ideal ⟨2, ![M, C]⟩ .f32)
    (hr' : (⟨2, ![M, C]⟩ : Shape).ReducesTo [(1 : Fin 2)] ⟨1, ![M]⟩) (hr : (⟨2, ![M, C]⟩ : Shape).Reduces [(1 : Fin 2)] ⟨1, ![M]⟩)
    (hu : 0 < (⟨0, ![]⟩ : Shape).numel) (hb0 : (⟨0, ![]⟩ : Shape).BroadcastsInDim ⟨1, ![M]⟩ ![])
    (hcol : (⟨1, ![M]⟩ : Shape).BroadcastsInDim ⟨2, ![M, 1]⟩ ![0])
    (hrows : (⟨2, ![M, 1]⟩ : Shape).BroadcastsInDim ⟨2, ![M, C]⟩ ![0, 1]) (p : Fin M) (j : Fin C) :
    broadcastInDim ⟨2, ![M, C]⟩ ![0, 1] hrows (broadcastInDim ⟨2, ![M, 1]⟩ ![0] hcol
        (maximumf (F := Ideal) (broadcastInDim ⟨1, ![M]⟩ ![] hb0 (constant (F := Ideal) ⟨0, ![]⟩ .f32 0xFF800000#32))
          (Host.reduce (FloatOps.maximumf (F := Ideal) (φ := .f32)) v (constant (F := Ideal) ⟨0, ![]⟩ .f32 0xFF800000#32) hr' hu))) (ix2 p j)
      = rowMax (fun l => v (ix2 p l)) := by
  rw [Cert.HostBroadcasts.col_rows_apply, Cert.HostBroadcasts.col_apply, maximumf_apply, Cert.HostBroadcasts.scalar_apply,
    Host.reduce_eq_fold_single _ v _ hr' hr hu (ix1 p)]
  have e : (v ∘ hr.lift (ix1 p)) = fun l => v (ix2 p l) := funext fun l => congrArg v (Cert.SlabLayout.lift_row hr p l)
  rw [e]
  show max negInfW ((Finset.univ : Finset (Fin C)).fold max negInfW fun l => v (ix2 p l)) = _
  exact max_eq_right ((Finset.le_fold_max _).mpr (Or.inl le_rfl))

/-- The log-softmax of every row of an [M, C] array v in the reference's spelling, read at (p, q). -/
theorem logSoftmaxRows_ref (v : FVec Ideal ⟨2, ![M, C]⟩ .f32)
    (hr' : (⟨2, ![M, C]⟩ : Shape).ReducesTo [(1 : Fin 2)] ⟨1, ![M]⟩) (hr : (⟨2, ![M, C]⟩ : Shape).Reduces [(1 : Fin 2)] ⟨1, ![M]⟩)
    (hu : 0 < (⟨0, ![]⟩ : Shape).numel) (hb0 : (⟨0, ![]⟩ : Shape).BroadcastsInDim ⟨1, ![M]⟩ ![])
    (hcol : (⟨1, ![M]⟩ : Shape).BroadcastsInDim ⟨2, ![M, 1]⟩ ![0])
    (hrows : (⟨2, ![M, 1]⟩ : Shape).BroadcastsInDim ⟨2, ![M, C]⟩ ![0, 1]) (p : Fin M) (q : Fin C) :
    subf (F := Ideal)
        (subf (F := Ideal) v (broadcastInDim ⟨2, ![M, C]⟩ ![0, 1] hrows (broadcastInDim ⟨2, ![M, 1]⟩ ![0] hcol
          (maximumf (F := Ideal) (broadcastInDim ⟨1, ![M]⟩ ![] hb0 (constant (F := Ideal) ⟨0, ![]⟩ .f32 0xFF800000#32))
            (Host.reduce (FloatOps.maximumf (F := Ideal) (φ := .f32)) v (constant (F := Ideal) ⟨0, ![]⟩ .f32 0xFF800000#32) hr' hu)))))
        (broadcastInDim ⟨2, ![M, C]⟩ ![0, 1] hrows (Host.log (F := Ideal) (broadcastInDim ⟨2, ![M, 1]⟩ ![0] hcol
          (Host.reduceAdd (F := Ideal) (Host.exp (F := Ideal)
            (subf (F := Ideal) v (broadcastInDim ⟨2, ![M, C]⟩ ![0, 1] hrows (broadcastInDim ⟨2, ![M, 1]⟩ ![0] hcol
              (maximumf (F := Ideal) (broadcastInDim ⟨1, ![M]⟩ ![] hb0 (constant (F := Ideal) ⟨0, ![]⟩ .f32 0xFF800000#32))
                (Host.reduce (FloatOps.maximumf (F := Ideal) (φ := .f32)) v (constant (F := Ideal) ⟨0, ![]⟩ .f32 0xFF800000#32) hr' hu))))))
            (constant (F := Ideal) ⟨0, ![]⟩ .f32 0x00000000#32) hr' hu)))) (ix2 p q)
      = logSoftmaxRow (fun l => v (ix2 p l)) q := by
  have hm := rowMax_ref v hr' hr hu hb0 hcol hrows p
  rw [subf_apply, subf_apply, hm q, Cert.HostBroadcasts.col_rows_apply]
  show (v (ix2 p q) - rowMax fun l => v (ix2 p l)) - Ideal.log (broadcastInDim ⟨2, ![M, 1]⟩ ![0] hcol
      (Host.reduceAdd (F := Ideal) (Host.exp (F := Ideal)
        (subf (F := Ideal) v (broadcastInDim ⟨2, ![M, C]⟩ ![0, 1] hrows (broadcastInDim ⟨2, ![M, 1]⟩ ![0] hcol
          (maximumf (F := Ideal) (broadcastInDim ⟨1, ![M]⟩ ![] hb0 (constant (F := Ideal) ⟨0, ![]⟩ .f32 0xFF800000#32))
            (Host.reduce (FloatOps.maximumf (F := Ideal) (φ := .f32)) v (constant (F := Ideal) ⟨0, ![]⟩ .f32 0xFF800000#32) hr' hu))))))
        (constant (F := Ideal) ⟨0, ![]⟩ .f32 0x00000000#32) hr' hu) (ix2 p (0 : Fin 1))) = _
  rw [Cert.HostBroadcasts.col_apply, hostReduceAdd_apply, Ideal.hostReduceAdd_single hr' hr]
  unfold logSoftmaxRow
  congr 2
  rw [show (constant (F := Ideal) ⟨0, ![]⟩ .f32 0x00000000#32 (Shape.Idx.first hu) : EReal) = 0 from Ideal.ofBits_zero_f32, zero_add]
  refine Finset.sum_congr rfl fun l _ => ?_
  rw [Cert.SlabLayout.lift_row hr p l]
  show Ideal.exp (subf (F := Ideal) v _ (ix2 p l)) = _
  rw [subf_apply, hm l]

/-- The last layer in the reference's spelling: the two products added, the bias, and the log-softmax of each row. -/
theorem sageLogSoftmax_ref (D : DotDims ⟨2, ![M, K]⟩ ⟨2, ![K, C]⟩ ⟨2, ![M, C]⟩) (hD : D = DotDims.plain M K C)
    (mean x : FVec Ideal ⟨2, ![M, K]⟩ .f32) (wl wr : FVec Ideal ⟨2, ![K, C]⟩ .f32) (b : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![M, C]⟩ ![0, 1])
    (hr' : (⟨2, ![M, C]⟩ : Shape).ReducesTo [(1 : Fin 2)] ⟨1, ![M]⟩) (hr : (⟨2, ![M, C]⟩ : Shape).Reduces [(1 : Fin 2)] ⟨1, ![M]⟩)
    (hu : 0 < (⟨0, ![]⟩ : Shape).numel) (hb0 : (⟨0, ![]⟩ : Shape).BroadcastsInDim ⟨1, ![M]⟩ ![])
    (hcol : (⟨1, ![M]⟩ : Shape).BroadcastsInDim ⟨2, ![M, 1]⟩ ![0])
    (hrows : (⟨2, ![M, 1]⟩ : Shape).BroadcastsInDim ⟨2, ![M, C]⟩ ![0, 1])
    (v : FVec Ideal ⟨2, ![M, C]⟩ .f32)
    (hv : v = addf (F := Ideal) (addf (F := Ideal) (Host.dotGeneral (F := Ideal) D none mean wl) (Host.dotGeneral (F := Ideal) D none x wr))
          (broadcastInDim ⟨2, ![M, C]⟩ ![0, 1] h2 (broadcastInDim ⟨2, ![1, C]⟩ ![1] h1 b))) :
    subf (F := Ideal)
        (subf (F := Ideal) v (broadcastInDim ⟨2, ![M, C]⟩ ![0, 1] hrows (broadcastInDim ⟨2, ![M, 1]⟩ ![0] hcol
          (maximumf (F := Ideal) (broadcastInDim ⟨1, ![M]⟩ ![] hb0 (constant (F := Ideal) ⟨0, ![]⟩ .f32 0xFF800000#32))
            (Host.reduce (FloatOps.maximumf (F := Ideal) (φ := .f32)) v (constant (F := Ideal) ⟨0, ![]⟩ .f32 0xFF800000#32) hr' hu)))))
        (broadcastInDim ⟨2, ![M, C]⟩ ![0, 1] hrows (Host.log (F := Ideal) (broadcastInDim ⟨2, ![M, 1]⟩ ![0] hcol
          (Host.reduceAdd (F := Ideal) (Host.exp (F := Ideal)
            (subf (F := Ideal) v (broadcastInDim ⟨2, ![M, C]⟩ ![0, 1] hrows (broadcastInDim ⟨2, ![M, 1]⟩ ![0] hcol
              (maximumf (F := Ideal) (broadcastInDim ⟨1, ![M]⟩ ![] hb0 (constant (F := Ideal) ⟨0, ![]⟩ .f32 0xFF800000#32))
                (Host.reduce (FloatOps.maximumf (F := Ideal) (φ := .f32)) v (constant (F := Ideal) ⟨0, ![]⟩ .f32 0xFF800000#32) hr' hu))))))
            (constant (F := Ideal) ⟨0, ![]⟩ .f32 0x00000000#32) hr' hu))))
      = sageLogSoftmax mean x wl wr (rowOf b) := by
  funext i
  obtain ⟨p, q, rfl⟩ : ∃ p q, i = ix2 p q := ⟨i 0, i 1, eq_ix2 i⟩
  rw [logSoftmaxRows_ref v hr' hr hu hb0 hcol hrows p q]
  show _ = logSoftmaxRow (shifted (twoProducts mean x wl wr) (rowOf b) p) q
  congr 1
  funext l
  rw [hv, addf_apply, biasRows_apply, dense_ref D hD, dense_ref D hD]
  rfl

/-- The same with the row maxima named: any array equal to the reduction from −∞ may stand in its place. -/
theorem sageLogSoftmax_ref' (D : DotDims ⟨2, ![M, K]⟩ ⟨2, ![K, C]⟩ ⟨2, ![M, C]⟩) (hD : D = DotDims.plain M K C)
    (mean x : FVec Ideal ⟨2, ![M, K]⟩ .f32) (wl wr : FVec Ideal ⟨2, ![K, C]⟩ .f32) (b : (⟨1, ![C]⟩ : Shape).Idx → EReal)
    (h1 : (⟨1, ![C]⟩ : Shape).BroadcastsInDim ⟨2, ![1, C]⟩ ![1])
    (h2 : (⟨2, ![1, C]⟩ : Shape).BroadcastsInDim ⟨2, ![M, C]⟩ ![0, 1])
    (hr' : (⟨2, ![M, C]⟩ : Shape).ReducesTo [(1 : Fin 2)] ⟨1, ![M]⟩) (hr : (⟨2, ![M, C]⟩ : Shape).Reduces [(1 : Fin 2)] ⟨1, ![M]⟩)
    (hu : 0 < (⟨0, ![]⟩ : Shape).numel) (hb0 : (⟨0, ![]⟩ : Shape).BroadcastsInDim ⟨1, ![M]⟩ ![])
    (hcol : (⟨1, ![M]⟩ : Shape).BroadcastsInDim ⟨2, ![M, 1]⟩ ![0])
    (hrows : (⟨2, ![M, 1]⟩ : Shape).BroadcastsInDim ⟨2, ![M, C]⟩ ![0, 1])
    (v : FVec Ideal ⟨2, ![M, C]⟩ .f32)
    (hv : v = addf (F := Ideal) (addf (F := Ideal) (Host.dotGeneral (F := Ideal) D none mean wl) (Host.dotGeneral (F := Ideal) D none x wr))
          (broadcastInDim ⟨2, ![M, C]⟩ ![0, 1] h2 (broadcastInDim ⟨2, ![1, C]⟩ ![1] h1 b)))
    (mx : FVec Ideal ⟨1, ![M]⟩ .f32)
    (hmx : mx = Host.reduce (FloatOps.maximumf (F := Ideal) (φ := .f32)) v (constant (F := Ideal) ⟨0, ![]⟩ .f32 0xFF800000#32) hr' hu) :
    subf (F := Ideal)
        (subf (F := Ideal) v (broadcastInDim ⟨2, ![M, C]⟩ ![0, 1] hrows (broadcastInDim ⟨2, ![M, 1]⟩ ![0] hcol
          (maximumf (F := Ideal) (broadcastInDim ⟨1, ![M]⟩ ![] hb0 (constant (F := Ideal) ⟨0, ![]⟩ .f32 0xFF800000#32)) mx))))
        (broadcastInDim ⟨2, ![M, C]⟩ ![0, 1] hrows (Host.log (F := Ideal) (broadcastInDim ⟨2, ![M, 1]⟩ ![0] hcol
          (Host.reduceAdd (F := Ideal) (Host.exp (F := Ideal)
            (subf (F := Ideal) v (broadcastInDim ⟨2, ![M, C]⟩ ![0, 1] hrows (broadcastInDim ⟨2, ![M, 1]⟩ ![0] hcol
              (maximumf (F := Ideal) (broadcastInDim ⟨1, ![M]⟩ ![] hb0 (constant (F := Ideal) ⟨0, ![]⟩ .f32 0xFF800000#32)) mx)))))
            (constant (F := Ideal) ⟨0, ![]⟩ .f32 0x00000000#32) hr' hu))))
      = sageLogSoftmax mean x wl wr (rowOf b) := by
  subst hmx
  exact sageLogSoftmax_ref D hD mean x wl wr b h1 h2 hr' hr hu hb0 hcol hrows v hv

end Cert.RefNet

end
-- ==== Proof.RefGraph.lean ====
/-
  The reference program's graph steps against the specification's.

  Every step that moves data along the edges — the in-degree of each node, a hop of the node rows, the neighbour
  mean, the symmetric edge weights, the weighted aggregation and the scaled self term — is spelled by the reference
  with the same gather and scatter-add operations, on the same operands, as the specification of Net.lean names
  them. Two things differ in the writing only: the dimension records and shape facts are the reference program's
  own (equal to the kernel program's field by field), and a per-row vector is repeated along the rows in two steps,
  [T] → [T, 1] → [T, C], which is the vector read at the row index. Nothing here reads a gather or a scatter-add at
  an index.
-/
import proofs.«126889_j85615878078998_1_alg».proof.Proof.Gen.ReferenceIdeal
import proofs.«126889_j85615878078998_1_alg».proof.Proof.RefLayers

noncomputable section

namespace Cert.RefNet

open Cert.ReferenceIdeal Cert.ReferenceIdeal.Gen Idealize.ShloMosaic Idealize.ShloMosaic.ValueIdx Cert.Gcn Cert.HybridNet

variable [Cert.KernelIdeal.Facts]

/-! ## The two programs' dimension records are the same records -/

theorem gatherRows_eq : gather_S50000x128_S800000x1_S800000x128_1_0_n_n_0_1_1128
    = Cert.KernelIdeal.gather_S50000x128_S800000x1_S800000x128_1_0_n_n_0_1_1128 := rfl
theorem gatherVec_eq : gather_S50000_S800000x1_S800000_n_0_n_n_0_1_1
    = Cert.KernelIdeal.gather_S50000_S800000x1_S800000_n_0_n_n_0_1_1 := rfl
theorem scatterRows_eq : scatter_S50000x128_S800000x1_S800000x128_1_0_0_1
    = Cert.KernelIdeal.scatter_S50000x128_S800000x1_S800000x128_1_0_0_1 := rfl
theorem scatterVec_eq : scatter_S50000_S800000x1_S800000_n_0_0_1
    = Cert.KernelIdeal.scatter_S50000_S800000x1_S800000_n_0_0_1 := rfl

/-! ## The steps -/

/-- The source column with negative indices wrapped. -/
theorem wrap_ref (s : EdgeVec) :
    broadcastInDim S800000x1 ![0] bcast_S800000_S800000x1_0
      (select (cmpi .slt s (broadcastInDim S800000 ![] bcast_S_S800000 (constantI S_ 32 0#32)))
        (addi s (broadcastInDim S800000 ![] bcast_S_S800000 (constantI S_ 32 50000#32))) s)
      = wrapCol s := rfl

/-- The in-degree. -/
theorem count_ref (d : EdgeVec) :
    Host.scatterAdd (F := Ideal) (φ := .f32) scatter_S50000_S800000x1_S800000_n_0_0_1
        (broadcastInDim S50000 ![] bcast_S_S50000 (constant (F := Ideal) S_ .f32 0x00000000#32))
        (broadcastInDim S800000x1 ![0] bcast_S800000_S800000x1_0 d)
        (broadcastInDim S800000 ![] bcast_S_S800000 (constant (F := Ideal) S_ .f32 0x3F800000#32))
      = countOf d := by
  rw [scatterVec_eq]; rfl

/-- One hop of the node rows. -/
theorem hop_ref (s d : EdgeVec) (X : FVec Ideal Cert.KernelIdeal.S50000x128 .f32) :
    Host.scatterAdd (F := Ideal) (φ := .f32) scatter_S50000x128_S800000x1_S800000x128_1_0_0_1
        (broadcastInDim S50000x128 ![] bcast_S_S50000x128 (constant (F := Ideal) S_ .f32 0x00000000#32))
        (broadcastInDim S800000x1 ![0] bcast_S800000_S800000x1_0 d)
        (Host.gather gather_S50000x128_S800000x1_S800000x128_1_0_n_n_0_1_1128 X (wrapCol s))
      = hop s d X := by
  rw [scatterRows_eq, gatherRows_eq]; rfl

/-- The neighbour mean. -/
theorem mean_ref (s d : EdgeVec) (X : FVec Ideal Cert.KernelIdeal.S50000x128 .f32) :
    Host.divf (F := Ideal) (φ := .f32) (hop s d X)
        (broadcastInDim S50000x128 ![0, 1] bcast_S50000x1_S50000x128_0_1
          (broadcastInDim S50000x1 ![0] bcast_S50000_S50000x1_0
            (maximumf (F := Ideal) (φ := .f32) (countOf d)
              (broadcastInDim S50000 ![] bcast_S_S50000 (constant (F := Ideal) S_ .f32 0x3F800000#32)))))
      = meanOf s d X := by
  rw [rows_ref]; rfl

/-- The degree with the self-loop, and the symmetric normaliser. -/
theorem deg_ref (d : EdgeVec) :
    addf (F := Ideal) (φ := .f32) (countOf d) (broadcastInDim S50000 ![] bcast_S_S50000 (constant (F := Ideal) S_ .f32 0x3F800000#32))
      = degOf d := rfl

/-- The weight of each edge. -/
theorem norm_ref (s d : EdgeVec) :
    mulf (F := Ideal) (φ := .f32)
        (Host.gather gather_S50000_S800000x1_S800000_n_0_n_n_0_1_1 (Host.rsqrt (F := Ideal) (φ := .f32) (degOf d)) (wrapCol s))
        (Host.gather gather_S50000_S800000x1_S800000_n_0_n_n_0_1_1 (Host.rsqrt (F := Ideal) (φ := .f32) (degOf d)) (wrapCol d))
      = normOf s d := by
  rw [gatherVec_eq]; rfl

/-- The aggregation with symmetric normalisation. -/
theorem agg_ref (s d : EdgeVec) (hl : FVec Ideal Cert.KernelIdeal.S50000x128 .f32) :
    Host.scatterAdd (F := Ideal) (φ := .f32) scatter_S50000x128_S800000x1_S800000x128_1_0_0_1
        (broadcastInDim S50000x128 ![] bcast_S_S50000x128 (constant (F := Ideal) S_ .f32 0x00000000#32))
        (broadcastInDim S800000x1 ![0] bcast_S800000_S800000x1_0 d)
        (mulf (F := Ideal) (φ := .f32) (Host.gather gather_S50000x128_S800000x1_S800000x128_1_0_n_n_0_1_1128 hl (wrapCol s))
          (broadcastInDim S800000x128 ![0, 1] bcast_S800000x1_S800000x128_0_1
            (broadcastInDim S800000x1 ![0] bcast_S800000_S800000x1_0 (normOf s d))))
      = aggOf s d hl := by
  rw [rows_ref, scatterRows_eq, gatherRows_eq]; rfl

/-- The self-loop term. -/
theorem self_ref (d : EdgeVec) (hl : FVec Ideal Cert.KernelIdeal.S50000x128 .f32) :
    mulf (F := Ideal) (φ := .f32) hl
        (broadcastInDim S50000x128 ![0, 1] bcast_S50000x1_S50000x128_0_1
          (broadcastInDim S50000x1 ![0] bcast_S50000_S50000x1_0
            (Host.divf (F := Ideal) (φ := .f32) (broadcastInDim S50000 ![] bcast_S_S50000 (constant (F := Ideal) S_ .f32 0x3F800000#32)) (degOf d))))
      = selfOf d hl := by
  rw [rows_ref]; rfl

end Cert.RefNet

end
-- ==== Proof.RefStretch1.lean ====
/-
  The reference program's first stretch: the two index columns read off the edge array, and the first
  mean-aggregation layer.

  The thirty-eight operations from the top of the program to the first clamp, run from any buffer contents W, leave
  the sources (row 0 of the edge array), the destinations (row 1) and the first layer's output
      max ((mean · wl0 + x · wr0) + b0, 0),   mean = the hop of x divided row by row by the clamped in-degree,
  each a function of the argument buffers' contents in W; they write none of the later layers' arguments.
-/
import proofs.«126889_j85615878078998_1_alg».proof.Proof.RefRun
import proofs.«126889_j85615878078998_1_alg».proof.Proof.RefGraph

set_option maxRecDepth 16384

noncomputable section

namespace Cert.RefNet

open Cert.ReferenceIdeal Cert.ReferenceIdeal.Gen Idealize.ShloMosaic Idealize.ShloMosaic.TcCoe Idealize.SL.Sem Idealize.ShloMosaic.StableHlo
open Cert.Gcn Cert.HybridNet

/-- The buffer contents of one device of the reference program. -/
abbrev Val : Type := Valuation τ sig (Elt Ideal)

/-- Operations 1–38: the index columns and the first layer (a called function's operations written with the plain
    builders, which they unfold to). -/
abbrev ops1 : List (HloOp τ sig (Elt Ideal)) :=
  [ unary main_arg1 main_v0 ((extractStridedSlice S1x800000 ![0, 0] · slices_S2x800000_S1x800000_0_0) : (⟨S2x800000, .i32⟩ : BufTy).Contents (Elt Ideal) → (⟨S1x800000, .i32⟩ : BufTy).Contents (Elt Ideal)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt Ideal) → (⟨S1x800000, .i32⟩ : BufTy).Contents (Elt Ideal)),
    reshape main_v2 main_v3 rfl shapeCasts_S1x800000_S800000,
    nullary main_c (constantI S_ 32 0#32),
    unary main_c main_v4 (broadcastInDim S800000 ![] bcast_S_S800000 : (⟨S_, .i32⟩ : BufTy).Contents (Elt Ideal) → (⟨S800000, .i32⟩ : BufTy).Contents (Elt Ideal)),
    binary main_v1 main_v4 main_v5 (cmpi .slt : (⟨S800000, .i32⟩ : BufTy).Contents (Elt Ideal) → (⟨S800000, .i32⟩ : BufTy).Contents (Elt Ideal) → (⟨S800000, .i1⟩ : BufTy).Contents (Elt Ideal)),
    nullary main_c_0 (constantI S_ 32 50000#32),
    unary main_c_0 main_v6 (broadcastInDim S800000 ![] bcast_S_S800000 : (⟨S_, .i32⟩ : BufTy).Contents (Elt Ideal) → (⟨S800000, .i32⟩ : BufTy).Contents (Elt Ideal)),
    binary main_v1 main_v6 main_v7 (addi : (⟨S800000, .i32⟩ : BufTy).Contents (Elt Ideal) → (⟨S800000, .i32⟩ : BufTy).Contents (Elt Ideal) → (⟨S800000, .i32⟩ : BufTy).Contents (Elt Ideal)),
    ternary main_v5 main_v7 main_v1 main_v8 (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)),
    unary main_v8 main_v9 (broadcastInDim S800000x1 ![0] bcast_S800000_S800000x1_0 : (⟨S800000, .i32⟩ : BufTy).Contents (Elt Ideal) → (⟨S800000x1, .i32⟩ : BufTy).Contents (Elt Ideal)),
    binary main_arg0 main_v9 main_v10 ((fun x i => Host.gather gather_S50000x128_S800000x1_S800000x128_1_0_n_n_0_1_1128 x i) : (⟨S50000x128, .f32⟩ : BufTy).Contents (Elt Ideal) → (⟨S800000x1, .i32⟩ : BufTy).Contents (Elt Ideal) → (⟨S800000x128, .f32⟩ : BufTy).Contents (Elt Ideal)),
    nullary main_cst (constant (F := Ideal) S_ .f32 0x00000000#32),
    unary main_cst main_v11 (broadcastInDim S50000x128 ![] bcast_S_S50000x128 : (⟨S_, .f32⟩ : BufTy).Contents (Elt Ideal) → (⟨S50000x128, .f32⟩ : BufTy).Contents (Elt Ideal)),
    unary main_v3 main_v12 (broadcastInDim S800000x1 ![0] bcast_S800000_S800000x1_0 : (⟨S800000, .i32⟩ : BufTy).Contents (Elt Ideal) → (⟨S800000x1, .i32⟩ : BufTy).Contents (Elt Ideal)),
    ternary main_v11 main_v12 main_v10 main_v13 ((fun x i u => Host.scatterAdd (F := Ideal) (φ := .f32) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal)),
    nullary main_cst_1 (constant (F := Ideal) S_ .f32 0x3F800000#32),
    unary main_cst_1 main_v14 (broadcastInDim S800000 ![] bcast_S_S800000 : (⟨S_, .f32⟩ : BufTy).Contents (Elt Ideal) → (⟨S800000, .f32⟩ : BufTy).Contents (Elt Ideal)),
    nullary main_cst_2 (constant (F := Ideal) S_ .f32 0x00000000#32),
    unary main_cst_2 main_v15 (broadcastInDim S50000 ![] bcast_S_S50000 : (⟨S_, .f32⟩ : BufTy).Contents (Elt Ideal) → (⟨S50000, .f32⟩ : BufTy).Contents (Elt Ideal)),
    unary main_v3 main_v16 (broadcastInDim S800000x1 ![0] bcast_S800000_S800000x1_0 : (⟨S800000, .i32⟩ : BufTy).Contents (Elt Ideal) → (⟨S800000x1, .i32⟩ : BufTy).Contents (Elt Ideal)),
    ternary main_v15 main_v16 main_v14 main_v17 ((fun x i u => Host.scatterAdd (F := Ideal) (φ := .f32) scatter_S50000_S800000x1_S800000_n_0_0_1 x i u) : (⟨S50000, .f32⟩ : BufTy).Contents (Elt Ideal) → (⟨S800000x1, .i32⟩ : BufTy).Contents (Elt Ideal) → (⟨S800000, .f32⟩ : BufTy).Contents (Elt Ideal) → (⟨S50000, .f32⟩ : BufTy).Contents (Elt Ideal)),
    nullary main_cst_3 (constant (F := Ideal) S_ .f32 0x3F800000#32),
    unary main_cst_3 main_v18 (broadcastInDim S50000 ![] bcast_S_S50000 : (⟨S_, .f32⟩ : BufTy).Contents (Elt Ideal) → (⟨S50000, .f32⟩ : BufTy).Contents (Elt Ideal)),
    binary main_v17 main_v18 main_v19 (maximumf (F := Ideal) (φ := .f32) : (⟨S50000, .f32⟩ : BufTy).Contents (Elt Ideal) → (⟨S50000, .f32⟩ : BufTy).Contents (Elt Ideal) → (⟨S50000, .f32⟩ : BufTy).Contents (Elt Ideal)),
    unary main_v19 main_v20 (broadcastInDim S50000x1 ![0] bcast_S50000_S50000x1_0 : (⟨S50000, .f32⟩ : BufTy).Contents (Elt Ideal) → (⟨S50000x1, .f32⟩ : BufTy).Contents (Elt Ideal)),
    unary main_v20 main_v21 (broadcastInDim S50000x128 ![0, 1] bcast_S50000x1_S50000x128_0_1 : (⟨S50000x1, .f32⟩ : BufTy).Contents (Elt Ideal) → (⟨S50000x128, .f32⟩ : BufTy).Contents (Elt Ideal)),
    binary main_v13 main_v21 main_v22 (Host.divf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)),
    binary main_v22 main_arg2 main_v23 ((fun l r => Host.dotGeneral (F := Ideal) (φ₁ := .f32) (φ₂ := .f32) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal)),
    binary main_arg0 main_arg3 main_v24 ((fun l r => Host.dotGeneral (F := Ideal) (φ₁ := .f32) (φ₂ := .f32) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal)),
    binary main_v23 main_v24 main_v25 (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)),
    unary main_arg4 main_v26 (broadcastInDim S1x128 ![1] bcast_S128_S1x128_1 : (⟨S128, .f32⟩ : BufTy).Contents (Elt Ideal) → (⟨S1x128, .f32⟩ : BufTy).Contents (Elt Ideal)),
    unary main_v26 main_v27 (broadcastInDim S50000x128 ![0, 1] bcast_S1x128_S50000x128_0_1 : (⟨S1x128, .f32⟩ : BufTy).Contents (Elt Ideal) → (⟨S50000x128, .f32⟩ : BufTy).Contents (Elt Ideal)),
    binary main_v25 main_v27 main_v28 (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)),
    nullary main_call0_cst (constant (F := Ideal) S_ .f32 0x00000000#32),
    unary main_call0_cst main_call0_v0 ((broadcastInDim S50000x128 ![] bcast_S_S50000x128) : (⟨S_, .f32⟩ : BufTy).Contents (Elt Ideal) → (⟨S50000x128, .f32⟩ : BufTy).Contents (Elt Ideal)),
    binary main_v28 main_call0_v0 main_v29 ((maximumf (F := Ideal) (φ := .f32)) : (⟨S50000x128, .f32⟩ : BufTy).Contents (Elt Ideal) → (⟨S50000x128, .f32⟩ : BufTy).Contents (Elt Ideal) → (⟨S50000x128, .f32⟩ : BufTy).Contents (Elt Ideal)) ]

variable [Cert.KernelIdeal.Facts]

theorem ops1_src (W : Val) : after ops1 W (Proc.devRef .tc main_v1) = srcOf (W (Proc.devRef .tc main_arg1)) := by
  after_results_simp
  rfl

theorem ops1_dst (W : Val) : after ops1 W (Proc.devRef .tc main_v3) = dstOf (W (Proc.devRef .tc main_arg1)) := by
  after_results_simp
  rfl

theorem ops1_out (W : Val) : after ops1 W (Proc.devRef .tc main_v29)
    = sageRelu (meanOf (srcOf (W (Proc.devRef .tc main_arg1))) (dstOf (W (Proc.devRef .tc main_arg1))) (W (Proc.devRef .tc main_arg0))) (W (Proc.devRef .tc main_arg0))
        (W (Proc.devRef .tc main_arg2)) (W (Proc.devRef .tc main_arg3)) (rowOf (W (Proc.devRef .tc main_arg4))) := by
  after_results_simp
  rw [sageRelu_ref dot_S50000x128_S128x128_S50000x128_1_0_0_1_n_n rfl, wrap_ref, count_ref, hop_ref, mean_ref]
  rfl

theorem ops1_arg5 (W : Val) : after ops1 W (Proc.devRef .tc main_arg5) = W (Proc.devRef .tc main_arg5) := by
  after_results_simp <;> rfl

theorem ops1_arg6 (W : Val) : after ops1 W (Proc.devRef .tc main_arg6) = W (Proc.devRef .tc main_arg6) := by
  after_results_simp <;> rfl

theorem ops1_arg7 (W : Val) : after ops1 W (Proc.devRef .tc main_arg7) = W (Proc.devRef .tc main_arg7) := by
  after_results_simp <;> rfl

theorem ops1_arg8 (W : Val) : after ops1 W (Proc.devRef .tc main_arg8) = W (Proc.devRef .tc main_arg8) := by
  after_results_simp <;> rfl

theorem ops1_arg9 (W : Val) : after ops1 W (Proc.devRef .tc main_arg9) = W (Proc.devRef .tc main_arg9) := by
  after_results_simp <;> rfl

theorem ops1_arg10 (W : Val) : after ops1 W (Proc.devRef .tc main_arg10) = W (Proc.devRef .tc main_arg10) := by
  after_results_simp <;> rfl

theorem ops1_arg11 (W : Val) : after ops1 W (Proc.devRef .tc main_arg11) = W (Proc.devRef .tc main_arg11) := by
  after_results_simp <;> rfl

theorem ops1_arg12 (W : Val) : after ops1 W (Proc.devRef .tc main_arg12) = W (Proc.devRef .tc main_arg12) := by
  after_results_simp <;> rfl

end Cert.RefNet

end
-- ==== Proof.RefStretch2.lean ====
/-
  The reference program's second stretch: the layer with self-loops.

  The fifty-nine operations after the first clamp, run from any buffer contents W in which main_v1 holds the
  sources, main_v3 the destinations and main_v29 the first layer's output h0, leave
      max ((agg + self) + b1, 0),   hl = h0 · w1,
  agg the hop of hl's rows scaled edge by edge by the product of the endpoints' normalisers deg^(-1/2), self the rows
  of hl divided by the degree (the in-degree plus one). -/
import proofs.«126889_j85615878078998_1_alg».proof.Proof.RefStretch1

set_option maxRecDepth 16384

noncomputable section

namespace Cert.RefNet

open Cert.ReferenceIdeal Cert.ReferenceIdeal.Gen Idealize.ShloMosaic Idealize.ShloMosaic.TcCoe Idealize.SL.Sem Idealize.ShloMosaic.StableHlo
open Cert.Gcn Cert.HybridNet

/-- Operations 39–97: the layer with self-loops. -/
abbrev ops2 : List (HloOp τ sig (Elt Ideal)) :=
  [ nullary main_cst_4 (constant (F := Ideal) S_ .f32 0x3F800000#32),
    unary main_cst_4 main_v30 (broadcastInDim S800000 ![] bcast_S_S800000 : (⟨S_, .f32⟩ : BufTy).Contents (Elt Ideal) → (⟨S800000, .f32⟩ : BufTy).Contents (Elt Ideal)),
    nullary main_cst_5 (constant (F := Ideal) S_ .f32 0x00000000#32),
    unary main_cst_5 main_v31 (broadcastInDim S50000 ![] bcast_S_S50000 : (⟨S_, .f32⟩ : BufTy).Contents (Elt Ideal) → (⟨S50000, .f32⟩ : BufTy).Contents (Elt Ideal)),
    unary main_v3 main_v32 (broadcastInDim S800000x1 ![0] bcast_S800000_S800000x1_0 : (⟨S800000, .i32⟩ : BufTy).Contents (Elt Ideal) → (⟨S800000x1, .i32⟩ : BufTy).Contents (Elt Ideal)),
    ternary main_v31 main_v32 main_v30 main_v33 ((fun x i u => Host.scatterAdd (F := Ideal) (φ := .f32) scatter_S50000_S800000x1_S800000_n_0_0_1 x i u) : (⟨S50000, .f32⟩ : BufTy).Contents (Elt Ideal) → (⟨S800000x1, .i32⟩ : BufTy).Contents (Elt Ideal) → (⟨S800000, .f32⟩ : BufTy).Contents (Elt Ideal) → (⟨S50000, .f32⟩ : BufTy).Contents (Elt Ideal)),
    nullary main_cst_6 (constant (F := Ideal) S_ .f32 0x3F800000#32),
    unary main_cst_6 main_v34 (broadcastInDim S50000 ![] bcast_S_S50000 : (⟨S_, .f32⟩ : BufTy).Contents (Elt Ideal) → (⟨S50000, .f32⟩ : BufTy).Contents (Elt Ideal)),
    binary main_v33 main_v34 main_v35 (addf (F := Ideal) (φ := .f32) : (⟨S50000, .f32⟩ : BufTy).Contents (Elt Ideal) → (⟨S50000, .f32⟩ : BufTy).Contents (Elt Ideal) → (⟨S50000, .f32⟩ : BufTy).Contents (Elt Ideal)),
    unary main_v35 main_v36 (Host.rsqrt (F := Ideal) (φ := .f32) : (⟨S50000, .f32⟩ : BufTy).Contents (Elt Ideal) → (⟨S50000, .f32⟩ : BufTy).Contents (Elt Ideal)),
    binary main_v29 main_arg5 main_v37 ((fun l r => Host.dotGeneral (F := Ideal) (φ₁ := .f32) (φ₂ := .f32) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal)),
    nullary main_c_7 (constantI S_ 32 0#32),
    unary main_c_7 main_v38 (broadcastInDim S800000 ![] bcast_S_S800000 : (⟨S_, .i32⟩ : BufTy).Contents (Elt Ideal) → (⟨S800000, .i32⟩ : BufTy).Contents (Elt Ideal)),
    binary main_v1 main_v38 main_v39 (cmpi .slt : (⟨S800000, .i32⟩ : BufTy).Contents (Elt Ideal) → (⟨S800000, .i32⟩ : BufTy).Contents (Elt Ideal) → (⟨S800000, .i1⟩ : BufTy).Contents (Elt Ideal)),
    nullary main_c_8 (constantI S_ 32 50000#32),
    unary main_c_8 main_v40 (broadcastInDim S800000 ![] bcast_S_S800000 : (⟨S_, .i32⟩ : BufTy).Contents (Elt Ideal) → (⟨S800000, .i32⟩ : BufTy).Contents (Elt Ideal)),
    binary main_v1 main_v40 main_v41 (addi : (⟨S800000, .i32⟩ : BufTy).Contents (Elt Ideal) → (⟨S800000, .i32⟩ : BufTy).Contents (Elt Ideal) → (⟨S800000, .i32⟩ : BufTy).Contents (Elt Ideal)),
    ternary main_v39 main_v41 main_v1 main_v42 (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)),
    unary main_v42 main_v43 (broadcastInDim S800000x1 ![0] bcast_S800000_S800000x1_0 : (⟨S800000, .i32⟩ : BufTy).Contents (Elt Ideal) → (⟨S800000x1, .i32⟩ : BufTy).Contents (Elt Ideal)),
    binary main_v37 main_v43 main_v44 ((fun x i => Host.gather gather_S50000x128_S800000x1_S800000x128_1_0_n_n_0_1_1128 x i) : (⟨S50000x128, .f32⟩ : BufTy).Contents (Elt Ideal) → (⟨S800000x1, .i32⟩ : BufTy).Contents (Elt Ideal) → (⟨S800000x128, .f32⟩ : BufTy).Contents (Elt Ideal)),
    nullary main_c_9 (constantI S_ 32 0#32),
    unary main_c_9 main_v45 (broadcastInDim S800000 ![] bcast_S_S800000 : (⟨S_, .i32⟩ : BufTy).Contents (Elt Ideal) → (⟨S800000, .i32⟩ : BufTy).Contents (Elt Ideal)),
    binary main_v1 main_v45 main_v46 (cmpi .slt : (⟨S800000, .i32⟩ : BufTy).Contents (Elt Ideal) → (⟨S800000, .i32⟩ : BufTy).Contents (Elt Ideal) → (⟨S800000, .i1⟩ : BufTy).Contents (Elt Ideal)),
    nullary main_c_10 (constantI S_ 32 50000#32),
    unary main_c_10 main_v47 (broadcastInDim S800000 ![] bcast_S_S800000 : (⟨S_, .i32⟩ : BufTy).Contents (Elt Ideal) → (⟨S800000, .i32⟩ : BufTy).Contents (Elt Ideal)),
    binary main_v1 main_v47 main_v48 (addi : (⟨S800000, .i32⟩ : BufTy).Contents (Elt Ideal) → (⟨S800000, .i32⟩ : BufTy).Contents (Elt Ideal) → (⟨S800000, .i32⟩ : BufTy).Contents (Elt Ideal)),
    ternary main_v46 main_v48 main_v1 main_v49 (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)),
    unary main_v49 main_v50 (broadcastInDim S800000x1 ![0] bcast_S800000_S800000x1_0 : (⟨S800000, .i32⟩ : BufTy).Contents (Elt Ideal) → (⟨S800000x1, .i32⟩ : BufTy).Contents (Elt Ideal)),
    binary main_v36 main_v50 main_v51 ((fun x i => Host.gather gather_S50000_S800000x1_S800000_n_0_n_n_0_1_1 x i) : (⟨S50000, .f32⟩ : BufTy).Contents (Elt Ideal) → (⟨S800000x1, .i32⟩ : BufTy).Contents (Elt Ideal) → (⟨S800000, .f32⟩ : BufTy).Contents (Elt Ideal)),
    nullary main_c_11 (constantI S_ 32 0#32),
    unary main_c_11 main_v52 (broadcastInDim S800000 ![] bcast_S_S800000 : (⟨S_, .i32⟩ : BufTy).Contents (Elt Ideal) → (⟨S800000, .i32⟩ : BufTy).Contents (Elt Ideal)),
    binary main_v3 main_v52 main_v53 (cmpi .slt : (⟨S800000, .i32⟩ : BufTy).Contents (Elt Ideal) → (⟨S800000, .i32⟩ : BufTy).Contents (Elt Ideal) → (⟨S800000, .i1⟩ : BufTy).Contents (Elt Ideal)),
    nullary main_c_12 (constantI S_ 32 50000#32),
    unary main_c_12 main_v54 (broadcastInDim S800000 ![] bcast_S_S800000 : (⟨S_, .i32⟩ : BufTy).Contents (Elt Ideal) → (⟨S800000, .i32⟩ : BufTy).Contents (Elt Ideal)),
    binary main_v3 main_v54 main_v55 (addi : (⟨S800000, .i32⟩ : BufTy).Contents (Elt Ideal) → (⟨S800000, .i32⟩ : BufTy).Contents (Elt Ideal) → (⟨S800000, .i32⟩ : BufTy).Contents (Elt Ideal)),
    ternary main_v53 main_v55 main_v3 main_v56 (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)),
    unary main_v56 main_v57 (broadcastInDim S800000x1 ![0] bcast_S800000_S800000x1_0 : (⟨S800000, .i32⟩ : BufTy).Contents (Elt Ideal) → (⟨S800000x1, .i32⟩ : BufTy).Contents (Elt Ideal)),
    binary main_v36 main_v57 main_v58 ((fun x i => Host.gather gather_S50000_S800000x1_S800000_n_0_n_n_0_1_1 x i) : (⟨S50000, .f32⟩ : BufTy).Contents (Elt Ideal) → (⟨S800000x1, .i32⟩ : BufTy).Contents (Elt Ideal) → (⟨S800000, .f32⟩ : BufTy).Contents (Elt Ideal)),
    binary main_v51 main_v58 main_v59 (mulf (F := Ideal) (φ := .f32) : (⟨S800000, .f32⟩ : BufTy).Contents (Elt Ideal) → (⟨S800000, .f32⟩ : BufTy).Contents (Elt Ideal) → (⟨S800000, .f32⟩ : BufTy).Contents (Elt Ideal)),
    unary main_v59 main_v60 (broadcastInDim S800000x1 ![0] bcast_S800000_S800000x1_0 : (⟨S800000, .f32⟩ : BufTy).Contents (Elt Ideal) → (⟨S800000x1, .f32⟩ : BufTy).Contents (Elt Ideal)),
    unary main_v60 main_v61 (broadcastInDim S800000x128 ![0, 1] bcast_S800000x1_S800000x128_0_1 : (⟨S800000x1, .f32⟩ : BufTy).Contents (Elt Ideal) → (⟨S800000x128, .f32⟩ : BufTy).Contents (Elt Ideal)),
    binary main_v44 main_v61 main_v62 (mulf (F := Ideal) (φ := .f32) : (⟨S800000x128, .f32⟩ : BufTy).Contents (Elt Ideal) → (⟨S800000x128, .f32⟩ : BufTy).Contents (Elt Ideal) → (⟨S800000x128, .f32⟩ : BufTy).Contents (Elt Ideal)),
    nullary main_cst_13 (constant (F := Ideal) S_ .f32 0x00000000#32),
    unary main_cst_13 main_v63 (broadcastInDim S50000x128 ![] bcast_S_S50000x128 : (⟨S_, .f32⟩ : BufTy).Contents (Elt Ideal) → (⟨S50000x128, .f32⟩ : BufTy).Contents (Elt Ideal)),
    unary main_v3 main_v64 (broadcastInDim S800000x1 ![0] bcast_S800000_S800000x1_0 : (⟨S800000, .i32⟩ : BufTy).Contents (Elt Ideal) → (⟨S800000x1, .i32⟩ : BufTy).Contents (Elt Ideal)),
    ternary main_v63 main_v64 main_v62 main_v65 ((fun x i u => Host.scatterAdd (F := Ideal) (φ := .f32) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal)),
    nullary main_cst_14 (constant (F := Ideal) S_ .f32 0x3F800000#32),
    unary main_cst_14 main_v66 (broadcastInDim S50000 ![] bcast_S_S50000 : (⟨S_, .f32⟩ : BufTy).Contents (Elt Ideal) → (⟨S50000, .f32⟩ : BufTy).Contents (Elt Ideal)),
    binary main_v66 main_v35 main_v67 (Host.divf (F := Ideal) (φ := .f32) : (⟨S50000, .f32⟩ : BufTy).Contents (Elt Ideal) → (⟨S50000, .f32⟩ : BufTy).Contents (Elt Ideal) → (⟨S50000, .f32⟩ : BufTy).Contents (Elt Ideal)),
    unary main_v67 main_v68 (broadcastInDim S50000x1 ![0] bcast_S50000_S50000x1_0 : (⟨S50000, .f32⟩ : BufTy).Contents (Elt Ideal) → (⟨S50000x1, .f32⟩ : BufTy).Contents (Elt Ideal)),
    unary main_v68 main_v69 (broadcastInDim S50000x128 ![0, 1] bcast_S50000x1_S50000x128_0_1 : (⟨S50000x1, .f32⟩ : BufTy).Contents (Elt Ideal) → (⟨S50000x128, .f32⟩ : BufTy).Contents (Elt Ideal)),
    binary main_v37 main_v69 main_v70 (mulf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)),
    binary main_v65 main_v70 main_v71 (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)),
    unary main_arg6 main_v72 (broadcastInDim S1x128 ![1] bcast_S128_S1x128_1 : (⟨S128, .f32⟩ : BufTy).Contents (Elt Ideal) → (⟨S1x128, .f32⟩ : BufTy).Contents (Elt Ideal)),
    unary main_v72 main_v73 (broadcastInDim S50000x128 ![0, 1] bcast_S1x128_S50000x128_0_1 : (⟨S1x128, .f32⟩ : BufTy).Contents (Elt Ideal) → (⟨S50000x128, .f32⟩ : BufTy).Contents (Elt Ideal)),
    binary main_v71 main_v73 main_v74 (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)),
    nullary main_call1_cst (constant (F := Ideal) S_ .f32 0x00000000#32),
    unary main_call1_cst main_call1_v0 ((broadcastInDim S50000x128 ![] bcast_S_S50000x128) : (⟨S_, .f32⟩ : BufTy).Contents (Elt Ideal) → (⟨S50000x128, .f32⟩ : BufTy).Contents (Elt Ideal)),
    binary main_v74 main_call1_v0 main_v75 ((maximumf (F := Ideal) (φ := .f32)) : (⟨S50000x128, .f32⟩ : BufTy).Contents (Elt Ideal) → (⟨S50000x128, .f32⟩ : BufTy).Contents (Elt Ideal) → (⟨S50000x128, .f32⟩ : BufTy).Contents (Elt Ideal)) ]

variable [Cert.KernelIdeal.Facts]

theorem ops2_out (W : Val) : after ops2 W (Proc.devRef .tc main_v75)
    = combine (aggOf (W (Proc.devRef .tc main_v1)) (W (Proc.devRef .tc main_v3)) (dense (W (Proc.devRef .tc main_v29)) (W (Proc.devRef .tc main_arg5))))
        (selfOf (W (Proc.devRef .tc main_v3)) (dense (W (Proc.devRef .tc main_v29)) (W (Proc.devRef .tc main_arg5)))) (rowOf (W (Proc.devRef .tc main_arg6))) := by
  after_results_simp
  rw [combine_ref, dense_ref dot_S50000x128_S128x128_S50000x128_1_0_0_1_n_n rfl, wrap_ref, wrap_ref, count_ref, deg_ref, norm_ref, agg_ref, self_ref]

end Cert.RefNet

end
-- ==== Proof.RefStretch3.lean ====
/-
  The reference program's third stretch: the second mean-aggregation layer.

  The thirty-four operations after the second clamp, run from any buffer contents W in which main_v1 holds the
  sources, main_v3 the destinations and main_v75 the previous layer's output h1, leave
      max ((mean · wl2 + h1 · wr2) + b2, 0),   mean = the hop of h1 divided row by row by the clamped in-degree.
  They write none of the index columns and none of the last layer's arguments.
-/
import proofs.«126889_j85615878078998_1_alg».proof.Proof.RefStretch1

set_option maxRecDepth 16384

noncomputable section

namespace Cert.RefNet

open Cert.ReferenceIdeal Cert.ReferenceIdeal.Gen Idealize.ShloMosaic Idealize.ShloMosaic.TcCoe Idealize.SL.Sem Idealize.ShloMosaic.StableHlo
open Cert.Gcn Cert.HybridNet

/-- Operations 98–131: the second mean-aggregation layer. -/
abbrev ops3 : List (HloOp τ sig (Elt Ideal)) :=
  [ nullary main_c_15 (constantI S_ 32 0#32),
    unary main_c_15 main_v76 (broadcastInDim S800000 ![] bcast_S_S800000 : (⟨S_, .i32⟩ : BufTy).Contents (Elt Ideal) → (⟨S800000, .i32⟩ : BufTy).Contents (Elt Ideal)),
    binary main_v1 main_v76 main_v77 (cmpi .slt : (⟨S800000, .i32⟩ : BufTy).Contents (Elt Ideal) → (⟨S800000, .i32⟩ : BufTy).Contents (Elt Ideal) → (⟨S800000, .i1⟩ : BufTy).Contents (Elt Ideal)),
    nullary main_c_16 (constantI S_ 32 50000#32),
    unary main_c_16 main_v78 (broadcastInDim S800000 ![] bcast_S_S800000 : (⟨S_, .i32⟩ : BufTy).Contents (Elt Ideal) → (⟨S800000, .i32⟩ : BufTy).Contents (Elt Ideal)),
    binary main_v1 main_v78 main_v79 (addi : (⟨S800000, .i32⟩ : BufTy).Contents (Elt Ideal) → (⟨S800000, .i32⟩ : BufTy).Contents (Elt Ideal) → (⟨S800000, .i32⟩ : BufTy).Contents (Elt Ideal)),
    ternary main_v77 main_v79 main_v1 main_v80 (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)),
    unary main_v80 main_v81 (broadcastInDim S800000x1 ![0] bcast_S800000_S800000x1_0 : (⟨S800000, .i32⟩ : BufTy).Contents (Elt Ideal) → (⟨S800000x1, .i32⟩ : BufTy).Contents (Elt Ideal)),
    binary main_v75 main_v81 main_v82 ((fun x i => Host.gather gather_S50000x128_S800000x1_S800000x128_1_0_n_n_0_1_1128 x i) : (⟨S50000x128, .f32⟩ : BufTy).Contents (Elt Ideal) → (⟨S800000x1, .i32⟩ : BufTy).Contents (Elt Ideal) → (⟨S800000x128, .f32⟩ : BufTy).Contents (Elt Ideal)),
    nullary main_cst_17 (constant (F := Ideal) S_ .f32 0x00000000#32),
    unary main_cst_17 main_v83 (broadcastInDim S50000x128 ![] bcast_S_S50000x128 : (⟨S_, .f32⟩ : BufTy).Contents (Elt Ideal) → (⟨S50000x128, .f32⟩ : BufTy).Contents (Elt Ideal)),
    unary main_v3 main_v84 (broadcastInDim S800000x1 ![0] bcast_S800000_S800000x1_0 : (⟨S800000, .i32⟩ : BufTy).Contents (Elt Ideal) → (⟨S800000x1, .i32⟩ : BufTy).Contents (Elt Ideal)),
    ternary main_v83 main_v84 main_v82 main_v85 ((fun x i u => Host.scatterAdd (F := Ideal) (φ := .f32) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal)),
    nullary main_cst_18 (constant (F := Ideal) S_ .f32 0x3F800000#32),
    unary main_cst_18 main_v86 (broadcastInDim S800000 ![] bcast_S_S800000 : (⟨S_, .f32⟩ : BufTy).Contents (Elt Ideal) → (⟨S800000, .f32⟩ : BufTy).Contents (Elt Ideal)),
    nullary main_cst_19 (constant (F := Ideal) S_ .f32 0x00000000#32),
    unary main_cst_19 main_v87 (broadcastInDim S50000 ![] bcast_S_S50000 : (⟨S_, .f32⟩ : BufTy).Contents (Elt Ideal) → (⟨S50000, .f32⟩ : BufTy).Contents (Elt Ideal)),
    unary main_v3 main_v88 (broadcastInDim S800000x1 ![0] bcast_S800000_S800000x1_0 : (⟨S800000, .i32⟩ : BufTy).Contents (Elt Ideal) → (⟨S800000x1, .i32⟩ : BufTy).Contents (Elt Ideal)),
    ternary main_v87 main_v88 main_v86 main_v89 ((fun x i u => Host.scatterAdd (F := Ideal) (φ := .f32) scatter_S50000_S800000x1_S800000_n_0_0_1 x i u) : (⟨S50000, .f32⟩ : BufTy).Contents (Elt Ideal) → (⟨S800000x1, .i32⟩ : BufTy).Contents (Elt Ideal) → (⟨S800000, .f32⟩ : BufTy).Contents (Elt Ideal) → (⟨S50000, .f32⟩ : BufTy).Contents (Elt Ideal)),
    nullary main_cst_20 (constant (F := Ideal) S_ .f32 0x3F800000#32),
    unary main_cst_20 main_v90 (broadcastInDim S50000 ![] bcast_S_S50000 : (⟨S_, .f32⟩ : BufTy).Contents (Elt Ideal) → (⟨S50000, .f32⟩ : BufTy).Contents (Elt Ideal)),
    binary main_v89 main_v90 main_v91 (maximumf (F := Ideal) (φ := .f32) : (⟨S50000, .f32⟩ : BufTy).Contents (Elt Ideal) → (⟨S50000, .f32⟩ : BufTy).Contents (Elt Ideal) → (⟨S50000, .f32⟩ : BufTy).Contents (Elt Ideal)),
    unary main_v91 main_v92 (broadcastInDim S50000x1 ![0] bcast_S50000_S50000x1_0 : (⟨S50000, .f32⟩ : BufTy).Contents (Elt Ideal) → (⟨S50000x1, .f32⟩ : BufTy).Contents (Elt Ideal)),
    unary main_v92 main_v93 (broadcastInDim S50000x128 ![0, 1] bcast_S50000x1_S50000x128_0_1 : (⟨S50000x1, .f32⟩ : BufTy).Contents (Elt Ideal) → (⟨S50000x128, .f32⟩ : BufTy).Contents (Elt Ideal)),
    binary main_v85 main_v93 main_v94 (Host.divf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)),
    binary main_v94 main_arg7 main_v95 ((fun l r => Host.dotGeneral (F := Ideal) (φ₁ := .f32) (φ₂ := .f32) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal)),
    binary main_v75 main_arg8 main_v96 ((fun l r => Host.dotGeneral (F := Ideal) (φ₁ := .f32) (φ₂ := .f32) dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal)),
    binary main_v95 main_v96 main_v97 (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)),
    unary main_arg9 main_v98 (broadcastInDim S1x128 ![1] bcast_S128_S1x128_1 : (⟨S128, .f32⟩ : BufTy).Contents (Elt Ideal) → (⟨S1x128, .f32⟩ : BufTy).Contents (Elt Ideal)),
    unary main_v98 main_v99 (broadcastInDim S50000x128 ![0, 1] bcast_S1x128_S50000x128_0_1 : (⟨S1x128, .f32⟩ : BufTy).Contents (Elt Ideal) → (⟨S50000x128, .f32⟩ : BufTy).Contents (Elt Ideal)),
    binary main_v97 main_v99 main_v100 (addf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)),
    nullary main_call2_cst (constant (F := Ideal) S_ .f32 0x00000000#32),
    unary main_call2_cst main_call2_v0 ((broadcastInDim S50000x128 ![] bcast_S_S50000x128) : (⟨S_, .f32⟩ : BufTy).Contents (Elt Ideal) → (⟨S50000x128, .f32⟩ : BufTy).Contents (Elt Ideal)),
    binary main_v100 main_call2_v0 main_v101 ((maximumf (F := Ideal) (φ := .f32)) : (⟨S50000x128, .f32⟩ : BufTy).Contents (Elt Ideal) → (⟨S50000x128, .f32⟩ : BufTy).Contents (Elt Ideal) → (⟨S50000x128, .f32⟩ : BufTy).Contents (Elt Ideal)) ]

variable [Cert.KernelIdeal.Facts]

theorem ops3_out (W : Val) : after ops3 W (Proc.devRef .tc main_v101)
    = sageRelu (meanOf (W (Proc.devRef .tc main_v1)) (W (Proc.devRef .tc main_v3)) (W (Proc.devRef .tc main_v75))) (W (Proc.devRef .tc main_v75))
        (W (Proc.devRef .tc main_arg7)) (W (Proc.devRef .tc main_arg8)) (rowOf (W (Proc.devRef .tc main_arg9))) := by
  after_results_simp
  rw [sageRelu_ref dot_S50000x128_S128x128_S50000x128_1_0_0_1_n_n rfl, wrap_ref, count_ref, hop_ref, mean_ref]

theorem ops3_src (W : Val) : after ops3 W (Proc.devRef .tc main_v1) = W (Proc.devRef .tc main_v1) := by
  after_results_simp <;> rfl

theorem ops3_dst (W : Val) : after ops3 W (Proc.devRef .tc main_v3) = W (Proc.devRef .tc main_v3) := by
  after_results_simp <;> rfl

theorem ops3_arg10 (W : Val) : after ops3 W (Proc.devRef .tc main_arg10) = W (Proc.devRef .tc main_arg10) := by
  after_results_simp <;> rfl

theorem ops3_arg11 (W : Val) : after ops3 W (Proc.devRef .tc main_arg11) = W (Proc.devRef .tc main_arg11) := by
  after_results_simp <;> rfl

theorem ops3_arg12 (W : Val) : after ops3 W (Proc.devRef .tc main_arg12) = W (Proc.devRef .tc main_arg12) := by
  after_results_simp <;> rfl

end Cert.RefNet

end
-- ==== Proof.RefStretch4.lean ====
/-
  The reference program's last stretch: the third mean-aggregation layer and the log-softmax of each row.

  The forty-six operations after the third clamp, run from any buffer contents W in which main_v1 holds the
  sources, main_v3 the destinations and main_v101 the previous layer's output h2, leave the log-softmax of each row
  of  (mean · wl3 + h2 · wr3) + b3,  mean = the hop of h2 divided row by row by the clamped in-degree.
-/
import proofs.«126889_j85615878078998_1_alg».proof.Proof.RefStretch1

set_option maxRecDepth 16384

noncomputable section

namespace Cert.RefNet

open Cert.ReferenceIdeal Cert.ReferenceIdeal.Gen Idealize.ShloMosaic Idealize.ShloMosaic.TcCoe Idealize.SL.Sem Idealize.ShloMosaic.StableHlo
open Cert.Gcn Cert.HybridNet

/-- Operations 132–177: the last layer and the log-softmax (the row-maximum reduction kept in the called function's
    typed form). -/
abbrev ops4 : List (HloOp τ sig (Elt Ideal)) :=
  [ nullary main_c_21 (constantI S_ 32 0#32),
    unary main_c_21 main_v102 (broadcastInDim S800000 ![] bcast_S_S800000 : (⟨S_, .i32⟩ : BufTy).Contents (Elt Ideal) → (⟨S800000, .i32⟩ : BufTy).Contents (Elt Ideal)),
    binary main_v1 main_v102 main_v103 (cmpi .slt : (⟨S800000, .i32⟩ : BufTy).Contents (Elt Ideal) → (⟨S800000, .i32⟩ : BufTy).Contents (Elt Ideal) → (⟨S800000, .i1⟩ : BufTy).Contents (Elt Ideal)),
    nullary main_c_22 (constantI S_ 32 50000#32),
    unary main_c_22 main_v104 (broadcastInDim S800000 ![] bcast_S_S800000 : (⟨S_, .i32⟩ : BufTy).Contents (Elt Ideal) → (⟨S800000, .i32⟩ : BufTy).Contents (Elt Ideal)),
    binary main_v1 main_v104 main_v105 (addi : (⟨S800000, .i32⟩ : BufTy).Contents (Elt Ideal) → (⟨S800000, .i32⟩ : BufTy).Contents (Elt Ideal) → (⟨S800000, .i32⟩ : BufTy).Contents (Elt Ideal)),
    ternary main_v103 main_v105 main_v1 main_v106 (select : (⟨S800000, .i1⟩ : BufTy).Contents (Elt Ideal) → (⟨S800000, .i32⟩ : BufTy).Contents (Elt Ideal) → (⟨S800000, .i32⟩ : BufTy).Contents (Elt Ideal) → (⟨S800000, .i32⟩ : BufTy).Contents (Elt Ideal)),
    unary main_v106 main_v107 (broadcastInDim S800000x1 ![0] bcast_S800000_S800000x1_0 : (⟨S800000, .i32⟩ : BufTy).Contents (Elt Ideal) → (⟨S800000x1, .i32⟩ : BufTy).Contents (Elt Ideal)),
    binary main_v101 main_v107 main_v108 ((fun x i => Host.gather gather_S50000x128_S800000x1_S800000x128_1_0_n_n_0_1_1128 x i) : (⟨S50000x128, .f32⟩ : BufTy).Contents (Elt Ideal) → (⟨S800000x1, .i32⟩ : BufTy).Contents (Elt Ideal) → (⟨S800000x128, .f32⟩ : BufTy).Contents (Elt Ideal)),
    nullary main_cst_23 (constant (F := Ideal) S_ .f32 0x00000000#32),
    unary main_cst_23 main_v109 (broadcastInDim S50000x128 ![] bcast_S_S50000x128 : (⟨S_, .f32⟩ : BufTy).Contents (Elt Ideal) → (⟨S50000x128, .f32⟩ : BufTy).Contents (Elt Ideal)),
    unary main_v3 main_v110 (broadcastInDim S800000x1 ![0] bcast_S800000_S800000x1_0 : (⟨S800000, .i32⟩ : BufTy).Contents (Elt Ideal) → (⟨S800000x1, .i32⟩ : BufTy).Contents (Elt Ideal)),
    ternary main_v109 main_v110 main_v108 main_v111 ((fun x i u => Host.scatterAdd (F := Ideal) (φ := .f32) scatter_S50000x128_S800000x1_S800000x128_1_0_0_1 x i u) : (⟨S50000x128, .f32⟩ : BufTy).Contents (Elt Ideal) → (⟨S800000x1, .i32⟩ : BufTy).Contents (Elt Ideal) → (⟨S800000x128, .f32⟩ : BufTy).Contents (Elt Ideal) → (⟨S50000x128, .f32⟩ : BufTy).Contents (Elt Ideal)),
    nullary main_cst_24 (constant (F := Ideal) S_ .f32 0x3F800000#32),
    unary main_cst_24 main_v112 (broadcastInDim S800000 ![] bcast_S_S800000 : (⟨S_, .f32⟩ : BufTy).Contents (Elt Ideal) → (⟨S800000, .f32⟩ : BufTy).Contents (Elt Ideal)),
    nullary main_cst_25 (constant (F := Ideal) S_ .f32 0x00000000#32),
    unary main_cst_25 main_v113 (broadcastInDim S50000 ![] bcast_S_S50000 : (⟨S_, .f32⟩ : BufTy).Contents (Elt Ideal) → (⟨S50000, .f32⟩ : BufTy).Contents (Elt Ideal)),
    unary main_v3 main_v114 (broadcastInDim S800000x1 ![0] bcast_S800000_S800000x1_0 : (⟨S800000, .i32⟩ : BufTy).Contents (Elt Ideal) → (⟨S800000x1, .i32⟩ : BufTy).Contents (Elt Ideal)),
    ternary main_v113 main_v114 main_v112 main_v115 ((fun x i u => Host.scatterAdd (F := Ideal) (φ := .f32) scatter_S50000_S800000x1_S800000_n_0_0_1 x i u) : (⟨S50000, .f32⟩ : BufTy).Contents (Elt Ideal) → (⟨S800000x1, .i32⟩ : BufTy).Contents (Elt Ideal) → (⟨S800000, .f32⟩ : BufTy).Contents (Elt Ideal) → (⟨S50000, .f32⟩ : BufTy).Contents (Elt Ideal)),
    nullary main_cst_26 (constant (F := Ideal) S_ .f32 0x3F800000#32),
    unary main_cst_26 main_v116 (broadcastInDim S50000 ![] bcast_S_S50000 : (⟨S_, .f32⟩ : BufTy).Contents (Elt Ideal) → (⟨S50000, .f32⟩ : BufTy).Contents (Elt Ideal)),
    binary main_v115 main_v116 main_v117 (maximumf (F := Ideal) (φ := .f32) : (⟨S50000, .f32⟩ : BufTy).Contents (Elt Ideal) → (⟨S50000, .f32⟩ : BufTy).Contents (Elt Ideal) → (⟨S50000, .f32⟩ : BufTy).Contents (Elt Ideal)),
    unary main_v117 main_v118 (broadcastInDim S50000x1 ![0] bcast_S50000_S50000x1_0 : (⟨S50000, .f32⟩ : BufTy).Contents (Elt Ideal) → (⟨S50000x1, .f32⟩ : BufTy).Contents (Elt Ideal)),
    unary main_v118 main_v119 (broadcastInDim S50000x128 ![0, 1] bcast_S50000x1_S50000x128_0_1 : (⟨S50000x1, .f32⟩ : BufTy).Contents (Elt Ideal) → (⟨S50000x128, .f32⟩ : BufTy).Contents (Elt Ideal)),
    binary main_v111 main_v119 main_v120 (Host.divf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)),
    binary main_v120 main_arg10 main_v121 ((fun l r => Host.dotGeneral (F := Ideal) (φ₁ := .f32) (φ₂ := .f32) dot_S50000x128_S128x16_S50000x16_1_0_0_1_n_n none l r) : (⟨S50000x128, .f32⟩ : BufTy).Contents (Elt Ideal) → (⟨S128x16, .f32⟩ : BufTy).Contents (Elt Ideal) → (⟨S50000x16, .f32⟩ : BufTy).Contents (Elt Ideal)),
    binary main_v101 main_arg11 main_v122 ((fun l r => Host.dotGeneral (F := Ideal) (φ₁ := .f32) (φ₂ := .f32) dot_S50000x128_S128x16_S50000x16_1_0_0_1_n_n none l r) : (⟨S50000x128, .f32⟩ : BufTy).Contents (Elt Ideal) → (⟨S128x16, .f32⟩ : BufTy).Contents (Elt Ideal) → (⟨S50000x16, .f32⟩ : BufTy).Contents (Elt Ideal)),
    binary main_v121 main_v122 main_v123 (addf (F := Ideal) (φ := .f32) : (⟨S50000x16, .f32⟩ : BufTy).Contents (Elt Ideal) → (⟨S50000x16, .f32⟩ : BufTy).Contents (Elt Ideal) → (⟨S50000x16, .f32⟩ : BufTy).Contents (Elt Ideal)),
    unary main_arg12 main_v124 (broadcastInDim S1x16 ![1] bcast_S16_S1x16_1 : (⟨S16, .f32⟩ : BufTy).Contents (Elt Ideal) → (⟨S1x16, .f32⟩ : BufTy).Contents (Elt Ideal)),
    unary main_v124 main_v125 (broadcastInDim S50000x16 ![0, 1] bcast_S1x16_S50000x16_0_1 : (⟨S1x16, .f32⟩ : BufTy).Contents (Elt Ideal) → (⟨S50000x16, .f32⟩ : BufTy).Contents (Elt Ideal)),
    binary main_v123 main_v125 main_v126 (addf (F := Ideal) (φ := .f32) : (⟨S50000x16, .f32⟩ : BufTy).Contents (Elt Ideal) → (⟨S50000x16, .f32⟩ : BufTy).Contents (Elt Ideal) → (⟨S50000x16, .f32⟩ : BufTy).Contents (Elt Ideal)),
    nullary main_call3_cst (constant (F := Ideal) S_ .f32 0xFF800000#32),
    TRef.binary (TRef.of (T := ⟨S50000x16, .f32⟩) main_v126) (TRef.of (T := ⟨S_, .f32⟩) main_call3_cst) (TRef.of (T := ⟨S50000, .f32⟩) main_call3_v0) (fun x v => Host.reduce (FloatOps.maximumf (F := Ideal) (φ := .f32)) x v reducesTo_S50000x16_S50000_d1 h_S_),
    nullary main_call3_cst_0 (constant (F := Ideal) S_ .f32 0xFF800000#32),
    unary main_call3_cst_0 main_call3_v1 ((broadcastInDim S50000 ![] bcast_S_S50000) : (⟨S_, .f32⟩ : BufTy).Contents (Elt Ideal) → (⟨S50000, .f32⟩ : BufTy).Contents (Elt Ideal)),
    binary main_call3_v1 main_call3_v0 main_call3_v2 ((maximumf (F := Ideal) (φ := .f32)) : (⟨S50000, .f32⟩ : BufTy).Contents (Elt Ideal) → (⟨S50000, .f32⟩ : BufTy).Contents (Elt Ideal) → (⟨S50000, .f32⟩ : BufTy).Contents (Elt Ideal)),
    unary main_call3_v2 main_call3_v3 ((broadcastInDim S50000x1 ![0] bcast_S50000_S50000x1_0) : (⟨S50000, .f32⟩ : BufTy).Contents (Elt Ideal) → (⟨S50000x1, .f32⟩ : BufTy).Contents (Elt Ideal)),
    unary main_call3_v3 main_call3_v4 ((broadcastInDim S50000x16 ![0, 1] bcast_S50000x1_S50000x16_0_1) : (⟨S50000x1, .f32⟩ : BufTy).Contents (Elt Ideal) → (⟨S50000x16, .f32⟩ : BufTy).Contents (Elt Ideal)),
    binary main_v126 main_call3_v4 main_call3_v5 ((subf (F := Ideal) (φ := .f32)) : (⟨S50000x16, .f32⟩ : BufTy).Contents (Elt Ideal) → (⟨S50000x16, .f32⟩ : BufTy).Contents (Elt Ideal) → (⟨S50000x16, .f32⟩ : BufTy).Contents (Elt Ideal)),
    unary main_call3_v5 main_call3_v6 ((Host.exp (F := Ideal) (φ := .f32)) : (⟨S50000x16, .f32⟩ : BufTy).Contents (Elt Ideal) → (⟨S50000x16, .f32⟩ : BufTy).Contents (Elt Ideal)),
    nullary main_call3_cst_1 (constant (F := Ideal) S_ .f32 0x00000000#32),
    binary main_call3_v6 main_call3_cst_1 main_call3_v7 ((fun x v => Host.reduceAdd (F := Ideal) (φ := .f32) x v reducesTo_S50000x16_S50000_d1 h_S_) : (⟨S50000x16, .f32⟩ : BufTy).Contents (Elt Ideal) → (⟨S_, .f32⟩ : BufTy).Contents (Elt Ideal) → (⟨S50000, .f32⟩ : BufTy).Contents (Elt Ideal)),
    unary main_call3_v7 main_call3_v8 ((broadcastInDim S50000x1 ![0] bcast_S50000_S50000x1_0) : (⟨S50000, .f32⟩ : BufTy).Contents (Elt Ideal) → (⟨S50000x1, .f32⟩ : BufTy).Contents (Elt Ideal)),
    unary main_call3_v8 main_call3_v9 ((Host.log (F := Ideal) (φ := .f32)) : (⟨S50000x1, .f32⟩ : BufTy).Contents (Elt Ideal) → (⟨S50000x1, .f32⟩ : BufTy).Contents (Elt Ideal)),
    unary main_call3_v9 main_call3_v10 ((broadcastInDim S50000x16 ![0, 1] bcast_S50000x1_S50000x16_0_1) : (⟨S50000x1, .f32⟩ : BufTy).Contents (Elt Ideal) → (⟨S50000x16, .f32⟩ : BufTy).Contents (Elt Ideal)),
    binary main_call3_v5 main_call3_v10 main_v127 ((subf (F := Ideal) (φ := .f32)) : (⟨S50000x16, .f32⟩ : BufTy).Contents (Elt Ideal) → (⟨S50000x16, .f32⟩ : BufTy).Contents (Elt Ideal) → (⟨S50000x16, .f32⟩ : BufTy).Contents (Elt Ideal)) ]

variable [Cert.KernelIdeal.Facts]

theorem ops4_out (W : Val) : after ops4 W (Proc.devRef .tc main_v127)
    = sageLogSoftmax (meanOf (W (Proc.devRef .tc main_v1)) (W (Proc.devRef .tc main_v3)) (W (Proc.devRef .tc main_v101))) (W (Proc.devRef .tc main_v101))
        (W (Proc.devRef .tc main_arg10)) (W (Proc.devRef .tc main_arg11)) (rowOf (W (Proc.devRef .tc main_arg12))) := by
  after_results_simp
  rw [wrap_ref, count_ref, hop_ref, mean_ref]
  refine sageLogSoftmax_ref' dot_S50000x128_S128x16_S50000x16_1_0_0_1_n_n rfl _ _ _ _ _ bcast_S16_S1x16_1 bcast_S1x16_S50000x16_0_1
    reducesTo_S50000x16_S50000_d1 (by decide) h_S_ bcast_S_S50000 bcast_S50000_S50000x1_0 bcast_S50000x1_S50000x16_0_1 _ rfl _ ?_
  exact cast_eq _ _

end Cert.RefNet

end
-- ==== Proof.RefSplit.lean ====
/-
  The reference program's 177 operations are the four layers' stretches, in order: the first 38, the next 59, the
  next 34 and the last 46 operations of the line.
-/
import proofs.«126889_j85615878078998_1_alg».proof.Proof.RefStretch2
import proofs.«126889_j85615878078998_1_alg».proof.Proof.RefStretch3
import proofs.«126889_j85615878078998_1_alg».proof.Proof.RefStretch4

set_option maxRecDepth 16384

noncomputable section

namespace Cert.RefNet

open Cert.ReferenceIdeal Cert.ReferenceIdeal.Gen Idealize.ShloMosaic Idealize.ShloMosaic.TcCoe Idealize.SL.Sem Idealize.ShloMosaic.StableHlo
open Cert.Gcn Cert.HybridNet

/-- Two lines run one after the other: the second runs from what the first leaves. -/
theorem after_append (l₁ l₂ : List (HloOp τ sig (Elt Ideal))) (V : Val) :
    after (l₁ ++ l₂) V = after l₂ (after l₁ V) := by
  induction l₁ generalizing V with
  | nil => rfl
  | cons op l ih => exact ih _

theorem ops1_eq : (RunP.ops (F := Ideal)).take 38 = ops1 := rfl
theorem ops2_eq : ((RunP.ops (F := Ideal)).drop 38).take 59 = ops2 := rfl
theorem ops3_eq : (((RunP.ops (F := Ideal)).drop 38).drop 59).take 34 = ops3 := rfl
theorem ops4_eq : (((RunP.ops (F := Ideal)).drop 38).drop 59).drop 34 = ops4 := rfl

/-- The program's operations are the four stretches in order. -/
theorem ops_split : RunP.ops (F := Ideal) = ops1 ++ (ops2 ++ (ops3 ++ ops4)) := by
  rw [← ops1_eq, ← ops2_eq, ← ops3_eq, ← ops4_eq, List.take_append_drop, List.take_append_drop, List.take_append_drop]

end Cert.RefNet

end
-- ==== Proof.RefStretch2Keep.lean ====
/-
  The layer with self-loops writes neither index column and none of the later layers' arguments: run from any
  buffer contents W, its fifty-nine operations leave those buffers holding what W holds there.
-/
import proofs.«126889_j85615878078998_1_alg».proof.Proof.RefStretch2

set_option maxRecDepth 16384

noncomputable section

namespace Cert.RefNet

open Cert.ReferenceIdeal Cert.ReferenceIdeal.Gen Idealize.ShloMosaic Idealize.ShloMosaic.TcCoe Idealize.SL.Sem Idealize.ShloMosaic.StableHlo
open Cert.Gcn Cert.HybridNet

variable [Cert.KernelIdeal.Facts]

theorem ops2_src (W : Val) : after ops2 W (Proc.devRef .tc main_v1) = W (Proc.devRef .tc main_v1) := by
  after_results_simp <;> rfl

theorem ops2_dst (W : Val) : after ops2 W (Proc.devRef .tc main_v3) = W (Proc.devRef .tc main_v3) := by
  after_results_simp <;> rfl

theorem ops2_arg7 (W : Val) : after ops2 W (Proc.devRef .tc main_arg7) = W (Proc.devRef .tc main_arg7) := by
  after_results_simp <;> rfl

theorem ops2_arg8 (W : Val) : after ops2 W (Proc.devRef .tc main_arg8) = W (Proc.devRef .tc main_arg8) := by
  after_results_simp <;> rfl

theorem ops2_arg9 (W : Val) : after ops2 W (Proc.devRef .tc main_arg9) = W (Proc.devRef .tc main_arg9) := by
  after_results_simp <;> rfl

theorem ops2_arg10 (W : Val) : after ops2 W (Proc.devRef .tc main_arg10) = W (Proc.devRef .tc main_arg10) := by
  after_results_simp <;> rfl

theorem ops2_arg11 (W : Val) : after ops2 W (Proc.devRef .tc main_arg11) = W (Proc.devRef .tc main_arg11) := by
  after_results_simp <;> rfl

theorem ops2_arg12 (W : Val) : after ops2 W (Proc.devRef .tc main_arg12) = W (Proc.devRef .tc main_arg12) := by
  after_results_simp <;> rfl

end Cert.RefNet

end
-- ==== Proof.RefFrame.lean ====
/-
  The reference program writes none of its argument buffers: run from any buffer contents V, its 177 operations
  leave each argument buffer holding what V holds there (every operation writes its own result buffer, and no
  result buffer is an argument). Here the first seven arguments: the node features, the edge array, and the
  weights and biases of the first two layers.
-/
import proofs.«126889_j85615878078998_1_alg».proof.Proof.RefRun
import Idealize.ShloMosaic.PureOps.Ideal

set_option maxRecDepth 16384

noncomputable section

namespace Cert.RefNet

open Cert.ReferenceIdeal Cert.ReferenceIdeal.Gen Idealize.ShloMosaic Idealize.ShloMosaic.TcCoe Idealize.SL.Sem Idealize.ShloMosaic.StableHlo

/-- The buffer contents of one device of the reference program. -/
abbrev Val' : Type := Valuation τ sig (Elt Ideal)

theorem ops_arg0 (V : Val') : after (RunP.ops (F := Ideal)) V (Proc.devRef .tc main_arg0) = V (Proc.devRef .tc main_arg0) := by
  after_results_simp <;> rfl

theorem ops_arg1 (V : Val') : after (RunP.ops (F := Ideal)) V (Proc.devRef .tc main_arg1) = V (Proc.devRef .tc main_arg1) := by
  after_results_simp <;> rfl

theorem ops_arg2 (V : Val') : after (RunP.ops (F := Ideal)) V (Proc.devRef .tc main_arg2) = V (Proc.devRef .tc main_arg2) := by
  after_results_simp <;> rfl

theorem ops_arg3 (V : Val') : after (RunP.ops (F := Ideal)) V (Proc.devRef .tc main_arg3) = V (Proc.devRef .tc main_arg3) := by
  after_results_simp <;> rfl

theorem ops_arg4 (V : Val') : after (RunP.ops (F := Ideal)) V (Proc.devRef .tc main_arg4) = V (Proc.devRef .tc main_arg4) := by
  after_results_simp <;> rfl

theorem ops_arg5 (V : Val') : after (RunP.ops (F := Ideal)) V (Proc.devRef .tc main_arg5) = V (Proc.devRef .tc main_arg5) := by
  after_results_simp <;> rfl

theorem ops_arg6 (V : Val') : after (RunP.ops (F := Ideal)) V (Proc.devRef .tc main_arg6) = V (Proc.devRef .tc main_arg6) := by
  after_results_simp <;> rfl

end Cert.RefNet

end
-- ==== Proof.RefFrameB.lean ====
/-
  The reference program writes none of its argument buffers, continued: the last six arguments, the weights and
  biases of the last two layers.
-/
import proofs.«126889_j85615878078998_1_alg».proof.Proof.RefFrame

set_option maxRecDepth 16384

noncomputable section

namespace Cert.RefNet

open Cert.ReferenceIdeal Cert.ReferenceIdeal.Gen Idealize.ShloMosaic Idealize.ShloMosaic.TcCoe Idealize.SL.Sem Idealize.ShloMosaic.StableHlo

theorem ops_arg7 (V : Val') : after (RunP.ops (F := Ideal)) V (Proc.devRef .tc main_arg7) = V (Proc.devRef .tc main_arg7) := by
  after_results_simp <;> rfl

theorem ops_arg8 (V : Val') : after (RunP.ops (F := Ideal)) V (Proc.devRef .tc main_arg8) = V (Proc.devRef .tc main_arg8) := by
  after_results_simp <;> rfl

theorem ops_arg9 (V : Val') : after (RunP.ops (F := Ideal)) V (Proc.devRef .tc main_arg9) = V (Proc.devRef .tc main_arg9) := by
  after_results_simp <;> rfl

theorem ops_arg10 (V : Val') : after (RunP.ops (F := Ideal)) V (Proc.devRef .tc main_arg10) = V (Proc.devRef .tc main_arg10) := by
  after_results_simp <;> rfl

theorem ops_arg11 (V : Val') : after (RunP.ops (F := Ideal)) V (Proc.devRef .tc main_arg11) = V (Proc.devRef .tc main_arg11) := by
  after_results_simp <;> rfl

theorem ops_arg12 (V : Val') : after (RunP.ops (F := Ideal)) V (Proc.devRef .tc main_arg12) = V (Proc.devRef .tc main_arg12) := by
  after_results_simp <;> rfl

end Cert.RefNet

end
-- ==== Proof.RefValue.lean ====
/-
  The reference program's run: on every device its result buffer ends at the network of Net.lean applied to the
  thirteen argument arrays, and the argument buffers end unchanged.

  The program is a straight line of 177 host operations, so what a buffer holds at the end is the fold of the
  operations' results over the launch contents. The line is cut into the four layers' stretches; each stretch's
  lemma reads its output buffer as the layer function of the buffers it starts from, whatever they hold, and says
  which buffers it leaves alone. Chaining the four through the index columns, the layer outputs and the arguments
  gives the network.
-/
import proofs.«126889_j85615878078998_1_alg».proof.Proof.RefSplit
import proofs.«126889_j85615878078998_1_alg».proof.Proof.RefStretch2Keep
import proofs.«126889_j85615878078998_1_alg».proof.Proof.RefFrameB

set_option maxRecDepth 16384

noncomputable section

namespace Cert.RefNet

open Cert.ReferenceIdeal Cert.ReferenceIdeal.Gen Idealize.ShloMosaic Idealize.ShloMosaic.TcCoe Idealize.SL.Sem Idealize.ShloMosaic.StableHlo
open Cert.Gcn Cert.HybridNet

section

variable [Cert.KernelIdeal.Facts]

/-- Run from any buffer contents V, the program leaves the network of V's argument arrays in its result buffer. -/
theorem ops_out (V : Val) : after (RunP.ops (F := Ideal)) V (Proc.devRef .tc main_v127)
    = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_split, after_append, after_append, after_append, ops4_out,
    ops3_src, ops3_dst, ops3_arg10, ops3_arg11, ops3_arg12, ops3_out,
    ops2_src, ops2_dst, ops2_arg7, ops2_arg8, ops2_arg9, ops2_arg10, ops2_arg11, ops2_arg12, ops2_out,
    ops1_src, ops1_dst, ops1_arg5, ops1_arg6, ops1_arg7, ops1_arg8, ops1_arg9, ops1_arg10, ops1_arg11, ops1_arg12, ops1_out]
  rfl

end

/-- On every device, from any memory with zero counters: every weakly fair execution of the reference program
    terminates with its result buffer at the network of the argument arrays and the arguments unchanged. -/
theorem run [Cert.KernelIdeal.Facts] [Cert.ReferenceIdeal.Facts]
    (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v127) = net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) :=
  (θ_run _ _ _).mono (fun _ h c => ⟨(h c main_v127).trans (ops_out _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _),
      (h c main_arg8).trans (ops_arg8 _),
      (h c main_arg9).trans (ops_arg9 _),
      (h c main_arg10).trans (ops_arg10 _),
      (h c main_arg11).trans (ops_arg11 _),
      (h c main_arg12).trans (ops_arg12 _)⟩)
    (RunP.run (F := Ideal) m ρ)

end Cert.RefNet

end
-- ==== Proof.lean ====
/-
  The certificate of a four-layer graph network on 50000 nodes and 800000 edges — a mean-aggregation layer, a
  graph-convolution layer with self-loops and symmetric normalisation, two more mean-aggregation layers, the
  log-softmax of each row — computed by five tiled kernels among gathers and scatter-adds on the host, against the
  same network written with whole-array products.

  Over the extended reals both programs compute ONE function of the thirteen arguments (Proof/Net.lean). The
  graph enters through a gather of rows at the sources and a scatter-add at the destinations, which both programs
  apply to the same operands and which are never opened. Each kernel works on blocks of 2000 rows; a row of a
  layer's output only reads that row of its row operands, so the 25 blocks of a region's output are the blocks of
  the whole-array layer (Proof/Region0 … Region4 over the payloads of Proof/KernelBlocks.lean): a product on the
  matrix unit into a zero accumulator is the product's sum, and a change of float format is the identity. The one
  place the two programs differ in arithmetic is the neighbour mean: the kernel program multiplies by
  1 / max(count, 1), the reference divides by max(count, 1); the divisor is never zero, and for such a divisor
  a·(1/y) = a/y for EVERY extended real a (both are a·y⁻¹), so no finiteness of the inputs is used anywhere.
  The reference's log-softmax takes one more maximum with minus infinity, which changes nothing.
  The three frames: the two kernel programs' are the generated frame certificates; the reference's is its run with
  the result dropped. The idealization rewrote nothing, so its claim is trivially true.
-/
import proofs.«126889_j85615878078998_1_alg».proof.Defs
import proofs.«126889_j85615878078998_1_alg».proof.Proof.Gen.Kernel
import proofs.«126889_j85615878078998_1_alg».proof.Proof.Gen.Kernel.Skeleton
import proofs.«126889_j85615878078998_1_alg».proof.Proof.Gen.Kernel.Launch
import proofs.«126889_j85615878078998_1_alg».proof.Proof.Gen.Kernel.Points
import proofs.«126889_j85615878078998_1_alg».proof.Proof.Gen.Kernel.Frame
import proofs.«126889_j85615878078998_1_alg».proof.Proof.Gen.KernelIdeal
import proofs.«126889_j85615878078998_1_alg».proof.Proof.Gen.KernelIdeal.Skeleton
import proofs.«126889_j85615878078998_1_alg».proof.Proof.Gen.KernelIdeal.Launch
import proofs.«126889_j85615878078998_1_alg».proof.Proof.Gen.KernelIdeal.Points
import proofs.«126889_j85615878078998_1_alg».proof.Proof.Gen.KernelIdeal.Frame
import proofs.«126889_j85615878078998_1_alg».proof.Proof.Gen.ReferenceIdeal
import proofs.«126889_j85615878078998_1_alg».proof.Proof.Gen.Pre_finite_inputs
import proofs.«126889_j85615878078998_1_alg».proof.Proof.KernelRun
import proofs.«126889_j85615878078998_1_alg».proof.Proof.KernelValue
import proofs.«126889_j85615878078998_1_alg».proof.Proof.RefValue
import Idealize.ShloMosaic.Adequacy
import Idealize.ShloMosaic.Init

noncomputable section

namespace Cert.Proof

open Idealize.ShloMosaic Idealize.ShloMosaic.TcCoe Idealize.SL.Sem Cert.HybridNet

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.RefNet.run m ρ)

/-- Both programs end with the network of the arguments in their result buffer; the arguments agree. -/
theorem algebraic : Cert.algebraic_KernelIdeal_ReferenceIdeal := by
  intro m ρ m' ρ' _ hagree
  refine ⟨fun c => net (KernelValue.a0 m c) (KernelValue.a1 m c) (KernelValue.a2 m c) (KernelValue.a3 m c) (KernelValue.a4 m c)
      (KernelValue.a5 m c) (KernelValue.a6 m c) (KernelValue.a7 m c) (KernelValue.a8 m c) (KernelValue.a9 m c) (KernelValue.a10 m c)
      (KernelValue.a11 m c) (KernelValue.a12 m c), ?_, ?_⟩
  · exact (θ_run Cert.KernelIdeal.defs _ _).mono
      (fun r h c => ⟨(h c).1.trans (KernelValue.result_eq m ρ c), (h c).2⟩)
      (Cert.KernelIdeal.RunOut.run_out (F := Ideal) m ρ)
  · refine (θ_run Cert.ReferenceIdeal.defs _ _).mono (fun r h c => ⟨(h c).1.trans ?_, (h c).2⟩) (Cert.RefNet.run m' ρ')
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
